-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S2x512 : Shape := ⟨2, ![2, 512]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S2x512 .f32) : IVec S_ 1 :=
  let main_v0 : FVec F S2x512 .f32 := Host.absf main_arg1
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 1#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S2x512 : Shape := ⟨2, ![2, 512]⟩
abbrev S1x512 : Shape := ⟨2, ![1, 512]⟩
abbrev S512 : Shape := ⟨1, ![512]⟩
abbrev S_ : Shape := ⟨0, ![]⟩
abbrev S819200 : Shape := ⟨1, ![819200]⟩
abbrev S819200x512 : Shape := ⟨2, ![819200, 512]⟩
abbrev S25600 : Shape := ⟨1, ![25600]⟩
abbrev S64x512 : Shape := ⟨2, ![64, 512]⟩
abbrev S16 : Shape := ⟨1, ![16]⟩
abbrev S1 : Shape := ⟨1, ![1]⟩
abbrev S1x16 : Shape := ⟨2, ![1, 16]⟩
abbrev S4096x200x512 : Shape := ⟨3, ![4096, 200, 512]⟩

abbrev nBuf : Table → Nat
  | .hbm => 10
  | .local .scVector .vmem => 4
  | _ => 0

abbrev bufTy : (tb : Table) → Fin (nBuf tb) → BufTy
  | .hbm, ⟨0, _⟩ => ⟨S4096x200, .i32⟩
  | .hbm, ⟨1, _⟩ => ⟨S2x512, .f32⟩
  | .hbm, ⟨2, _⟩ => ⟨S1x512, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S819200, .i32⟩
  | .hbm, ⟨8, _⟩ => ⟨S819200x512, .f32⟩
  | .hbm, ⟨9, _⟩ => ⟨S4096x200x512, .f32⟩
  | .local .scVector .vmem, ⟨0, _⟩ => ⟨S25600, .i32⟩
  | .local .scVector .vmem, ⟨1, _⟩ => ⟨S512, .f32⟩
  | .local .scVector .vmem, ⟨2, _⟩ => ⟨S64x512, .f32⟩
  | .local .scVector .vmem, ⟨3, _⟩ => ⟨S64x512, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v3_scv : Ref sig .scVector := ⟨.hbm, 6, rfl⟩
abbrev main_v4_scv : Ref sig .scVector := ⟨.hbm, 7, rfl⟩
abbrev main_v5_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k0_t1_loop : Scf.Loop 32 :=
  let c0_i32_0 : BitVec 32 := 0#32
  let c4_i32 : BitVec 32 := 4#32
  let v67 : BitVec 32 := Scalar.addi c0_i32_0 c4_i32
  let c1_i32 : BitVec 32 := 1#32
  ⟨c0_i32_0, v67, c1_i32⟩
def k0_off2 (k0_t1 : Fin k0_t1_loop.trips) : Fin 1 → Nat :=
  let c0_i32_20 : BitVec 32 := 0#32
  let c0_i32_0 : BitVec 32 := 0#32
  let c1_i32 : BitVec 32 := 1#32
  let arg11 : BitVec 32 := Scf.iv c0_i32_0 c1_i32 k0_t1
  let c16_i32 : BitVec 32 := 16#32
  let v82 : BitVec 32 := Scalar.muli arg11 c16_i32
  let v83 : BitVec 32 := Scalar.addi c0_i32_20 v82
  let v84 : Index := Scalar.indexCast v83
  ![v84.toNat]
def k0_off3 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v94 : Index := Scalar.indexCast v92
  let c0_23 : Index := 0#32
  ![v94.toNat, 0]
def k0_off4 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v99 : Index := Scalar.indexCast v92
  let c16_24 : Index := 16#32
  ![v99.toNat, 16]
def k0_off5 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v104 : Index := Scalar.indexCast v92
  let c32_25 : Index := 32#32
  ![v104.toNat, 32]
def k0_off6 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v109 : Index := Scalar.indexCast v92
  let c48_26 : Index := 48#32
  ![v109.toNat, 48]
def k0_off7 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v114 : Index := Scalar.indexCast v92
  let c64_27 : Index := 64#32
  ![v114.toNat, 64]
def k0_off8 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v119 : Index := Scalar.indexCast v92
  let c80_28 : Index := 80#32
  ![v119.toNat, 80]
def k0_off9 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v124 : Index := Scalar.indexCast v92
  let c96_29 : Index := 96#32
  ![v124.toNat, 96]
def k0_off10 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v129 : Index := Scalar.indexCast v92
  let c112_30 : Index := 112#32
  ![v129.toNat, 112]
def k0_off11 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v134 : Index := Scalar.indexCast v92
  let c128_31 : Index := 128#32
  ![v134.toNat, 128]
def k0_off12 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v139 : Index := Scalar.indexCast v92
  let c144_32 : Index := 144#32
  ![v139.toNat, 144]
def k0_off13 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v144 : Index := Scalar.indexCast v92
  let c160_33 : Index := 160#32
  ![v144.toNat, 160]
def k0_off14 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v149 : Index := Scalar.indexCast v92
  let c176_34 : Index := 176#32
  ![v149.toNat, 176]
def k0_off15 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v154 : Index := Scalar.indexCast v92
  let c192_35 : Index := 192#32
  ![v154.toNat, 192]
def k0_off16 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v159 : Index := Scalar.indexCast v92
  let c208_36 : Index := 208#32
  ![v159.toNat, 208]
def k0_off17 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v164 : Index := Scalar.indexCast v92
  let c224_37 : Index := 224#32
  ![v164.toNat, 224]
def k0_off18 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v169 : Index := Scalar.indexCast v92
  let c240_38 : Index := 240#32
  ![v169.toNat, 240]
def k0_off19 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v174 : Index := Scalar.indexCast v92
  let c256_39 : Index := 256#32
  ![v174.toNat, 256]
def k0_off20 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v179 : Index := Scalar.indexCast v92
  let c272_40 : Index := 272#32
  ![v179.toNat, 272]
def k0_off21 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v184 : Index := Scalar.indexCast v92
  let c288_41 : Index := 288#32
  ![v184.toNat, 288]
def k0_off22 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v189 : Index := Scalar.indexCast v92
  let c304_42 : Index := 304#32
  ![v189.toNat, 304]
def k0_off23 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v194 : Index := Scalar.indexCast v92
  let c320_43 : Index := 320#32
  ![v194.toNat, 320]
def k0_off24 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v199 : Index := Scalar.indexCast v92
  let c336_44 : Index := 336#32
  ![v199.toNat, 336]
def k0_off25 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v204 : Index := Scalar.indexCast v92
  let c352_45 : Index := 352#32
  ![v204.toNat, 352]
def k0_off26 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v209 : Index := Scalar.indexCast v92
  let c368_46 : Index := 368#32
  ![v209.toNat, 368]
def k0_off27 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v214 : Index := Scalar.indexCast v92
  let c384_47 : Index := 384#32
  ![v214.toNat, 384]
def k0_off28 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v219 : Index := Scalar.indexCast v92
  let c400_48 : Index := 400#32
  ![v219.toNat, 400]
def k0_off29 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v224 : Index := Scalar.indexCast v92
  let c416_49 : Index := 416#32
  ![v224.toNat, 416]
def k0_off30 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v229 : Index := Scalar.indexCast v92
  let c432_50 : Index := 432#32
  ![v229.toNat, 432]
def k0_off31 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v234 : Index := Scalar.indexCast v92
  let c448_51 : Index := 448#32
  ![v234.toNat, 448]
def k0_off32 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v239 : Index := Scalar.indexCast v92
  let c464_52 : Index := 464#32
  ![v239.toNat, 464]
def k0_off33 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v244 : Index := Scalar.indexCast v92
  let c480_53 : Index := 480#32
  ![v244.toNat, 480]
def k0_off34 (k0_t1 : Fin k0_t1_loop.trips) (c0_i32_22 : BitVec 32) : Fin 2 → Nat :=
  let c0_i32_0 : BitVec 32 := 0#32
  let c1_i32 : BitVec 32 := 1#32
  let arg11 : BitVec 32 := Scf.iv c0_i32_0 c1_i32 k0_t1
  let c16_i32_21 : BitVec 32 := 16#32
  let v91 : BitVec 32 := Scalar.muli arg11 c16_i32_21
  let v92 : BitVec 32 := Scalar.addi v91 c0_i32_22
  let v249 : Index := Scalar.indexCast v92
  let c496_54 : Index := 496#32
  ![v249.toNat, 496]
def k0_off35 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v68 : BitVec 32 := Scalar.addi v2 c0_i32_2
  let c0_i32_3 : BitVec 32 := 0#32
  ![v68.toNat, 0]
def k0_off35_at (r : Fin 4) : BitVec 32 :=
  if r.val < 2 then
    if r.val < 1 then
      0#32
    else
      64#32
  else
    if r.val < 3 then
      25472#32
    else
      25536#32
@[reducible] def k0_t2_loop : Scf.Loop 32 :=
  let c0_i32_6 : BitVec 32 := 0#32
  let c4_i32_7 : BitVec 32 := 4#32
  let v71 : BitVec 32 := Scalar.addi c0_i32_6 c4_i32_7
  let c1_i32_8 : BitVec 32 := 1#32
  ⟨c0_i32_6, v71, c1_i32_8⟩
def k0_off36 (k0_t2 : Fin k0_t2_loop.trips) : Fin 1 → Nat :=
  let c64_i32_20 : BitVec 32 := 64#32
  let c0_i32_6 : BitVec 32 := 0#32
  let c1_i32_8 : BitVec 32 := 1#32
  let arg11 : BitVec 32 := Scf.iv c0_i32_6 c1_i32_8 k0_t2
  let c16_i32 : BitVec 32 := 16#32
  let v82 : BitVec 32 := Scalar.muli arg11 c16_i32
  let v83 : BitVec 32 := Scalar.addi c64_i32_20 v82
  let v84 : Index := Scalar.indexCast v83
  ![v84.toNat]
def k0_off37 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v94 : Index := Scalar.indexCast v92
  let c0_23 : Index := 0#32
  ![v94.toNat, 0]
def k0_off38 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v99 : Index := Scalar.indexCast v92
  let c16_24 : Index := 16#32
  ![v99.toNat, 16]
def k0_off39 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v104 : Index := Scalar.indexCast v92
  let c32_25 : Index := 32#32
  ![v104.toNat, 32]
def k0_off40 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v109 : Index := Scalar.indexCast v92
  let c48_26 : Index := 48#32
  ![v109.toNat, 48]
def k0_off41 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v114 : Index := Scalar.indexCast v92
  let c64_27 : Index := 64#32
  ![v114.toNat, 64]
def k0_off42 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v119 : Index := Scalar.indexCast v92
  let c80_28 : Index := 80#32
  ![v119.toNat, 80]
def k0_off43 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v124 : Index := Scalar.indexCast v92
  let c96_29 : Index := 96#32
  ![v124.toNat, 96]
def k0_off44 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v129 : Index := Scalar.indexCast v92
  let c112_30 : Index := 112#32
  ![v129.toNat, 112]
def k0_off45 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v134 : Index := Scalar.indexCast v92
  let c128_31 : Index := 128#32
  ![v134.toNat, 128]
def k0_off46 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v139 : Index := Scalar.indexCast v92
  let c144_32 : Index := 144#32
  ![v139.toNat, 144]
def k0_off47 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v144 : Index := Scalar.indexCast v92
  let c160_33 : Index := 160#32
  ![v144.toNat, 160]
def k0_off48 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v149 : Index := Scalar.indexCast v92
  let c176_34 : Index := 176#32
  ![v149.toNat, 176]
def k0_off49 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v154 : Index := Scalar.indexCast v92
  let c192_35 : Index := 192#32
  ![v154.toNat, 192]
def k0_off50 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v159 : Index := Scalar.indexCast v92
  let c208_36 : Index := 208#32
  ![v159.toNat, 208]
def k0_off51 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v164 : Index := Scalar.indexCast v92
  let c224_37 : Index := 224#32
  ![v164.toNat, 224]
def k0_off52 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v169 : Index := Scalar.indexCast v92
  let c240_38 : Index := 240#32
  ![v169.toNat, 240]
def k0_off53 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v174 : Index := Scalar.indexCast v92
  let c256_39 : Index := 256#32
  ![v174.toNat, 256]
def k0_off54 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v179 : Index := Scalar.indexCast v92
  let c272_40 : Index := 272#32
  ![v179.toNat, 272]
def k0_off55 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v184 : Index := Scalar.indexCast v92
  let c288_41 : Index := 288#32
  ![v184.toNat, 288]
def k0_off56 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v189 : Index := Scalar.indexCast v92
  let c304_42 : Index := 304#32
  ![v189.toNat, 304]
def k0_off57 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v194 : Index := Scalar.indexCast v92
  let c320_43 : Index := 320#32
  ![v194.toNat, 320]
def k0_off58 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v199 : Index := Scalar.indexCast v92
  let c336_44 : Index := 336#32
  ![v199.toNat, 336]
def k0_off59 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v204 : Index := Scalar.indexCast v92
  let c352_45 : Index := 352#32
  ![v204.toNat, 352]
def k0_off60 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v209 : Index := Scalar.indexCast v92
  let c368_46 : Index := 368#32
  ![v209.toNat, 368]
def k0_off61 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v214 : Index := Scalar.indexCast v92
  let c384_47 : Index := 384#32
  ![v214.toNat, 384]
def k0_off62 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v219 : Index := Scalar.indexCast v92
  let c400_48 : Index := 400#32
  ![v219.toNat, 400]
def k0_off63 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v224 : Index := Scalar.indexCast v92
  let c416_49 : Index := 416#32
  ![v224.toNat, 416]
def k0_off64 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v229 : Index := Scalar.indexCast v92
  let c432_50 : Index := 432#32
  ![v229.toNat, 432]
def k0_off65 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v234 : Index := Scalar.indexCast v92
  let c448_51 : Index := 448#32
  ![v234.toNat, 448]
def k0_off66 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v239 : Index := Scalar.indexCast v92
  let c464_52 : Index := 464#32
  ![v239.toNat, 464]
def k0_off67 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v244 : Index := Scalar.indexCast v92
  let c480_53 : Index := 480#32
  ![v244.toNat, 480]
def k0_off68 (k0_t2 : Fin k0_t2_loop.trips) (c0_i32_22 : BitVec 32) : Fin 2 → Nat :=
  let c0_i32_6 : BitVec 32 := 0#32
  let c1_i32_8 : BitVec 32 := 1#32
  let arg11 : BitVec 32 := Scf.iv c0_i32_6 c1_i32_8 k0_t2
  let c16_i32_21 : BitVec 32 := 16#32
  let v91 : BitVec 32 := Scalar.muli arg11 c16_i32_21
  let v92 : BitVec 32 := Scalar.addi v91 c0_i32_22
  let v249 : Index := Scalar.indexCast v92
  let c496_54 : Index := 496#32
  ![v249.toNat, 496]
@[reducible] def k0_t3_loop : Scf.Loop 32 :=
  let c0_i32_13 : BitVec 32 := 0#32
  let c200_i32 : BitVec 32 := 200#32
  let v75 : BitVec 32 := Scalar.addi c0_i32_13 c200_i32
  let c1_i32_14 : BitVec 32 := 1#32
  ⟨c0_i32_13, v75, c1_i32_14⟩
def k0_cond1 (k0_t3 : Fin k0_t3_loop.trips) : BitVec 1 :=
  let c0_i32_13 : BitVec 32 := 0#32
  let c1_i32_14 : BitVec 32 := 1#32
  let arg11 : BitVec 32 := Scf.iv c0_i32_13 c1_i32_14 k0_t3
  let c199_i32 : BitVec 32 := 199#32
  let v84 : BitVec 1 := Scalar.cmpi .slt arg11 c199_i32
  let v85 : BitVec 32 := Scalar.extui v84
  let c0_i32_22 : BitVec 32 := 0#32
  let v86 : BitVec 1 := Scalar.cmpi .ne v85 c0_i32_22
  v86

def k0_off69 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_20 : BitVec 32 := 2#32
  let c0_i32_13 : BitVec 32 := 0#32
  let c1_i32_14 : BitVec 32 := 1#32
  let arg11 : BitVec 32 := Scf.iv c0_i32_13 c1_i32_14 k0_t3
  let v82 : BitVec 32 := Scalar.muli c2_i32_20 arg11
  let c0_i32_21 : BitVec 32 := 0#32
  let v83 : BitVec 32 := Scalar.addi v82 c0_i32_21
  let c64_i32_27 : BitVec 32 := 64#32
  let v92 : BitVec 32 := Scalar.muli v83 c64_i32_27
  let v93 : BitVec 32 := Scalar.addi v2 v92
  let c0_i32_28 : BitVec 32 := 0#32
  ![v93.toNat, 0]
@[reducible] def k0_t4_loop : Scf.Loop 32 :=
  let c0_i32_32 : BitVec 32 := 0#32
  let c4_i32_33 : BitVec 32 := 4#32
  let v97 : BitVec 32 := Scalar.addi c0_i32_32 c4_i32_33
  let c1_i32_34 : BitVec 32 := 1#32
  ⟨c0_i32_32, v97, c1_i32_34⟩
def k0_off70 (k0_t3 : Fin k0_t3_loop.trips) (k0_t4 : Fin k0_t4_loop.trips) : Fin 1 → Nat :=
  let c2_i32_20 : BitVec 32 := 2#32
  let c0_i32_13 : BitVec 32 := 0#32
  let c1_i32_14 : BitVec 32 := 1#32
  let arg11 : BitVec 32 := Scf.iv c0_i32_13 c1_i32_14 k0_t3
  let v82 : BitVec 32 := Scalar.muli c2_i32_20 arg11
  let c0_i32_21 : BitVec 32 := 0#32
  let v83 : BitVec 32 := Scalar.addi v82 c0_i32_21
  let c2_i32_30 : BitVec 32 := 2#32
  let v96 : BitVec 32 := Scalar.addi v83 c2_i32_30
  let c64_i32_40 : BitVec 32 := 64#32
  let v103 : BitVec 32 := Scalar.muli v96 c64_i32_40
  let c0_i32_32 : BitVec 32 := 0#32
  let c1_i32_34 : BitVec 32 := 1#32
  let arg12 : BitVec 32 := Scf.iv c0_i32_32 c1_i32_34 k0_t4
  let c16_i32 : BitVec 32 := 16#32
  let v104 : BitVec 32 := Scalar.muli arg12 c16_i32
  let v105 : BitVec 32 := Scalar.addi v103 v104
  let v106 : Index := Scalar.indexCast v105
  ![v106.toNat]
def k0_off71 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v116 : Index := Scalar.indexCast v114
  let c0_43 : Index := 0#32
  ![v116.toNat, 0]
def k0_off72 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v121 : Index := Scalar.indexCast v114
  let c16_44 : Index := 16#32
  ![v121.toNat, 16]
def k0_off73 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v126 : Index := Scalar.indexCast v114
  let c32_45 : Index := 32#32
  ![v126.toNat, 32]
def k0_off74 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v131 : Index := Scalar.indexCast v114
  let c48_46 : Index := 48#32
  ![v131.toNat, 48]
def k0_off75 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v136 : Index := Scalar.indexCast v114
  let c64_47 : Index := 64#32
  ![v136.toNat, 64]
def k0_off76 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v141 : Index := Scalar.indexCast v114
  let c80_48 : Index := 80#32
  ![v141.toNat, 80]
def k0_off77 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v146 : Index := Scalar.indexCast v114
  let c96_49 : Index := 96#32
  ![v146.toNat, 96]
def k0_off78 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v151 : Index := Scalar.indexCast v114
  let c112_50 : Index := 112#32
  ![v151.toNat, 112]
def k0_off79 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v156 : Index := Scalar.indexCast v114
  let c128_51 : Index := 128#32
  ![v156.toNat, 128]
def k0_off80 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v161 : Index := Scalar.indexCast v114
  let c144_52 : Index := 144#32
  ![v161.toNat, 144]
def k0_off81 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v166 : Index := Scalar.indexCast v114
  let c160_53 : Index := 160#32
  ![v166.toNat, 160]
def k0_off82 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v171 : Index := Scalar.indexCast v114
  let c176_54 : Index := 176#32
  ![v171.toNat, 176]
def k0_off83 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v176 : Index := Scalar.indexCast v114
  let c192_55 : Index := 192#32
  ![v176.toNat, 192]
def k0_off84 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v181 : Index := Scalar.indexCast v114
  let c208_56 : Index := 208#32
  ![v181.toNat, 208]
def k0_off85 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v186 : Index := Scalar.indexCast v114
  let c224_57 : Index := 224#32
  ![v186.toNat, 224]
def k0_off86 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v191 : Index := Scalar.indexCast v114
  let c240_58 : Index := 240#32
  ![v191.toNat, 240]
def k0_off87 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v196 : Index := Scalar.indexCast v114
  let c256_59 : Index := 256#32
  ![v196.toNat, 256]
def k0_off88 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v201 : Index := Scalar.indexCast v114
  let c272_60 : Index := 272#32
  ![v201.toNat, 272]
def k0_off89 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v206 : Index := Scalar.indexCast v114
  let c288_61 : Index := 288#32
  ![v206.toNat, 288]
def k0_off90 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v211 : Index := Scalar.indexCast v114
  let c304_62 : Index := 304#32
  ![v211.toNat, 304]
def k0_off91 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v216 : Index := Scalar.indexCast v114
  let c320_63 : Index := 320#32
  ![v216.toNat, 320]
def k0_off92 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v221 : Index := Scalar.indexCast v114
  let c336_64 : Index := 336#32
  ![v221.toNat, 336]
def k0_off93 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v226 : Index := Scalar.indexCast v114
  let c352_65 : Index := 352#32
  ![v226.toNat, 352]
def k0_off94 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v231 : Index := Scalar.indexCast v114
  let c368_66 : Index := 368#32
  ![v231.toNat, 368]
def k0_off95 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v236 : Index := Scalar.indexCast v114
  let c384_67 : Index := 384#32
  ![v236.toNat, 384]
def k0_off96 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v241 : Index := Scalar.indexCast v114
  let c400_68 : Index := 400#32
  ![v241.toNat, 400]
def k0_off97 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v246 : Index := Scalar.indexCast v114
  let c416_69 : Index := 416#32
  ![v246.toNat, 416]
def k0_off98 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v251 : Index := Scalar.indexCast v114
  let c432_70 : Index := 432#32
  ![v251.toNat, 432]
def k0_off99 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v256 : Index := Scalar.indexCast v114
  let c448_71 : Index := 448#32
  ![v256.toNat, 448]
def k0_off100 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v261 : Index := Scalar.indexCast v114
  let c464_72 : Index := 464#32
  ![v261.toNat, 464]
def k0_off101 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v266 : Index := Scalar.indexCast v114
  let c480_73 : Index := 480#32
  ![v266.toNat, 480]
def k0_off102 (k0_t4 : Fin k0_t4_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t4
  let c16_i32_41 : BitVec 32 := 16#32
  let v113 : BitVec 32 := Scalar.muli arg12 c16_i32_41
  let v114 : BitVec 32 := Scalar.addi v113 c0_i32_42
  let v271 : Index := Scalar.indexCast v114
  let c496_74 : Index := 496#32
  ![v271.toNat, 496]
def k0_off103 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_20 : BitVec 32 := 2#32
  let c0_i32_13 : BitVec 32 := 0#32
  let c1_i32_14 : BitVec 32 := 1#32
  let arg11 : BitVec 32 := Scf.iv c0_i32_13 c1_i32_14 k0_t3
  let v82 : BitVec 32 := Scalar.muli c2_i32_20 arg11
  let c0_i32_21 : BitVec 32 := 0#32
  let v83 : BitVec 32 := Scalar.addi v82 c0_i32_21
  let c2_i32_36 : BitVec 32 := 2#32
  let v98 : BitVec 32 := Scalar.addi v83 c2_i32_36
  let c64_i32_37 : BitVec 32 := 64#32
  let v99 : BitVec 32 := Scalar.muli v98 c64_i32_37
  let v100 : BitVec 32 := Scalar.addi v2 v99
  let c0_i32_38 : BitVec 32 := 0#32
  ![v100.toNat, 0]
def k0_cond2 (k0_t3 : Fin k0_t3_loop.trips) : BitVec 1 :=
  let c0_i32_13 : BitVec 32 := 0#32
  let c1_i32_14 : BitVec 32 := 1#32
  let arg11 : BitVec 32 := Scf.iv c0_i32_13 c1_i32_14 k0_t3
  let c199_i32_25 : BitVec 32 := 199#32
  let v89 : BitVec 1 := Scalar.cmpi .slt arg11 c199_i32_25
  let v90 : BitVec 32 := Scalar.extui v89
  let c0_i32_26 : BitVec 32 := 0#32
  let v91 : BitVec 1 := Scalar.cmpi .ne v90 c0_i32_26
  v91

def k0_off104 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_23 : BitVec 32 := 2#32
  let c0_i32_13 : BitVec 32 := 0#32
  let c1_i32_14 : BitVec 32 := 1#32
  let arg11 : BitVec 32 := Scf.iv c0_i32_13 c1_i32_14 k0_t3
  let v87 : BitVec 32 := Scalar.muli c2_i32_23 arg11
  let c1_i32_24 : BitVec 32 := 1#32
  let v88 : BitVec 32 := Scalar.addi v87 c1_i32_24
  let c64_i32_27 : BitVec 32 := 64#32
  let v92 : BitVec 32 := Scalar.muli v88 c64_i32_27
  let v93 : BitVec 32 := Scalar.addi v2 v92
  let c0_i32_28 : BitVec 32 := 0#32
  ![v93.toNat, 0]
@[reducible] def k0_t5_loop : Scf.Loop 32 :=
  let c0_i32_32 : BitVec 32 := 0#32
  let c4_i32_33 : BitVec 32 := 4#32
  let v97 : BitVec 32 := Scalar.addi c0_i32_32 c4_i32_33
  let c1_i32_34 : BitVec 32 := 1#32
  ⟨c0_i32_32, v97, c1_i32_34⟩
def k0_off105 (k0_t3 : Fin k0_t3_loop.trips) (k0_t5 : Fin k0_t5_loop.trips) : Fin 1 → Nat :=
  let c2_i32_23 : BitVec 32 := 2#32
  let c0_i32_13 : BitVec 32 := 0#32
  let c1_i32_14 : BitVec 32 := 1#32
  let arg11 : BitVec 32 := Scf.iv c0_i32_13 c1_i32_14 k0_t3
  let v87 : BitVec 32 := Scalar.muli c2_i32_23 arg11
  let c1_i32_24 : BitVec 32 := 1#32
  let v88 : BitVec 32 := Scalar.addi v87 c1_i32_24
  let c2_i32_30 : BitVec 32 := 2#32
  let v96 : BitVec 32 := Scalar.addi v88 c2_i32_30
  let c64_i32_40 : BitVec 32 := 64#32
  let v103 : BitVec 32 := Scalar.muli v96 c64_i32_40
  let c0_i32_32 : BitVec 32 := 0#32
  let c1_i32_34 : BitVec 32 := 1#32
  let arg12 : BitVec 32 := Scf.iv c0_i32_32 c1_i32_34 k0_t5
  let c16_i32 : BitVec 32 := 16#32
  let v104 : BitVec 32 := Scalar.muli arg12 c16_i32
  let v105 : BitVec 32 := Scalar.addi v103 v104
  let v106 : Index := Scalar.indexCast v105
  ![v106.toNat]
def k0_off106 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v116 : Index := Scalar.indexCast v114
  let c0_43 : Index := 0#32
  ![v116.toNat, 0]
def k0_off107 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v121 : Index := Scalar.indexCast v114
  let c16_44 : Index := 16#32
  ![v121.toNat, 16]
def k0_off108 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v126 : Index := Scalar.indexCast v114
  let c32_45 : Index := 32#32
  ![v126.toNat, 32]
def k0_off109 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v131 : Index := Scalar.indexCast v114
  let c48_46 : Index := 48#32
  ![v131.toNat, 48]
def k0_off110 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v136 : Index := Scalar.indexCast v114
  let c64_47 : Index := 64#32
  ![v136.toNat, 64]
def k0_off111 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v141 : Index := Scalar.indexCast v114
  let c80_48 : Index := 80#32
  ![v141.toNat, 80]
def k0_off112 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v146 : Index := Scalar.indexCast v114
  let c96_49 : Index := 96#32
  ![v146.toNat, 96]
def k0_off113 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v151 : Index := Scalar.indexCast v114
  let c112_50 : Index := 112#32
  ![v151.toNat, 112]
def k0_off114 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v156 : Index := Scalar.indexCast v114
  let c128_51 : Index := 128#32
  ![v156.toNat, 128]
def k0_off115 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v161 : Index := Scalar.indexCast v114
  let c144_52 : Index := 144#32
  ![v161.toNat, 144]
def k0_off116 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v166 : Index := Scalar.indexCast v114
  let c160_53 : Index := 160#32
  ![v166.toNat, 160]
def k0_off117 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v171 : Index := Scalar.indexCast v114
  let c176_54 : Index := 176#32
  ![v171.toNat, 176]
def k0_off118 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v176 : Index := Scalar.indexCast v114
  let c192_55 : Index := 192#32
  ![v176.toNat, 192]
def k0_off119 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v181 : Index := Scalar.indexCast v114
  let c208_56 : Index := 208#32
  ![v181.toNat, 208]
def k0_off120 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v186 : Index := Scalar.indexCast v114
  let c224_57 : Index := 224#32
  ![v186.toNat, 224]
def k0_off121 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v191 : Index := Scalar.indexCast v114
  let c240_58 : Index := 240#32
  ![v191.toNat, 240]
def k0_off122 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v196 : Index := Scalar.indexCast v114
  let c256_59 : Index := 256#32
  ![v196.toNat, 256]
def k0_off123 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v201 : Index := Scalar.indexCast v114
  let c272_60 : Index := 272#32
  ![v201.toNat, 272]
def k0_off124 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v206 : Index := Scalar.indexCast v114
  let c288_61 : Index := 288#32
  ![v206.toNat, 288]
def k0_off125 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v211 : Index := Scalar.indexCast v114
  let c304_62 : Index := 304#32
  ![v211.toNat, 304]
def k0_off126 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v216 : Index := Scalar.indexCast v114
  let c320_63 : Index := 320#32
  ![v216.toNat, 320]
def k0_off127 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v221 : Index := Scalar.indexCast v114
  let c336_64 : Index := 336#32
  ![v221.toNat, 336]
def k0_off128 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v226 : Index := Scalar.indexCast v114
  let c352_65 : Index := 352#32
  ![v226.toNat, 352]
def k0_off129 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v231 : Index := Scalar.indexCast v114
  let c368_66 : Index := 368#32
  ![v231.toNat, 368]
def k0_off130 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v236 : Index := Scalar.indexCast v114
  let c384_67 : Index := 384#32
  ![v236.toNat, 384]
def k0_off131 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v241 : Index := Scalar.indexCast v114
  let c400_68 : Index := 400#32
  ![v241.toNat, 400]
def k0_off132 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v246 : Index := Scalar.indexCast v114
  let c416_69 : Index := 416#32
  ![v246.toNat, 416]
def k0_off133 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v251 : Index := Scalar.indexCast v114
  let c432_70 : Index := 432#32
  ![v251.toNat, 432]
def k0_off134 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v256 : Index := Scalar.indexCast v114
  let c448_71 : Index := 448#32
  ![v256.toNat, 448]
def k0_off135 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v261 : Index := Scalar.indexCast v114
  let c464_72 : Index := 464#32
  ![v261.toNat, 464]
def k0_off136 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v266 : Index := Scalar.indexCast v114
  let c480_73 : Index := 480#32
  ![v266.toNat, 480]
def k0_off137 (k0_t5 : Fin k0_t5_loop.trips) (c0_i32_42 : BitVec 32) : Fin 2 → Nat :=
  let c0_i32_32 : BitVec 32 := 0#32
  let c1_i32_34 : BitVec 32 := 1#32
  let arg12 : BitVec 32 := Scf.iv c0_i32_32 c1_i32_34 k0_t5
  let c16_i32_41 : BitVec 32 := 16#32
  let v113 : BitVec 32 := Scalar.muli arg12 c16_i32_41
  let v114 : BitVec 32 := Scalar.addi v113 c0_i32_42
  let v271 : Index := Scalar.indexCast v114
  let c496_74 : Index := 496#32
  ![v271.toNat, 496]
def k0_off138 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_23 : BitVec 32 := 2#32
  let c0_i32_13 : BitVec 32 := 0#32
  let c1_i32_14 : BitVec 32 := 1#32
  let arg11 : BitVec 32 := Scf.iv c0_i32_13 c1_i32_14 k0_t3
  let v87 : BitVec 32 := Scalar.muli c2_i32_23 arg11
  let c1_i32_24 : BitVec 32 := 1#32
  let v88 : BitVec 32 := Scalar.addi v87 c1_i32_24
  let c2_i32_36 : BitVec 32 := 2#32
  let v98 : BitVec 32 := Scalar.addi v88 c2_i32_36
  let c64_i32_37 : BitVec 32 := 64#32
  let v99 : BitVec 32 := Scalar.muli v98 c64_i32_37
  let v100 : BitVec 32 := Scalar.addi v2 v99
  let c0_i32_38 : BitVec 32 := 0#32
  ![v100.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2x512_S1x512_1_0 : S2x512.Slices ![1, 0] S1x512
  shapeCasts_S1x512_S512 : S1x512.ShapeCasts S512
  bcast_S_S512 : S_.BroadcastsInDim S512 (![] : Fin 0 → Fin S512.rank)
  shapeCasts_S4096x200_S819200 : S4096x200.ShapeCasts S819200
  inb_S512_S16_0 : ∀ a, (![0] : Fin 1 → Nat) a + S16.size a ≤ S512.size a
  h_S16 : 0 < S16.numel
  shapeCasts_S16_S16 : S16.ShapeCasts S16
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  slices_S16_o0_S1 : S16.Slices ![0] S1
  inpos_S1_p0 : ∀ a, (![0] : Fin 1 → Nat) a < S1.size a
  h_S1x16 : 0 < S1x16.numel
  shapeCasts_S1x16_S16 : S1x16.ShapeCasts S16
  shapeCasts_S16_S1x16 : S16.ShapeCasts S1x16
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  shapeCasts_S819200x512_S4096x200x512 : S819200x512.ShapeCasts S4096x200x512
  hcc0_scratch4 : 0 + S_.numel ≤ 4
  hcc0_scratch5 : 1 + S_.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S25600.size a ≤ S819200.size a
  k0_t1_ok : k0_t1_loop.OK
  k0_off2_inb : ∀ k0_t1 : Fin k0_t1_loop.trips, ∀ a, (k0_off2 k0_t1) a + S16.size a ≤ S25600.size a
  k0_off3_inb : ∀ k0_t1 : Fin k0_t1_loop.trips, ∀ (r : Fin 16), ∀ a, (k0_off3 k0_t1 (BitVec.ofNat 32 r.val)) a + S1x16.size a ≤ S64x512.size a
  k0_off4_inb : ∀ k0_t1 : Fin k0_t1_loop.trips, ∀ (r : Fin 16), ∀ a, (k0_off4 k0_t1 (BitVec.ofNat 32 r.val)) a + S1x16.size a ≤ S64x512.size a
  k0_off5_inb : ∀ k0_t1 : Fin k0_t1_loop.trips, ∀ (r : Fin 16), ∀ a, (k0_off5 k0_t1 (BitVec.ofNat 32 r.val)) a + S1x16.size a ≤ S64x512.size a
  k0_off6_inb : ∀ k0_t1 : Fin k0_t1_loop.trips, ∀ (r : Fin 16), ∀ a, (k0_off6 k0_t1 (BitVec.ofNat 32 r.val)) a + S1x16.size a ≤ S64x512.size a
  k0_off7_inb : ∀ k0_t1 : Fin k0_t1_loop.trips, ∀ (r : Fin 16), ∀ a, (k0_off7 k0_t1 (BitVec.ofNat 32 r.val)) a + S1x16.size a ≤ S64x512.size a
  k0_off8_inb : ∀ k0_t1 : Fin k0_t1_loop.trips, ∀ (r : Fin 16), ∀ a, (k0_off8 k0_t1 (BitVec.ofNat 32 r.val)) a + S1x16.size a ≤ S64x512.size a
  k0_off9_inb : ∀ k0_t1 : Fin k0_t1_loop.trips, ∀ (r : Fin 16), ∀ a, (k0_off9 k0_t1 (BitVec.ofNat 32 r.val)) a + S1x16.size a ≤ S64x512.size a
  k0_off10_inb : ∀ k0_t1 : Fin k0_t1_loop.trips, ∀ (r : Fin 16), ∀ a, (k0_off10 k0_t1 (BitVec.ofNat 32 r.val)) a + S1x16.size a ≤ S64x512.size a
  k0_off11_inb : ∀ k0_t1 : Fin k0_t1_loop.trips, ∀ (r : Fin 16), ∀ a, (k0_off11 k0_t1 (BitVec.ofNat 32 r.val)) a + S1x16.size a ≤ S64x512.size a
  k0_off12_inb : ∀ k0_t1 : Fin k0_t1_loop.trips, ∀ (r : Fin 16), ∀ a, (k0_off12 k0_t1 (BitVec.ofNat 32 r.val)) a + S1x16.size a ≤ S64x512.size a
  k0_off13_inb : ∀ k0_t1 : Fin k0_t1_loop.trips, ∀ (r : Fin 16), ∀ a, (k0_off13 k0_t1 (BitVec.ofNat 32 r.val)) a + S1x16.size a ≤ S64x512.size a
  k0_off14_inb : ∀ k0_t1 : Fin k0_t1_loop.trips, ∀ (r : Fin 16), ∀ a, (k0_off14 k0_t1 (BitVec.ofNat 32 r.val)) a + S1x16.size a ≤ S64x512.size a
  k0_off15_inb : ∀ k0_t1 : Fin k0_t1_loop.trips, ∀ (r : Fin 16), ∀ a, (k0_off15 k0_t1 (BitVec.ofNat 32 r.val)) a + S1x16.size a ≤ S64x512.size a
  k0_off16_inb : ∀ k0_t1 : Fin k0_t1_loop.trips, ∀ (r : Fin 16), ∀ a, (k0_off16 k0_t1 (BitVec.ofNat 32 r.val)) a + S1x16.size a ≤ S64x512.size a
  k0_off17_inb : ∀ k0_t1 : Fin k0_t1_loop.trips, ∀ (r : Fin 16), ∀ a, (k0_off17 k0_t1 (BitVec.ofNat 32 r.val)) a + S1x16.size a ≤ S64x512.size a
  k0_off18_inb : ∀ k0_t1 : Fin k0_t1_loop.trips, ∀ (r : Fin 16), ∀ a, (k0_off18 k0_t1 (BitVec.ofNat 32 r.val)) a + S1x16.size a ≤ S64x512.size a
  k0_off19_inb : ∀ k0_t1 : Fin k0_t1_loop.trips, ∀ (r : Fin 16), ∀ a, (k0_off19 k0_t1 (BitVec.ofNat 32 r.val)) a + S1x16.size a ≤ S64x512.size a
  k0_off20_inb : ∀ k0_t1 : Fin k0_t1_loop.trips, ∀ (r : Fin 16), ∀ a, (k0_off20 k0_t1 (BitVec.ofNat 32 r.val)) a + S1x16.size a ≤ S64x512.size a
  k0_off21_inb : ∀ k0_t1 : Fin k0_t1_loop.trips, ∀ (r : Fin 16), ∀ a, (k0_off21 k0_t1 (BitVec.ofNat 32 r.val)) a + S1x16.size a ≤ S64x512.size a
  k0_off22_inb : ∀ k0_t1 : Fin k0_t1_loop.trips, ∀ (r : Fin 16), ∀ a, (k0_off22 k0_t1 (BitVec.ofNat 32 r.val)) a + S1x16.size a ≤ S64x512.size a
  k0_off23_inb : ∀ k0_t1 : Fin k0_t1_loop.trips, ∀ (r : Fin 16), ∀ a, (k0_off23 k0_t1 (BitVec.ofNat 32 r.val)) a + S1x16.size a ≤ S64x512.size a
  k0_off24_inb : ∀ k0_t1 : Fin k0_t1_loop.trips, ∀ (r : Fin 16), ∀ a, (k0_off24 k0_t1 (BitVec.ofNat 32 r.val)) a + S1x16.size a ≤ S64x512.size a
  k0_off25_inb : ∀ k0_t1 : Fin k0_t1_loop.trips, ∀ (r : Fin 16), ∀ a, (k0_off25 k0_t1 (BitVec.ofNat 32 r.val)) a + S1x16.size a ≤ S64x512.size a
  k0_off26_inb : ∀ k0_t1 : Fin k0_t1_loop.trips, ∀ (r : Fin 16), ∀ a, (k0_off26 k0_t1 (BitVec.ofNat 32 r.val)) a + S1x16.size a ≤ S64x512.size a
  k0_off27_inb : ∀ k0_t1 : Fin k0_t1_loop.trips, ∀ (r : Fin 16), ∀ a, (k0_off27 k0_t1 (BitVec.ofNat 32 r.val)) a + S1x16.size a ≤ S64x512.size a
  k0_off28_inb : ∀ k0_t1 : Fin k0_t1_loop.trips, ∀ (r : Fin 16), ∀ a, (k0_off28 k0_t1 (BitVec.ofNat 32 r.val)) a + S1x16.size a ≤ S64x512.size a
  k0_off29_inb : ∀ k0_t1 : Fin k0_t1_loop.trips, ∀ (r : Fin 16), ∀ a, (k0_off29 k0_t1 (BitVec.ofNat 32 r.val)) a + S1x16.size a ≤ S64x512.size a
  k0_off30_inb : ∀ k0_t1 : Fin k0_t1_loop.trips, ∀ (r : Fin 16), ∀ a, (k0_off30 k0_t1 (BitVec.ofNat 32 r.val)) a + S1x16.size a ≤ S64x512.size a
  k0_off31_inb : ∀ k0_t1 : Fin k0_t1_loop.trips, ∀ (r : Fin 16), ∀ a, (k0_off31 k0_t1 (BitVec.ofNat 32 r.val)) a + S1x16.size a ≤ S64x512.size a
  k0_off32_inb : ∀ k0_t1 : Fin k0_t1_loop.trips, ∀ (r : Fin 16), ∀ a, (k0_off32 k0_t1 (BitVec.ofNat 32 r.val)) a + S1x16.size a ≤ S64x512.size a
  k0_off33_inb : ∀ k0_t1 : Fin k0_t1_loop.trips, ∀ (r : Fin 16), ∀ a, (k0_off33 k0_t1 (BitVec.ofNat 32 r.val)) a + S1x16.size a ≤ S64x512.size a
  k0_off34_inb : ∀ k0_t1 : Fin k0_t1_loop.trips, ∀ (r : Fin 16), ∀ a, (k0_off34 k0_t1 (BitVec.ofNat 32 r.val)) a + S1x16.size a ≤ S64x512.size a
  k0_off35_inb : ∀ i : grid0.Coords, ∀ (r : Fin 4), ∀ a, (k0_off35 i (k0_off35_at r)) a + S64x512.size a ≤ S819200x512.size a
  k0_t2_ok : k0_t2_loop.OK
  k0_off36_inb : ∀ k0_t2 : Fin k0_t2_loop.trips, ∀ a, (k0_off36 k0_t2) a + S16.size a ≤ S25600.size a
  k0_off37_inb : ∀ k0_t2 : Fin k0_t2_loop.trips, ∀ (r : Fin 16), ∀ a, (k0_off37 k0_t2 (BitVec.ofNat 32 r.val)) a + S1x16.size a ≤ S64x512.size a
  k0_off38_inb : ∀ k0_t2 : Fin k0_t2_loop.trips, ∀ (r : Fin 16), ∀ a, (k0_off38 k0_t2 (BitVec.ofNat 32 r.val)) a + S1x16.size a ≤ S64x512.size a
  k0_off39_inb : ∀ k0_t2 : Fin k0_t2_loop.trips, ∀ (r : Fin 16), ∀ a, (k0_off39 k0_t2 (BitVec.ofNat 32 r.val)) a + S1x16.size a ≤ S64x512.size a
  k0_off40_inb : ∀ k0_t2 : Fin k0_t2_loop.trips, ∀ (r : Fin 16), ∀ a, (k0_off40 k0_t2 (BitVec.ofNat 32 r.val)) a + S1x16.size a ≤ S64x512.size a
  k0_off41_inb : ∀ k0_t2 : Fin k0_t2_loop.trips, ∀ (r : Fin 16), ∀ a, (k0_off41 k0_t2 (BitVec.ofNat 32 r.val)) a + S1x16.size a ≤ S64x512.size a
  k0_off42_inb : ∀ k0_t2 : Fin k0_t2_loop.trips, ∀ (r : Fin 16), ∀ a, (k0_off42 k0_t2 (BitVec.ofNat 32 r.val)) a + S1x16.size a ≤ S64x512.size a
  k0_off43_inb : ∀ k0_t2 : Fin k0_t2_loop.trips, ∀ (r : Fin 16), ∀ a, (k0_off43 k0_t2 (BitVec.ofNat 32 r.val)) a + S1x16.size a ≤ S64x512.size a
  k0_off44_inb : ∀ k0_t2 : Fin k0_t2_loop.trips, ∀ (r : Fin 16), ∀ a, (k0_off44 k0_t2 (BitVec.ofNat 32 r.val)) a + S1x16.size a ≤ S64x512.size a
  k0_off45_inb : ∀ k0_t2 : Fin k0_t2_loop.trips, ∀ (r : Fin 16), ∀ a, (k0_off45 k0_t2 (BitVec.ofNat 32 r.val)) a + S1x16.size a ≤ S64x512.size a
  k0_off46_inb : ∀ k0_t2 : Fin k0_t2_loop.trips, ∀ (r : Fin 16), ∀ a, (k0_off46 k0_t2 (BitVec.ofNat 32 r.val)) a + S1x16.size a ≤ S64x512.size a
  k0_off47_inb : ∀ k0_t2 : Fin k0_t2_loop.trips, ∀ (r : Fin 16), ∀ a, (k0_off47 k0_t2 (BitVec.ofNat 32 r.val)) a + S1x16.size a ≤ S64x512.size a
  k0_off48_inb : ∀ k0_t2 : Fin k0_t2_loop.trips, ∀ (r : Fin 16), ∀ a, (k0_off48 k0_t2 (BitVec.ofNat 32 r.val)) a + S1x16.size a ≤ S64x512.size a
  k0_off49_inb : ∀ k0_t2 : Fin k0_t2_loop.trips, ∀ (r : Fin 16), ∀ a, (k0_off49 k0_t2 (BitVec.ofNat 32 r.val)) a + S1x16.size a ≤ S64x512.size a
  k0_off50_inb : ∀ k0_t2 : Fin k0_t2_loop.trips, ∀ (r : Fin 16), ∀ a, (k0_off50 k0_t2 (BitVec.ofNat 32 r.val)) a + S1x16.size a ≤ S64x512.size a
  k0_off51_inb : ∀ k0_t2 : Fin k0_t2_loop.trips, ∀ (r : Fin 16), ∀ a, (k0_off51 k0_t2 (BitVec.ofNat 32 r.val)) a + S1x16.size a ≤ S64x512.size a
  k0_off52_inb : ∀ k0_t2 : Fin k0_t2_loop.trips, ∀ (r : Fin 16), ∀ a, (k0_off52 k0_t2 (BitVec.ofNat 32 r.val)) a + S1x16.size a ≤ S64x512.size a
  k0_off53_inb : ∀ k0_t2 : Fin k0_t2_loop.trips, ∀ (r : Fin 16), ∀ a, (k0_off53 k0_t2 (BitVec.ofNat 32 r.val)) a + S1x16.size a ≤ S64x512.size a
  k0_off54_inb : ∀ k0_t2 : Fin k0_t2_loop.trips, ∀ (r : Fin 16), ∀ a, (k0_off54 k0_t2 (BitVec.ofNat 32 r.val)) a + S1x16.size a ≤ S64x512.size a
  k0_off55_inb : ∀ k0_t2 : Fin k0_t2_loop.trips, ∀ (r : Fin 16), ∀ a, (k0_off55 k0_t2 (BitVec.ofNat 32 r.val)) a + S1x16.size a ≤ S64x512.size a
  k0_off56_inb : ∀ k0_t2 : Fin k0_t2_loop.trips, ∀ (r : Fin 16), ∀ a, (k0_off56 k0_t2 (BitVec.ofNat 32 r.val)) a + S1x16.size a ≤ S64x512.size a
  k0_off57_inb : ∀ k0_t2 : Fin k0_t2_loop.trips, ∀ (r : Fin 16), ∀ a, (k0_off57 k0_t2 (BitVec.ofNat 32 r.val)) a + S1x16.size a ≤ S64x512.size a
  k0_off58_inb : ∀ k0_t2 : Fin k0_t2_loop.trips, ∀ (r : Fin 16), ∀ a, (k0_off58 k0_t2 (BitVec.ofNat 32 r.val)) a + S1x16.size a ≤ S64x512.size a
  k0_off59_inb : ∀ k0_t2 : Fin k0_t2_loop.trips, ∀ (r : Fin 16), ∀ a, (k0_off59 k0_t2 (BitVec.ofNat 32 r.val)) a + S1x16.size a ≤ S64x512.size a
  k0_off60_inb : ∀ k0_t2 : Fin k0_t2_loop.trips, ∀ (r : Fin 16), ∀ a, (k0_off60 k0_t2 (BitVec.ofNat 32 r.val)) a + S1x16.size a ≤ S64x512.size a
  k0_off61_inb : ∀ k0_t2 : Fin k0_t2_loop.trips, ∀ (r : Fin 16), ∀ a, (k0_off61 k0_t2 (BitVec.ofNat 32 r.val)) a + S1x16.size a ≤ S64x512.size a
  k0_off62_inb : ∀ k0_t2 : Fin k0_t2_loop.trips, ∀ (r : Fin 16), ∀ a, (k0_off62 k0_t2 (BitVec.ofNat 32 r.val)) a + S1x16.size a ≤ S64x512.size a
  k0_off63_inb : ∀ k0_t2 : Fin k0_t2_loop.trips, ∀ (r : Fin 16), ∀ a, (k0_off63 k0_t2 (BitVec.ofNat 32 r.val)) a + S1x16.size a ≤ S64x512.size a
  k0_off64_inb : ∀ k0_t2 : Fin k0_t2_loop.trips, ∀ (r : Fin 16), ∀ a, (k0_off64 k0_t2 (BitVec.ofNat 32 r.val)) a + S1x16.size a ≤ S64x512.size a
  k0_off65_inb : ∀ k0_t2 : Fin k0_t2_loop.trips, ∀ (r : Fin 16), ∀ a, (k0_off65 k0_t2 (BitVec.ofNat 32 r.val)) a + S1x16.size a ≤ S64x512.size a
  k0_off66_inb : ∀ k0_t2 : Fin k0_t2_loop.trips, ∀ (r : Fin 16), ∀ a, (k0_off66 k0_t2 (BitVec.ofNat 32 r.val)) a + S1x16.size a ≤ S64x512.size a
  k0_off67_inb : ∀ k0_t2 : Fin k0_t2_loop.trips, ∀ (r : Fin 16), ∀ a, (k0_off67 k0_t2 (BitVec.ofNat 32 r.val)) a + S1x16.size a ≤ S64x512.size a
  k0_off68_inb : ∀ k0_t2 : Fin k0_t2_loop.trips, ∀ (r : Fin 16), ∀ a, (k0_off68 k0_t2 (BitVec.ofNat 32 r.val)) a + S1x16.size a ≤ S64x512.size a
  k0_t3_ok : k0_t3_loop.OK
  k0_off69_inb : ∀ (i : grid0.Coords) (k0_t3 : Fin k0_t3_loop.trips), ∀ (k0_h1 : k0_cond1 k0_t3 = 1#1), ∀ a, (k0_off69 i k0_t3) a + S64x512.size a ≤ S819200x512.size a
  k0_t4_ok : ∀ k0_t3 : Fin k0_t3_loop.trips, ∀ (k0_h1 : k0_cond1 k0_t3 = 1#1), k0_t4_loop.OK
  k0_off70_inb : ∀ (k0_t3 : Fin k0_t3_loop.trips) (k0_t4 : Fin k0_t4_loop.trips), ∀ (k0_h1 : k0_cond1 k0_t3 = 1#1), ∀ a, (k0_off70 k0_t3 k0_t4) a + S16.size a ≤ S25600.size a
  k0_off71_inb : ∀ (k0_t3 : Fin k0_t3_loop.trips) (k0_t4 : Fin k0_t4_loop.trips), ∀ (k0_h1 : k0_cond1 k0_t3 = 1#1), ∀ (r : Fin 16), ∀ a, (k0_off71 k0_t4 (BitVec.ofNat 32 r.val)) a + S1x16.size a ≤ S64x512.size a
  k0_off72_inb : ∀ (k0_t3 : Fin k0_t3_loop.trips) (k0_t4 : Fin k0_t4_loop.trips), ∀ (k0_h1 : k0_cond1 k0_t3 = 1#1), ∀ (r : Fin 16), ∀ a, (k0_off72 k0_t4 (BitVec.ofNat 32 r.val)) a + S1x16.size a ≤ S64x512.size a
  k0_off73_inb : ∀ (k0_t3 : Fin k0_t3_loop.trips) (k0_t4 : Fin k0_t4_loop.trips), ∀ (k0_h1 : k0_cond1 k0_t3 = 1#1), ∀ (r : Fin 16), ∀ a, (k0_off73 k0_t4 (BitVec.ofNat 32 r.val)) a + S1x16.size a ≤ S64x512.size a
  k0_off74_inb : ∀ (k0_t3 : Fin k0_t3_loop.trips) (k0_t4 : Fin k0_t4_loop.trips), ∀ (k0_h1 : k0_cond1 k0_t3 = 1#1), ∀ (r : Fin 16), ∀ a, (k0_off74 k0_t4 (BitVec.ofNat 32 r.val)) a + S1x16.size a ≤ S64x512.size a
  k0_off75_inb : ∀ (k0_t3 : Fin k0_t3_loop.trips) (k0_t4 : Fin k0_t4_loop.trips), ∀ (k0_h1 : k0_cond1 k0_t3 = 1#1), ∀ (r : Fin 16), ∀ a, (k0_off75 k0_t4 (BitVec.ofNat 32 r.val)) a + S1x16.size a ≤ S64x512.size a
  k0_off76_inb : ∀ (k0_t3 : Fin k0_t3_loop.trips) (k0_t4 : Fin k0_t4_loop.trips), ∀ (k0_h1 : k0_cond1 k0_t3 = 1#1), ∀ (r : Fin 16), ∀ a, (k0_off76 k0_t4 (BitVec.ofNat 32 r.val)) a + S1x16.size a ≤ S64x512.size a
  k0_off77_inb : ∀ (k0_t3 : Fin k0_t3_loop.trips) (k0_t4 : Fin k0_t4_loop.trips), ∀ (k0_h1 : k0_cond1 k0_t3 = 1#1), ∀ (r : Fin 16), ∀ a, (k0_off77 k0_t4 (BitVec.ofNat 32 r.val)) a + S1x16.size a ≤ S64x512.size a
  k0_off78_inb : ∀ (k0_t3 : Fin k0_t3_loop.trips) (k0_t4 : Fin k0_t4_loop.trips), ∀ (k0_h1 : k0_cond1 k0_t3 = 1#1), ∀ (r : Fin 16), ∀ a, (k0_off78 k0_t4 (BitVec.ofNat 32 r.val)) a + S1x16.size a ≤ S64x512.size a
  k0_off79_inb : ∀ (k0_t3 : Fin k0_t3_loop.trips) (k0_t4 : Fin k0_t4_loop.trips), ∀ (k0_h1 : k0_cond1 k0_t3 = 1#1), ∀ (r : Fin 16), ∀ a, (k0_off79 k0_t4 (BitVec.ofNat 32 r.val)) a + S1x16.size a ≤ S64x512.size a
  k0_off80_inb : ∀ (k0_t3 : Fin k0_t3_loop.trips) (k0_t4 : Fin k0_t4_loop.trips), ∀ (k0_h1 : k0_cond1 k0_t3 = 1#1), ∀ (r : Fin 16), ∀ a, (k0_off80 k0_t4 (BitVec.ofNat 32 r.val)) a + S1x16.size a ≤ S64x512.size a
  k0_off81_inb : ∀ (k0_t3 : Fin k0_t3_loop.trips) (k0_t4 : Fin k0_t4_loop.trips), ∀ (k0_h1 : k0_cond1 k0_t3 = 1#1), ∀ (r : Fin 16), ∀ a, (k0_off81 k0_t4 (BitVec.ofNat 32 r.val)) a + S1x16.size a ≤ S64x512.size a
  k0_off82_inb : ∀ (k0_t3 : Fin k0_t3_loop.trips) (k0_t4 : Fin k0_t4_loop.trips), ∀ (k0_h1 : k0_cond1 k0_t3 = 1#1), ∀ (r : Fin 16), ∀ a, (k0_off82 k0_t4 (BitVec.ofNat 32 r.val)) a + S1x16.size a ≤ S64x512.size a
  k0_off83_inb : ∀ (k0_t3 : Fin k0_t3_loop.trips) (k0_t4 : Fin k0_t4_loop.trips), ∀ (k0_h1 : k0_cond1 k0_t3 = 1#1), ∀ (r : Fin 16), ∀ a, (k0_off83 k0_t4 (BitVec.ofNat 32 r.val)) a + S1x16.size a ≤ S64x512.size a
  k0_off84_inb : ∀ (k0_t3 : Fin k0_t3_loop.trips) (k0_t4 : Fin k0_t4_loop.trips), ∀ (k0_h1 : k0_cond1 k0_t3 = 1#1), ∀ (r : Fin 16), ∀ a, (k0_off84 k0_t4 (BitVec.ofNat 32 r.val)) a + S1x16.size a ≤ S64x512.size a
  k0_off85_inb : ∀ (k0_t3 : Fin k0_t3_loop.trips) (k0_t4 : Fin k0_t4_loop.trips), ∀ (k0_h1 : k0_cond1 k0_t3 = 1#1), ∀ (r : Fin 16), ∀ a, (k0_off85 k0_t4 (BitVec.ofNat 32 r.val)) a + S1x16.size a ≤ S64x512.size a
  k0_off86_inb : ∀ (k0_t3 : Fin k0_t3_loop.trips) (k0_t4 : Fin k0_t4_loop.trips), ∀ (k0_h1 : k0_cond1 k0_t3 = 1#1), ∀ (r : Fin 16), ∀ a, (k0_off86 k0_t4 (BitVec.ofNat 32 r.val)) a + S1x16.size a ≤ S64x512.size a
  k0_off87_inb : ∀ (k0_t3 : Fin k0_t3_loop.trips) (k0_t4 : Fin k0_t4_loop.trips), ∀ (k0_h1 : k0_cond1 k0_t3 = 1#1), ∀ (r : Fin 16), ∀ a, (k0_off87 k0_t4 (BitVec.ofNat 32 r.val)) a + S1x16.size a ≤ S64x512.size a
  k0_off88_inb : ∀ (k0_t3 : Fin k0_t3_loop.trips) (k0_t4 : Fin k0_t4_loop.trips), ∀ (k0_h1 : k0_cond1 k0_t3 = 1#1), ∀ (r : Fin 16), ∀ a, (k0_off88 k0_t4 (BitVec.ofNat 32 r.val)) a + S1x16.size a ≤ S64x512.size a
  k0_off89_inb : ∀ (k0_t3 : Fin k0_t3_loop.trips) (k0_t4 : Fin k0_t4_loop.trips), ∀ (k0_h1 : k0_cond1 k0_t3 = 1#1), ∀ (r : Fin 16), ∀ a, (k0_off89 k0_t4 (BitVec.ofNat 32 r.val)) a + S1x16.size a ≤ S64x512.size a
  k0_off90_inb : ∀ (k0_t3 : Fin k0_t3_loop.trips) (k0_t4 : Fin k0_t4_loop.trips), ∀ (k0_h1 : k0_cond1 k0_t3 = 1#1), ∀ (r : Fin 16), ∀ a, (k0_off90 k0_t4 (BitVec.ofNat 32 r.val)) a + S1x16.size a ≤ S64x512.size a
  k0_off91_inb : ∀ (k0_t3 : Fin k0_t3_loop.trips) (k0_t4 : Fin k0_t4_loop.trips), ∀ (k0_h1 : k0_cond1 k0_t3 = 1#1), ∀ (r : Fin 16), ∀ a, (k0_off91 k0_t4 (BitVec.ofNat 32 r.val)) a + S1x16.size a ≤ S64x512.size a
  k0_off92_inb : ∀ (k0_t3 : Fin k0_t3_loop.trips) (k0_t4 : Fin k0_t4_loop.trips), ∀ (k0_h1 : k0_cond1 k0_t3 = 1#1), ∀ (r : Fin 16), ∀ a, (k0_off92 k0_t4 (BitVec.ofNat 32 r.val)) a + S1x16.size a ≤ S64x512.size a
  k0_off93_inb : ∀ (k0_t3 : Fin k0_t3_loop.trips) (k0_t4 : Fin k0_t4_loop.trips), ∀ (k0_h1 : k0_cond1 k0_t3 = 1#1), ∀ (r : Fin 16), ∀ a, (k0_off93 k0_t4 (BitVec.ofNat 32 r.val)) a + S1x16.size a ≤ S64x512.size a
  k0_off94_inb : ∀ (k0_t3 : Fin k0_t3_loop.trips) (k0_t4 : Fin k0_t4_loop.trips), ∀ (k0_h1 : k0_cond1 k0_t3 = 1#1), ∀ (r : Fin 16), ∀ a, (k0_off94 k0_t4 (BitVec.ofNat 32 r.val)) a + S1x16.size a ≤ S64x512.size a
  k0_off95_inb : ∀ (k0_t3 : Fin k0_t3_loop.trips) (k0_t4 : Fin k0_t4_loop.trips), ∀ (k0_h1 : k0_cond1 k0_t3 = 1#1), ∀ (r : Fin 16), ∀ a, (k0_off95 k0_t4 (BitVec.ofNat 32 r.val)) a + S1x16.size a ≤ S64x512.size a
  k0_off96_inb : ∀ (k0_t3 : Fin k0_t3_loop.trips) (k0_t4 : Fin k0_t4_loop.trips), ∀ (k0_h1 : k0_cond1 k0_t3 = 1#1), ∀ (r : Fin 16), ∀ a, (k0_off96 k0_t4 (BitVec.ofNat 32 r.val)) a + S1x16.size a ≤ S64x512.size a
  k0_off97_inb : ∀ (k0_t3 : Fin k0_t3_loop.trips) (k0_t4 : Fin k0_t4_loop.trips), ∀ (k0_h1 : k0_cond1 k0_t3 = 1#1), ∀ (r : Fin 16), ∀ a, (k0_off97 k0_t4 (BitVec.ofNat 32 r.val)) a + S1x16.size a ≤ S64x512.size a
  k0_off98_inb : ∀ (k0_t3 : Fin k0_t3_loop.trips) (k0_t4 : Fin k0_t4_loop.trips), ∀ (k0_h1 : k0_cond1 k0_t3 = 1#1), ∀ (r : Fin 16), ∀ a, (k0_off98 k0_t4 (BitVec.ofNat 32 r.val)) a + S1x16.size a ≤ S64x512.size a
  k0_off99_inb : ∀ (k0_t3 : Fin k0_t3_loop.trips) (k0_t4 : Fin k0_t4_loop.trips), ∀ (k0_h1 : k0_cond1 k0_t3 = 1#1), ∀ (r : Fin 16), ∀ a, (k0_off99 k0_t4 (BitVec.ofNat 32 r.val)) a + S1x16.size a ≤ S64x512.size a
  k0_off100_inb : ∀ (k0_t3 : Fin k0_t3_loop.trips) (k0_t4 : Fin k0_t4_loop.trips), ∀ (k0_h1 : k0_cond1 k0_t3 = 1#1), ∀ (r : Fin 16), ∀ a, (k0_off100 k0_t4 (BitVec.ofNat 32 r.val)) a + S1x16.size a ≤ S64x512.size a
  k0_off101_inb : ∀ (k0_t3 : Fin k0_t3_loop.trips) (k0_t4 : Fin k0_t4_loop.trips), ∀ (k0_h1 : k0_cond1 k0_t3 = 1#1), ∀ (r : Fin 16), ∀ a, (k0_off101 k0_t4 (BitVec.ofNat 32 r.val)) a + S1x16.size a ≤ S64x512.size a
  k0_off102_inb : ∀ (k0_t3 : Fin k0_t3_loop.trips) (k0_t4 : Fin k0_t4_loop.trips), ∀ (k0_h1 : k0_cond1 k0_t3 = 1#1), ∀ (r : Fin 16), ∀ a, (k0_off102 k0_t4 (BitVec.ofNat 32 r.val)) a + S1x16.size a ≤ S64x512.size a
  k0_off103_inb : ∀ (i : grid0.Coords) (k0_t3 : Fin k0_t3_loop.trips), ∀ (k0_h1 : k0_cond1 k0_t3 = 1#1), ∀ a, (k0_off103 i k0_t3) a + S64x512.size a ≤ S819200x512.size a
  k0_off104_inb : ∀ (i : grid0.Coords) (k0_t3 : Fin k0_t3_loop.trips), ∀ (k0_h2 : k0_cond2 k0_t3 = 1#1), ∀ a, (k0_off104 i k0_t3) a + S64x512.size a ≤ S819200x512.size a
  k0_t5_ok : ∀ k0_t3 : Fin k0_t3_loop.trips, ∀ (k0_h2 : k0_cond2 k0_t3 = 1#1), k0_t5_loop.OK
  k0_off105_inb : ∀ (k0_t3 : Fin k0_t3_loop.trips) (k0_t5 : Fin k0_t5_loop.trips), ∀ (k0_h2 : k0_cond2 k0_t3 = 1#1), ∀ a, (k0_off105 k0_t3 k0_t5) a + S16.size a ≤ S25600.size a
  k0_off106_inb : ∀ (k0_t3 : Fin k0_t3_loop.trips) (k0_t5 : Fin k0_t5_loop.trips), ∀ (k0_h2 : k0_cond2 k0_t3 = 1#1), ∀ (r : Fin 16), ∀ a, (k0_off106 k0_t5 (BitVec.ofNat 32 r.val)) a + S1x16.size a ≤ S64x512.size a
  k0_off107_inb : ∀ (k0_t3 : Fin k0_t3_loop.trips) (k0_t5 : Fin k0_t5_loop.trips), ∀ (k0_h2 : k0_cond2 k0_t3 = 1#1), ∀ (r : Fin 16), ∀ a, (k0_off107 k0_t5 (BitVec.ofNat 32 r.val)) a + S1x16.size a ≤ S64x512.size a
  k0_off108_inb : ∀ (k0_t3 : Fin k0_t3_loop.trips) (k0_t5 : Fin k0_t5_loop.trips), ∀ (k0_h2 : k0_cond2 k0_t3 = 1#1), ∀ (r : Fin 16), ∀ a, (k0_off108 k0_t5 (BitVec.ofNat 32 r.val)) a + S1x16.size a ≤ S64x512.size a
  k0_off109_inb : ∀ (k0_t3 : Fin k0_t3_loop.trips) (k0_t5 : Fin k0_t5_loop.trips), ∀ (k0_h2 : k0_cond2 k0_t3 = 1#1), ∀ (r : Fin 16), ∀ a, (k0_off109 k0_t5 (BitVec.ofNat 32 r.val)) a + S1x16.size a ≤ S64x512.size a
  k0_off110_inb : ∀ (k0_t3 : Fin k0_t3_loop.trips) (k0_t5 : Fin k0_t5_loop.trips), ∀ (k0_h2 : k0_cond2 k0_t3 = 1#1), ∀ (r : Fin 16), ∀ a, (k0_off110 k0_t5 (BitVec.ofNat 32 r.val)) a + S1x16.size a ≤ S64x512.size a
  k0_off111_inb : ∀ (k0_t3 : Fin k0_t3_loop.trips) (k0_t5 : Fin k0_t5_loop.trips), ∀ (k0_h2 : k0_cond2 k0_t3 = 1#1), ∀ (r : Fin 16), ∀ a, (k0_off111 k0_t5 (BitVec.ofNat 32 r.val)) a + S1x16.size a ≤ S64x512.size a
  k0_off112_inb : ∀ (k0_t3 : Fin k0_t3_loop.trips) (k0_t5 : Fin k0_t5_loop.trips), ∀ (k0_h2 : k0_cond2 k0_t3 = 1#1), ∀ (r : Fin 16), ∀ a, (k0_off112 k0_t5 (BitVec.ofNat 32 r.val)) a + S1x16.size a ≤ S64x512.size a
  k0_off113_inb : ∀ (k0_t3 : Fin k0_t3_loop.trips) (k0_t5 : Fin k0_t5_loop.trips), ∀ (k0_h2 : k0_cond2 k0_t3 = 1#1), ∀ (r : Fin 16), ∀ a, (k0_off113 k0_t5 (BitVec.ofNat 32 r.val)) a + S1x16.size a ≤ S64x512.size a
  k0_off114_inb : ∀ (k0_t3 : Fin k0_t3_loop.trips) (k0_t5 : Fin k0_t5_loop.trips), ∀ (k0_h2 : k0_cond2 k0_t3 = 1#1), ∀ (r : Fin 16), ∀ a, (k0_off114 k0_t5 (BitVec.ofNat 32 r.val)) a + S1x16.size a ≤ S64x512.size a
  k0_off115_inb : ∀ (k0_t3 : Fin k0_t3_loop.trips) (k0_t5 : Fin k0_t5_loop.trips), ∀ (k0_h2 : k0_cond2 k0_t3 = 1#1), ∀ (r : Fin 16), ∀ a, (k0_off115 k0_t5 (BitVec.ofNat 32 r.val)) a + S1x16.size a ≤ S64x512.size a
  k0_off116_inb : ∀ (k0_t3 : Fin k0_t3_loop.trips) (k0_t5 : Fin k0_t5_loop.trips), ∀ (k0_h2 : k0_cond2 k0_t3 = 1#1), ∀ (r : Fin 16), ∀ a, (k0_off116 k0_t5 (BitVec.ofNat 32 r.val)) a + S1x16.size a ≤ S64x512.size a
  k0_off117_inb : ∀ (k0_t3 : Fin k0_t3_loop.trips) (k0_t5 : Fin k0_t5_loop.trips), ∀ (k0_h2 : k0_cond2 k0_t3 = 1#1), ∀ (r : Fin 16), ∀ a, (k0_off117 k0_t5 (BitVec.ofNat 32 r.val)) a + S1x16.size a ≤ S64x512.size a
  k0_off118_inb : ∀ (k0_t3 : Fin k0_t3_loop.trips) (k0_t5 : Fin k0_t5_loop.trips), ∀ (k0_h2 : k0_cond2 k0_t3 = 1#1), ∀ (r : Fin 16), ∀ a, (k0_off118 k0_t5 (BitVec.ofNat 32 r.val)) a + S1x16.size a ≤ S64x512.size a
  k0_off119_inb : ∀ (k0_t3 : Fin k0_t3_loop.trips) (k0_t5 : Fin k0_t5_loop.trips), ∀ (k0_h2 : k0_cond2 k0_t3 = 1#1), ∀ (r : Fin 16), ∀ a, (k0_off119 k0_t5 (BitVec.ofNat 32 r.val)) a + S1x16.size a ≤ S64x512.size a
  k0_off120_inb : ∀ (k0_t3 : Fin k0_t3_loop.trips) (k0_t5 : Fin k0_t5_loop.trips), ∀ (k0_h2 : k0_cond2 k0_t3 = 1#1), ∀ (r : Fin 16), ∀ a, (k0_off120 k0_t5 (BitVec.ofNat 32 r.val)) a + S1x16.size a ≤ S64x512.size a
  k0_off121_inb : ∀ (k0_t3 : Fin k0_t3_loop.trips) (k0_t5 : Fin k0_t5_loop.trips), ∀ (k0_h2 : k0_cond2 k0_t3 = 1#1), ∀ (r : Fin 16), ∀ a, (k0_off121 k0_t5 (BitVec.ofNat 32 r.val)) a + S1x16.size a ≤ S64x512.size a
  k0_off122_inb : ∀ (k0_t3 : Fin k0_t3_loop.trips) (k0_t5 : Fin k0_t5_loop.trips), ∀ (k0_h2 : k0_cond2 k0_t3 = 1#1), ∀ (r : Fin 16), ∀ a, (k0_off122 k0_t5 (BitVec.ofNat 32 r.val)) a + S1x16.size a ≤ S64x512.size a
  k0_off123_inb : ∀ (k0_t3 : Fin k0_t3_loop.trips) (k0_t5 : Fin k0_t5_loop.trips), ∀ (k0_h2 : k0_cond2 k0_t3 = 1#1), ∀ (r : Fin 16), ∀ a, (k0_off123 k0_t5 (BitVec.ofNat 32 r.val)) a + S1x16.size a ≤ S64x512.size a
  k0_off124_inb : ∀ (k0_t3 : Fin k0_t3_loop.trips) (k0_t5 : Fin k0_t5_loop.trips), ∀ (k0_h2 : k0_cond2 k0_t3 = 1#1), ∀ (r : Fin 16), ∀ a, (k0_off124 k0_t5 (BitVec.ofNat 32 r.val)) a + S1x16.size a ≤ S64x512.size a
  k0_off125_inb : ∀ (k0_t3 : Fin k0_t3_loop.trips) (k0_t5 : Fin k0_t5_loop.trips), ∀ (k0_h2 : k0_cond2 k0_t3 = 1#1), ∀ (r : Fin 16), ∀ a, (k0_off125 k0_t5 (BitVec.ofNat 32 r.val)) a + S1x16.size a ≤ S64x512.size a
  k0_off126_inb : ∀ (k0_t3 : Fin k0_t3_loop.trips) (k0_t5 : Fin k0_t5_loop.trips), ∀ (k0_h2 : k0_cond2 k0_t3 = 1#1), ∀ (r : Fin 16), ∀ a, (k0_off126 k0_t5 (BitVec.ofNat 32 r.val)) a + S1x16.size a ≤ S64x512.size a
  k0_off127_inb : ∀ (k0_t3 : Fin k0_t3_loop.trips) (k0_t5 : Fin k0_t5_loop.trips), ∀ (k0_h2 : k0_cond2 k0_t3 = 1#1), ∀ (r : Fin 16), ∀ a, (k0_off127 k0_t5 (BitVec.ofNat 32 r.val)) a + S1x16.size a ≤ S64x512.size a
  k0_off128_inb : ∀ (k0_t3 : Fin k0_t3_loop.trips) (k0_t5 : Fin k0_t5_loop.trips), ∀ (k0_h2 : k0_cond2 k0_t3 = 1#1), ∀ (r : Fin 16), ∀ a, (k0_off128 k0_t5 (BitVec.ofNat 32 r.val)) a + S1x16.size a ≤ S64x512.size a
  k0_off129_inb : ∀ (k0_t3 : Fin k0_t3_loop.trips) (k0_t5 : Fin k0_t5_loop.trips), ∀ (k0_h2 : k0_cond2 k0_t3 = 1#1), ∀ (r : Fin 16), ∀ a, (k0_off129 k0_t5 (BitVec.ofNat 32 r.val)) a + S1x16.size a ≤ S64x512.size a
  k0_off130_inb : ∀ (k0_t3 : Fin k0_t3_loop.trips) (k0_t5 : Fin k0_t5_loop.trips), ∀ (k0_h2 : k0_cond2 k0_t3 = 1#1), ∀ (r : Fin 16), ∀ a, (k0_off130 k0_t5 (BitVec.ofNat 32 r.val)) a + S1x16.size a ≤ S64x512.size a
  k0_off131_inb : ∀ (k0_t3 : Fin k0_t3_loop.trips) (k0_t5 : Fin k0_t5_loop.trips), ∀ (k0_h2 : k0_cond2 k0_t3 = 1#1), ∀ (r : Fin 16), ∀ a, (k0_off131 k0_t5 (BitVec.ofNat 32 r.val)) a + S1x16.size a ≤ S64x512.size a
  k0_off132_inb : ∀ (k0_t3 : Fin k0_t3_loop.trips) (k0_t5 : Fin k0_t5_loop.trips), ∀ (k0_h2 : k0_cond2 k0_t3 = 1#1), ∀ (r : Fin 16), ∀ a, (k0_off132 k0_t5 (BitVec.ofNat 32 r.val)) a + S1x16.size a ≤ S64x512.size a
  k0_off133_inb : ∀ (k0_t3 : Fin k0_t3_loop.trips) (k0_t5 : Fin k0_t5_loop.trips), ∀ (k0_h2 : k0_cond2 k0_t3 = 1#1), ∀ (r : Fin 16), ∀ a, (k0_off133 k0_t5 (BitVec.ofNat 32 r.val)) a + S1x16.size a ≤ S64x512.size a
  k0_off134_inb : ∀ (k0_t3 : Fin k0_t3_loop.trips) (k0_t5 : Fin k0_t5_loop.trips), ∀ (k0_h2 : k0_cond2 k0_t3 = 1#1), ∀ (r : Fin 16), ∀ a, (k0_off134 k0_t5 (BitVec.ofNat 32 r.val)) a + S1x16.size a ≤ S64x512.size a
  k0_off135_inb : ∀ (k0_t3 : Fin k0_t3_loop.trips) (k0_t5 : Fin k0_t5_loop.trips), ∀ (k0_h2 : k0_cond2 k0_t3 = 1#1), ∀ (r : Fin 16), ∀ a, (k0_off135 k0_t5 (BitVec.ofNat 32 r.val)) a + S1x16.size a ≤ S64x512.size a
  k0_off136_inb : ∀ (k0_t3 : Fin k0_t3_loop.trips) (k0_t5 : Fin k0_t5_loop.trips), ∀ (k0_h2 : k0_cond2 k0_t3 = 1#1), ∀ (r : Fin 16), ∀ a, (k0_off136 k0_t5 (BitVec.ofNat 32 r.val)) a + S1x16.size a ≤ S64x512.size a
  k0_off137_inb : ∀ (k0_t3 : Fin k0_t3_loop.trips) (k0_t5 : Fin k0_t5_loop.trips), ∀ (k0_h2 : k0_cond2 k0_t3 = 1#1), ∀ (r : Fin 16), ∀ a, (k0_off137 k0_t5 (BitVec.ofNat 32 r.val)) a + S1x16.size a ≤ S64x512.size a
  k0_off138_inb : ∀ (i : grid0.Coords) (k0_t3 : Fin k0_t3_loop.trips), ∀ (k0_h2 : k0_cond2 k0_t3 = 1#1), ∀ a, (k0_off138 i k0_t3) a + S64x512.size a ≤ S819200x512.size a

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1

class Facts : Prop extends Facts₀ where

variable [Facts]
-- ==== ReferenceIdeal.lean ====
abbrev S4096x200 : Shape := ⟨2, ![4096, 200]⟩
abbrev S2x512 : Shape := ⟨2, ![2, 512]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x512 : Shape := ⟨3, ![4096, 200, 512]⟩

abbrev nBuf : Space → Nat
  | .hbm => 35
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S2x512, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x512, .f32⟩
  | .hbm, ⟨21, _⟩ => ⟨S4096x200x512, .i1⟩
  | .hbm, ⟨22, _⟩ => ⟨S_, .f32⟩
  | .hbm, ⟨23, _⟩ => ⟨S4096x200x512, .f32⟩
  | .hbm, ⟨24, _⟩ => ⟨S4096x200x512, .f32⟩
  | .hbm, ⟨25, _⟩ => ⟨S_, .i32⟩
  | .hbm, ⟨26, _⟩ => ⟨S4096x200, .i32⟩
  | .hbm, ⟨27, _⟩ => ⟨S4096x200, .i1⟩
  | .hbm, ⟨28, _⟩ => ⟨S4096x200, .f32⟩
  | .hbm, ⟨29, _⟩ => ⟨S4096x200x1, .f32⟩
  | .hbm, ⟨30, _⟩ => ⟨S4096x200x512, .f32⟩
  | .hbm, ⟨31, _⟩ => ⟨S4096x200x512, .f32⟩
  | .hbm, ⟨32, _⟩ => ⟨S_, .f32⟩
  | .hbm, ⟨33, _⟩ => ⟨S4096x200x512, .f32⟩
  | .hbm, ⟨34, _⟩ => ⟨S4096x200x512, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x512_0_1 : S4096x200.BroadcastsInDim S4096x200x512 (![0, 1] : Fin 2 → Fin S4096x200x512.rank)
  bcast_S_S4096x200x512 : S_.BroadcastsInDim S4096x200x512 (![] : Fin 0 → Fin S4096x200x512.rank)
  bcast_S4096x200x1_S4096x200x512_0_1_2 : S4096x200x1.BroadcastsInDim S4096x200x512 (![0, 1, 2] : Fin 3 → Fin S4096x200x512.rank)
  gather_S2x512_S4096x200x1_S4096x200x512_2_0_n_n_0_2_1512_wf : GatherDims.WF S2x512 S4096x200x1 S4096x200x512 [2] [0] [] [0] [] 2 ![1, 512]

variable [Facts₀]

def gather_S2x512_S4096x200x1_S4096x200x512_2_0_n_n_0_2_1512 : GatherDims S2x512 S4096x200x1 S4096x200x512 where
  offsetDims := [2]
  collapsedSliceDims := [0]
  operandBatchingDims := []
  startIndicesBatchingDims := []
  startIndexMap := [0]
  indexVectorDim := 2
  sliceSizes := ![1, 512]
  wf := gather_S2x512_S4096x200x1_S4096x200x512_2_0_n_n_0_2_1512_wf

class Facts : Prop extends Facts₀ where

variable [Facts]
-- ==== Proof.KIFill.lean ====
/-
  One trip of the fill loop, as mathematics. A trip takes sixteen index words, turns each into its signed value as
  a float, and writes sixteen rows of the 64 x 512 row buffer: row (16 k + l), columns [16 m, 16 m + 16) receive
  the m-th sixteen-lane register of the scaled row times the l-th value, for l < 16 and m < 32 — 512 stores of one
  sixteen-lane segment each, the last store first in the list. The segments tile rows [16 k, 16 k + 16) of the
  buffer, so after the trip those rows hold, entry by entry, (register m, lane j) * value l, and the rows above
  them are untouched.
-/
import Idealize.ShloMosaic.Lib.Writes
import Idealize.ShloMosaic.Lib.ValueIdx
import Idealize.ShloMosaic.Lib.ValueLayout
import Idealize.ShloMosaic.Lib.Pipeline.Value
import proofs.«206715_g21620865368695_cont_8to1_1569_15_alg».proof.Proof.Gen.KernelIdeal

noncomputable section

namespace Cert.Proof.KI

open Cert.KernelIdeal Cert.KernelIdeal.Gen
open Idealize.ShloMosaic Idealize.ShloMosaic.ValueIdx

variable {F : FTy → Type} [FloatOps F]

theorem sl16 : ∀ l : Fin 16, S16.Slices ![l.val] S1 := by decide

/-- One store's payload: register `w` times lane `l` of the value vector `xv`, spread over sixteen lanes. -/
def lanePay (w xv : FVec F S16 .f32) (l : Fin 16) : FVec F S1x16 .f32 :=
  shapeCast S1x16 (mulf w (broadcast S16 (extractAt ![0] (extractStridedSlice S1 ![l.val] xv (sl16 l)) inpos_S1_p0))) shapeCasts_S16_S1x16

theorem lanePay_apply (w xv : FVec F S16 .f32) (l : Fin 16) (x : S1x16.Idx) :
    lanePay w xv l x = FloatOps.mulf (w (ix1 (x 1))) (xv (ix1 l)) := by
  obtain ⟨u, j, rfl⟩ : ∃ (u : Fin 1) (j : Fin 16), x = ix2 u j := ⟨x 0, x 1, eq_ix2 x⟩
  unfold lanePay
  rw [shapeCast_a_1a_apply]
  show FloatOps.mulf (w (ix1 j)) (xv _) = FloatOps.mulf (w (ix1 j)) (xv (ix1 l))
  refine congrArg (FloatOps.mulf (w (ix1 j))) (congrArg xv ?_)
  funext a
  match a with
  | ⟨0, _⟩ => exact Fin.ext (by simp)

section Pieces

variable (off : Fin 16 → Fin 32 → (Fin 2 → Nat)) (hinb : ∀ l m a, off l m a + S1x16.size a ≤ S64x512.size a)
  (w : Fin 32 → FVec F S16 .f32) (xv : FVec F S16 .f32)

/-- The store of lane `l`, register `m`. -/
def piece (l : Fin 16) (m : Fin 32) : View.Piece (Elt F) S64x512 .f32 :=
  ⟨Rect.unit (s := S64x512) (off l m) S1x16.size (hinb l m), lanePay (w m) xv l⟩

/-- Lane `l`'s stores of registers below `m`, the last first. -/
def rowPieces (l : Fin 16) : (m : ℕ) → m ≤ 32 → List (View.Piece (Elt F) S64x512 .f32)
  | 0, _ => []
  | m + 1, h => piece off hinb w xv l ⟨m, h⟩ :: rowPieces l m (Nat.le_of_succ_le h)

/-- The stores of the lanes below `l`, the last first. -/
def allPieces : (l : ℕ) → l ≤ 16 → List (View.Piece (Elt F) S64x512 .f32)
  | 0, _ => []
  | l + 1, h => rowPieces off hinb w xv ⟨l, h⟩ 32 le_rfl ++ allPieces l (Nat.le_of_succ_le h)

theorem mem_rowPieces {l : Fin 16} {p : View.Piece (Elt F) S64x512 .f32} :
    ∀ (m : ℕ) (h : m ≤ 32), p ∈ rowPieces off hinb w xv l m h ↔ ∃ m' : Fin 32, m'.val < m ∧ p = piece off hinb w xv l m'
  | 0, _ => by simp [rowPieces]
  | m + 1, h => by
    rw [rowPieces, List.mem_cons, mem_rowPieces m (Nat.le_of_succ_le h)]
    constructor
    · rintro (rfl | ⟨m', hm', rfl⟩)
      · exact ⟨⟨m, h⟩, Nat.lt_succ_self m, rfl⟩
      · exact ⟨m', Nat.lt_succ_of_lt hm', rfl⟩
    · rintro ⟨m', hm', rfl⟩
      rcases Nat.lt_succ_iff_lt_or_eq.mp hm' with hlt | heq
      · exact .inr ⟨m', hlt, rfl⟩
      · left; congr 1; exact Fin.ext heq

theorem mem_allPieces {p : View.Piece (Elt F) S64x512 .f32} :
    ∀ (n : ℕ) (h : n ≤ 16), p ∈ allPieces off hinb w xv n h ↔ ∃ (l : Fin 16) (m : Fin 32), l.val < n ∧ p = piece off hinb w xv l m
  | 0, _ => by simp [allPieces]
  | n + 1, h => by
    rw [allPieces, List.mem_append, mem_rowPieces, mem_allPieces n (Nat.le_of_succ_le h)]
    constructor
    · rintro (⟨m, _, rfl⟩ | ⟨l, m, hl, rfl⟩)
      · exact ⟨⟨n, h⟩, m, Nat.lt_succ_self n, rfl⟩
      · exact ⟨l, m, Nat.lt_succ_of_lt hl, rfl⟩
    · rintro ⟨l, m, hl, rfl⟩
      rcases Nat.lt_succ_iff_lt_or_eq.mp hl with hlt | heq
      · exact .inr ⟨l, m, hlt, rfl⟩
      · left; refine ⟨m, m.isLt, ?_⟩; congr 1; exact Fin.ext heq

/-- After a trip the sixteen rows it wrote hold the products, the rows above them what they held. -/
theorem fill_step {sig : RefSig} {κ : Kind} {sp : Space} (v : View sig κ sp S64x512 .f32) (k : ℕ)
    (hoff : ∀ l m, off l m = ![16 * k + l.val, 16 * m.val])
    (G : S64x512.Idx → Elt F .f32)
    (hG : ∀ (l : Fin 16) (m : Fin 32) (j : Fin 16) (y : S64x512.Idx), (y 0).val = 16 * k + l.val → (y 1).val = 16 * m.val + j.val →
      G y = FloatOps.mulf (w m (ix1 j)) (xv (ix1 l)))
    (f : v.ty.Contents (Elt F)) (hf : ∀ y : S64x512.Idx, (y 0).val < 16 * k → v.read (Elt F) f y = G y) :
    ∀ y : S64x512.Idx, (y 0).val < 16 * (k + 1) → v.read (Elt F) (v.writes (Elt F) f (allPieces off hinb w xv 16 le_rfl)) y = G y := by
  intro y hy
  by_cases h : (y 0).val < 16 * k
  · rw [View.read_writes_apply_of_forall_not_mem]
    · exact hf y h
    · intro p hp
      obtain ⟨l, m, _, rfl⟩ := (mem_allPieces off hinb w xv 16 le_rfl).mp hp
      show y ∉ (Rect.unit (s := S64x512) (off l m) S1x16.size (hinb l m)).set
      rw [Rect.mem_set_unit]
      intro hh
      have h0 := (hh 0).1
      rw [hoff] at h0
      simp at h0
      omega
  · have hy1 : (y 1).val < 512 := (y 1).isLt
    refine View.read_writes_apply_of_pieces (v := v) (f := f) G _ ?_ y ?_
    · intro p hp
      obtain ⟨l, m, _, rfl⟩ := (mem_allPieces off hinb w xv 16 le_rfl).mp hp
      intro (x : S1x16.Idx)
      show lanePay (w m) xv l x = G ((Rect.unit (s := S64x512) (off l m) S1x16.size (hinb l m)).emb x)
      rw [lanePay_apply]
      have hx0 : (x 0).val = 0 := by have := (x 0).isLt; simp at this; omega
      refine (hG l m (x 1) _ ?_ ?_).symm
      · rw [Rect.emb_apply, Rect.off_unit, Rect.stride_unit]
        have e0 : off l m 0 = 16 * k + l.val := by rw [hoff]; rfl
        omega
      · rw [Rect.emb_apply, Rect.off_unit, Rect.stride_unit]
        have e1 : off l m 1 = 16 * m.val := by rw [hoff]; rfl
        omega
    · have hl : (y 0).val - 16 * k < 16 := by omega
      have hm : (y 1).val / 16 < 32 := by omega
      refine ⟨piece off hinb w xv ⟨(y 0).val - 16 * k, hl⟩ ⟨(y 1).val / 16, hm⟩,
        (mem_allPieces off hinb w xv 16 le_rfl).mpr ⟨_, _, hl, rfl⟩, ?_⟩
      show y ∈ (Rect.unit (s := S64x512) (off _ _) S1x16.size (hinb _ _)).set
      rw [Rect.mem_set_unit, hoff]
      intro a
      match a with
      | ⟨0, _⟩ => simp; omega
      | ⟨1, _⟩ => simp; omega

end Pieces

end Cert.Proof.KI

end
-- ==== Proof.KIOffs.lean ====
/-
  The printed offset of each of a trip's 512 stores is row (16 k + l), column 16 m: the four fill loops of the body
  spell them through 32 offset functions each, one per register, collected here as one function of (lane, register).
-/
import Mathlib.Tactic.IntervalCases
import proofs.«206715_g21620865368695_cont_8to1_1569_15_alg».proof.Proof.Gen.KernelIdeal

noncomputable section

namespace Cert.Proof.KI

open Cert.KernelIdeal Cert.KernelIdeal.Gen
open Idealize.ShloMosaic

/-- The printed offsets of the 32 stores of lane `l`, by register. -/
def offA (k : Fin k0_t1_loop.trips) (l : Fin 16) (m : Fin 32) : Fin 2 → Nat :=
  match m.val with
  | 0 => k0_off3 k (BitVec.ofNat 32 l.val)
  | 1 => k0_off4 k (BitVec.ofNat 32 l.val)
  | 2 => k0_off5 k (BitVec.ofNat 32 l.val)
  | 3 => k0_off6 k (BitVec.ofNat 32 l.val)
  | 4 => k0_off7 k (BitVec.ofNat 32 l.val)
  | 5 => k0_off8 k (BitVec.ofNat 32 l.val)
  | 6 => k0_off9 k (BitVec.ofNat 32 l.val)
  | 7 => k0_off10 k (BitVec.ofNat 32 l.val)
  | 8 => k0_off11 k (BitVec.ofNat 32 l.val)
  | 9 => k0_off12 k (BitVec.ofNat 32 l.val)
  | 10 => k0_off13 k (BitVec.ofNat 32 l.val)
  | 11 => k0_off14 k (BitVec.ofNat 32 l.val)
  | 12 => k0_off15 k (BitVec.ofNat 32 l.val)
  | 13 => k0_off16 k (BitVec.ofNat 32 l.val)
  | 14 => k0_off17 k (BitVec.ofNat 32 l.val)
  | 15 => k0_off18 k (BitVec.ofNat 32 l.val)
  | 16 => k0_off19 k (BitVec.ofNat 32 l.val)
  | 17 => k0_off20 k (BitVec.ofNat 32 l.val)
  | 18 => k0_off21 k (BitVec.ofNat 32 l.val)
  | 19 => k0_off22 k (BitVec.ofNat 32 l.val)
  | 20 => k0_off23 k (BitVec.ofNat 32 l.val)
  | 21 => k0_off24 k (BitVec.ofNat 32 l.val)
  | 22 => k0_off25 k (BitVec.ofNat 32 l.val)
  | 23 => k0_off26 k (BitVec.ofNat 32 l.val)
  | 24 => k0_off27 k (BitVec.ofNat 32 l.val)
  | 25 => k0_off28 k (BitVec.ofNat 32 l.val)
  | 26 => k0_off29 k (BitVec.ofNat 32 l.val)
  | 27 => k0_off30 k (BitVec.ofNat 32 l.val)
  | 28 => k0_off31 k (BitVec.ofNat 32 l.val)
  | 29 => k0_off32 k (BitVec.ofNat 32 l.val)
  | 30 => k0_off33 k (BitVec.ofNat 32 l.val)
  | _ => k0_off34 k (BitVec.ofNat 32 l.val)

theorem offA_eq (k : Fin k0_t1_loop.trips) (l : Fin 16) (m : Fin 32) : offA k l m = ![16 * k.val + l.val, 16 * m.val] := by
  obtain ⟨mv, hm⟩ := m
  interval_cases mv <;> first | exact k0_off3_eq k l | exact k0_off4_eq k l | exact k0_off5_eq k l | exact k0_off6_eq k l | exact k0_off7_eq k l | exact k0_off8_eq k l | exact k0_off9_eq k l | exact k0_off10_eq k l | exact k0_off11_eq k l | exact k0_off12_eq k l | exact k0_off13_eq k l | exact k0_off14_eq k l | exact k0_off15_eq k l | exact k0_off16_eq k l | exact k0_off17_eq k l | exact k0_off18_eq k l | exact k0_off19_eq k l | exact k0_off20_eq k l | exact k0_off21_eq k l | exact k0_off22_eq k l | exact k0_off23_eq k l | exact k0_off24_eq k l | exact k0_off25_eq k l | exact k0_off26_eq k l | exact k0_off27_eq k l | exact k0_off28_eq k l | exact k0_off29_eq k l | exact k0_off30_eq k l | exact k0_off31_eq k l | exact k0_off32_eq k l | exact k0_off33_eq k l | exact k0_off34_eq k l

theorem offA_inb (k : Fin k0_t1_loop.trips) (l : Fin 16) (m : Fin 32) : ∀ a, offA k l m a + S1x16.size a ≤ S64x512.size a := by
  have h4 : k.val < 4 := k.isLt
  intro a
  rw [offA_eq]
  match a with
  | ⟨0, _⟩ => simp; omega
  | ⟨1, _⟩ => simp; omega

/-- The printed offsets of the 32 stores of lane `l`, by register. -/
def offB (k : Fin k0_t2_loop.trips) (l : Fin 16) (m : Fin 32) : Fin 2 → Nat :=
  match m.val with
  | 0 => k0_off37 k (BitVec.ofNat 32 l.val)
  | 1 => k0_off38 k (BitVec.ofNat 32 l.val)
  | 2 => k0_off39 k (BitVec.ofNat 32 l.val)
  | 3 => k0_off40 k (BitVec.ofNat 32 l.val)
  | 4 => k0_off41 k (BitVec.ofNat 32 l.val)
  | 5 => k0_off42 k (BitVec.ofNat 32 l.val)
  | 6 => k0_off43 k (BitVec.ofNat 32 l.val)
  | 7 => k0_off44 k (BitVec.ofNat 32 l.val)
  | 8 => k0_off45 k (BitVec.ofNat 32 l.val)
  | 9 => k0_off46 k (BitVec.ofNat 32 l.val)
  | 10 => k0_off47 k (BitVec.ofNat 32 l.val)
  | 11 => k0_off48 k (BitVec.ofNat 32 l.val)
  | 12 => k0_off49 k (BitVec.ofNat 32 l.val)
  | 13 => k0_off50 k (BitVec.ofNat 32 l.val)
  | 14 => k0_off51 k (BitVec.ofNat 32 l.val)
  | 15 => k0_off52 k (BitVec.ofNat 32 l.val)
  | 16 => k0_off53 k (BitVec.ofNat 32 l.val)
  | 17 => k0_off54 k (BitVec.ofNat 32 l.val)
  | 18 => k0_off55 k (BitVec.ofNat 32 l.val)
  | 19 => k0_off56 k (BitVec.ofNat 32 l.val)
  | 20 => k0_off57 k (BitVec.ofNat 32 l.val)
  | 21 => k0_off58 k (BitVec.ofNat 32 l.val)
  | 22 => k0_off59 k (BitVec.ofNat 32 l.val)
  | 23 => k0_off60 k (BitVec.ofNat 32 l.val)
  | 24 => k0_off61 k (BitVec.ofNat 32 l.val)
  | 25 => k0_off62 k (BitVec.ofNat 32 l.val)
  | 26 => k0_off63 k (BitVec.ofNat 32 l.val)
  | 27 => k0_off64 k (BitVec.ofNat 32 l.val)
  | 28 => k0_off65 k (BitVec.ofNat 32 l.val)
  | 29 => k0_off66 k (BitVec.ofNat 32 l.val)
  | 30 => k0_off67 k (BitVec.ofNat 32 l.val)
  | _ => k0_off68 k (BitVec.ofNat 32 l.val)

theorem offB_eq (k : Fin k0_t2_loop.trips) (l : Fin 16) (m : Fin 32) : offB k l m = ![16 * k.val + l.val, 16 * m.val] := by
  obtain ⟨mv, hm⟩ := m
  interval_cases mv <;> first | exact k0_off37_eq k l | exact k0_off38_eq k l | exact k0_off39_eq k l | exact k0_off40_eq k l | exact k0_off41_eq k l | exact k0_off42_eq k l | exact k0_off43_eq k l | exact k0_off44_eq k l | exact k0_off45_eq k l | exact k0_off46_eq k l | exact k0_off47_eq k l | exact k0_off48_eq k l | exact k0_off49_eq k l | exact k0_off50_eq k l | exact k0_off51_eq k l | exact k0_off52_eq k l | exact k0_off53_eq k l | exact k0_off54_eq k l | exact k0_off55_eq k l | exact k0_off56_eq k l | exact k0_off57_eq k l | exact k0_off58_eq k l | exact k0_off59_eq k l | exact k0_off60_eq k l | exact k0_off61_eq k l | exact k0_off62_eq k l | exact k0_off63_eq k l | exact k0_off64_eq k l | exact k0_off65_eq k l | exact k0_off66_eq k l | exact k0_off67_eq k l | exact k0_off68_eq k l

theorem offB_inb (k : Fin k0_t2_loop.trips) (l : Fin 16) (m : Fin 32) : ∀ a, offB k l m a + S1x16.size a ≤ S64x512.size a := by
  have h4 : k.val < 4 := k.isLt
  intro a
  rw [offB_eq]
  match a with
  | ⟨0, _⟩ => simp; omega
  | ⟨1, _⟩ => simp; omega

/-- The printed offsets of the 32 stores of lane `l`, by register. -/
def offC (k : Fin k0_t4_loop.trips) (l : Fin 16) (m : Fin 32) : Fin 2 → Nat :=
  match m.val with
  | 0 => k0_off71 k (BitVec.ofNat 32 l.val)
  | 1 => k0_off72 k (BitVec.ofNat 32 l.val)
  | 2 => k0_off73 k (BitVec.ofNat 32 l.val)
  | 3 => k0_off74 k (BitVec.ofNat 32 l.val)
  | 4 => k0_off75 k (BitVec.ofNat 32 l.val)
  | 5 => k0_off76 k (BitVec.ofNat 32 l.val)
  | 6 => k0_off77 k (BitVec.ofNat 32 l.val)
  | 7 => k0_off78 k (BitVec.ofNat 32 l.val)
  | 8 => k0_off79 k (BitVec.ofNat 32 l.val)
  | 9 => k0_off80 k (BitVec.ofNat 32 l.val)
  | 10 => k0_off81 k (BitVec.ofNat 32 l.val)
  | 11 => k0_off82 k (BitVec.ofNat 32 l.val)
  | 12 => k0_off83 k (BitVec.ofNat 32 l.val)
  | 13 => k0_off84 k (BitVec.ofNat 32 l.val)
  | 14 => k0_off85 k (BitVec.ofNat 32 l.val)
  | 15 => k0_off86 k (BitVec.ofNat 32 l.val)
  | 16 => k0_off87 k (BitVec.ofNat 32 l.val)
  | 17 => k0_off88 k (BitVec.ofNat 32 l.val)
  | 18 => k0_off89 k (BitVec.ofNat 32 l.val)
  | 19 => k0_off90 k (BitVec.ofNat 32 l.val)
  | 20 => k0_off91 k (BitVec.ofNat 32 l.val)
  | 21 => k0_off92 k (BitVec.ofNat 32 l.val)
  | 22 => k0_off93 k (BitVec.ofNat 32 l.val)
  | 23 => k0_off94 k (BitVec.ofNat 32 l.val)
  | 24 => k0_off95 k (BitVec.ofNat 32 l.val)
  | 25 => k0_off96 k (BitVec.ofNat 32 l.val)
  | 26 => k0_off97 k (BitVec.ofNat 32 l.val)
  | 27 => k0_off98 k (BitVec.ofNat 32 l.val)
  | 28 => k0_off99 k (BitVec.ofNat 32 l.val)
  | 29 => k0_off100 k (BitVec.ofNat 32 l.val)
  | 30 => k0_off101 k (BitVec.ofNat 32 l.val)
  | _ => k0_off102 k (BitVec.ofNat 32 l.val)

theorem offC_eq (k : Fin k0_t4_loop.trips) (l : Fin 16) (m : Fin 32) : offC k l m = ![16 * k.val + l.val, 16 * m.val] := by
  obtain ⟨mv, hm⟩ := m
  interval_cases mv <;> first | exact k0_off71_eq k l | exact k0_off72_eq k l | exact k0_off73_eq k l | exact k0_off74_eq k l | exact k0_off75_eq k l | exact k0_off76_eq k l | exact k0_off77_eq k l | exact k0_off78_eq k l | exact k0_off79_eq k l | exact k0_off80_eq k l | exact k0_off81_eq k l | exact k0_off82_eq k l | exact k0_off83_eq k l | exact k0_off84_eq k l | exact k0_off85_eq k l | exact k0_off86_eq k l | exact k0_off87_eq k l | exact k0_off88_eq k l | exact k0_off89_eq k l | exact k0_off90_eq k l | exact k0_off91_eq k l | exact k0_off92_eq k l | exact k0_off93_eq k l | exact k0_off94_eq k l | exact k0_off95_eq k l | exact k0_off96_eq k l | exact k0_off97_eq k l | exact k0_off98_eq k l | exact k0_off99_eq k l | exact k0_off100_eq k l | exact k0_off101_eq k l | exact k0_off102_eq k l

theorem offC_inb (k : Fin k0_t4_loop.trips) (l : Fin 16) (m : Fin 32) : ∀ a, offC k l m a + S1x16.size a ≤ S64x512.size a := by
  have h4 : k.val < 4 := k.isLt
  intro a
  rw [offC_eq]
  match a with
  | ⟨0, _⟩ => simp; omega
  | ⟨1, _⟩ => simp; omega

/-- The printed offsets of the 32 stores of lane `l`, by register. -/
def offD (k : Fin k0_t5_loop.trips) (l : Fin 16) (m : Fin 32) : Fin 2 → Nat :=
  match m.val with
  | 0 => k0_off106 k (BitVec.ofNat 32 l.val)
  | 1 => k0_off107 k (BitVec.ofNat 32 l.val)
  | 2 => k0_off108 k (BitVec.ofNat 32 l.val)
  | 3 => k0_off109 k (BitVec.ofNat 32 l.val)
  | 4 => k0_off110 k (BitVec.ofNat 32 l.val)
  | 5 => k0_off111 k (BitVec.ofNat 32 l.val)
  | 6 => k0_off112 k (BitVec.ofNat 32 l.val)
  | 7 => k0_off113 k (BitVec.ofNat 32 l.val)
  | 8 => k0_off114 k (BitVec.ofNat 32 l.val)
  | 9 => k0_off115 k (BitVec.ofNat 32 l.val)
  | 10 => k0_off116 k (BitVec.ofNat 32 l.val)
  | 11 => k0_off117 k (BitVec.ofNat 32 l.val)
  | 12 => k0_off118 k (BitVec.ofNat 32 l.val)
  | 13 => k0_off119 k (BitVec.ofNat 32 l.val)
  | 14 => k0_off120 k (BitVec.ofNat 32 l.val)
  | 15 => k0_off121 k (BitVec.ofNat 32 l.val)
  | 16 => k0_off122 k (BitVec.ofNat 32 l.val)
  | 17 => k0_off123 k (BitVec.ofNat 32 l.val)
  | 18 => k0_off124 k (BitVec.ofNat 32 l.val)
  | 19 => k0_off125 k (BitVec.ofNat 32 l.val)
  | 20 => k0_off126 k (BitVec.ofNat 32 l.val)
  | 21 => k0_off127 k (BitVec.ofNat 32 l.val)
  | 22 => k0_off128 k (BitVec.ofNat 32 l.val)
  | 23 => k0_off129 k (BitVec.ofNat 32 l.val)
  | 24 => k0_off130 k (BitVec.ofNat 32 l.val)
  | 25 => k0_off131 k (BitVec.ofNat 32 l.val)
  | 26 => k0_off132 k (BitVec.ofNat 32 l.val)
  | 27 => k0_off133 k (BitVec.ofNat 32 l.val)
  | 28 => k0_off134 k (BitVec.ofNat 32 l.val)
  | 29 => k0_off135 k (BitVec.ofNat 32 l.val)
  | 30 => k0_off136 k (BitVec.ofNat 32 l.val)
  | _ => k0_off137 k (BitVec.ofNat 32 l.val)

theorem offD_eq (k : Fin k0_t5_loop.trips) (l : Fin 16) (m : Fin 32) : offD k l m = ![16 * k.val + l.val, 16 * m.val] := by
  obtain ⟨mv, hm⟩ := m
  interval_cases mv <;> first | exact k0_off106_eq k l | exact k0_off107_eq k l | exact k0_off108_eq k l | exact k0_off109_eq k l | exact k0_off110_eq k l | exact k0_off111_eq k l | exact k0_off112_eq k l | exact k0_off113_eq k l | exact k0_off114_eq k l | exact k0_off115_eq k l | exact k0_off116_eq k l | exact k0_off117_eq k l | exact k0_off118_eq k l | exact k0_off119_eq k l | exact k0_off120_eq k l | exact k0_off121_eq k l | exact k0_off122_eq k l | exact k0_off123_eq k l | exact k0_off124_eq k l | exact k0_off125_eq k l | exact k0_off126_eq k l | exact k0_off127_eq k l | exact k0_off128_eq k l | exact k0_off129_eq k l | exact k0_off130_eq k l | exact k0_off131_eq k l | exact k0_off132_eq k l | exact k0_off133_eq k l | exact k0_off134_eq k l | exact k0_off135_eq k l | exact k0_off136_eq k l | exact k0_off137_eq k l

theorem offD_inb (k : Fin k0_t5_loop.trips) (l : Fin 16) (m : Fin 32) : ∀ a, offD k l m a + S1x16.size a ≤ S64x512.size a := by
  have h4 : k.val < 4 := k.isLt
  intro a
  rw [offD_eq]
  match a with
  | ⟨0, _⟩ => simp; omega
  | ⟨1, _⟩ => simp; omega

end Cert.Proof.KI

end
-- ==== Proof.KISetup.lean ====
import proofs.«206715_g21620865368695_cont_8to1_1569_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Writes
import Idealize.ShloMosaic.Lib.ValueIdx
import proofs.«206715_g21620865368695_cont_8to1_1569_15_alg».proof.Proof.Gen.KernelIdeal
import proofs.«206715_g21620865368695_cont_8to1_1569_15_alg».proof.Proof.Gen.KernelIdeal.Skeleton
import Mathlib.Tactic.IntervalCases
import proofs.«206715_g21620865368695_cont_8to1_1569_15_alg».proof.Proof.KIFill
import proofs.«206715_g21620865368695_cont_8to1_1569_15_alg».proof.Proof.KIOffs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The scaled row, the flat index list and the flat result, as locations of device `d`. -/
abbrev wLoc (d : Dev nD) : Loc nD τ sig := (SparseCore.T d).loc main_v3
abbrev iLoc (d : Dev nD) : Loc nD τ sig := (SparseCore.T d).loc main_v4
abbrev oLoc (d : Dev nD) : Loc nD τ sig := (SparseCore.T d).loc main_v5

local notation "wV" => (Memref.whole Cert.KernelIdeal.main_v3_scv : Memref Cert.KernelIdeal.sig Kind.scVector Space.hbm Cert.KernelIdeal.S512 EltTy.f32)
local notation "iV" => (Memref.whole Cert.KernelIdeal.main_v4_scv : Memref Cert.KernelIdeal.sig Kind.scVector Space.hbm Cert.KernelIdeal.S819200 EltTy.i32)
local notation "oV" => (Memref.whole Cert.KernelIdeal.main_v5_scv : Memref Cert.KernelIdeal.sig Kind.scVector Space.hbm Cert.KernelIdeal.S819200x512 EltTy.f32)
local notation "rawV" => (Memref.whole Cert.KernelIdeal.cc0_scratch0 : Memref Cert.KernelIdeal.sig Kind.scVector Space.vmem Cert.KernelIdeal.S25600 EltTy.i32)
local notation "wvV" => (Memref.whole Cert.KernelIdeal.cc0_scratch1 : Memref Cert.KernelIdeal.sig Kind.scVector Space.vmem Cert.KernelIdeal.S512 EltTy.f32)
local notation "r0V" => (Memref.whole Cert.KernelIdeal.cc0_scratch2 : Memref Cert.KernelIdeal.sig Kind.scVector Space.vmem Cert.KernelIdeal.S64x512 EltTy.f32)
local notation "r1V" => (Memref.whole Cert.KernelIdeal.cc0_scratch3 : Memref Cert.KernelIdeal.sig Kind.scVector Space.vmem Cert.KernelIdeal.S64x512 EltTy.f32)

section Tile

variable [FloatOps F] (d : Dev nD) (L : grid0.Coords)

abbrev cV (L : grid0.Coords) : Fin τ.nSC := (L 0).castLE hcore0
abbrev jV (L : grid0.Coords) : Fin τ.nSub := (L 1).castLE hsub0

/-- The tile's stretch of the flat index list, as the task slices it. -/
abbrev iSl (L : grid0.Coords) : Memref sig .scVector .hbm S25600 .i32 :=
  (iV).slice (Rect.unit (s := S819200) (k0_off1 L) S25600.size (k0_off1_inb L)) (fun _ => rfl)

abbrev cAcell (d : Dev nD) (c : Fin τ.nSC) (i : Fin τ.nSub) : GSem nD τ sig := (V d c i, .dma cc0_scratch4.sem)
abbrev cBcell (d : Dev nD) (c : Fin τ.nSC) (i : Fin τ.nSub) : GSem nD τ sig := (V d c i, .dma cc0_scratch5.sem)
abbrev cCcell (d : Dev nD) (c : Fin τ.nSC) (i : Fin τ.nSub) : GSem nD τ sig := (V d c i, .dma cc0_scoped0.sem)
abbrev cDcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cDcell d (cV L) (jV L)) 0
          ∗ bigSep (((((ownCells (V d (cV L) (jV L))).erase (cAcell d (cV L) (jV L))).erase (cBcell d (cV L) (jV L))).erase (cCcell d (cV L) (jV L))).erase (cDcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch4.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch5.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩),
    SparseCore.bigSep_erase' (Finset.mem_erase.mpr ⟨by simp [cCcell, cDcell]; decide, Finset.mem_erase.mpr ⟨by simp [cBcell, cDcell]; decide, Finset.mem_erase.mpr ⟨by simp [cAcell, cDcell]; decide,
      (mem_ownCells (g := cDcell d (cV L) (jV L))).mpr ⟨rfl, by show (SemLoc.dma cc0_scoped1.sem : SemLoc sig).isScoped .scVector = true; decide⟩⟩⟩⟩)]

omit [FloatOps F] in
/-- The four scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-! ## Which rows a tile owns -/

/-- The tile number of a grid point: tiles are numbered subcore-major, the two SparseCores alternating. -/
abbrev widL (L : grid0.Coords) : ℕ := 2 * (L 1).val + (L 0).val

/-- Stretch `w` of the flat index list: 25600 consecutive words. -/
def iBlk (w : ℕ) : Finset S819200.Idx := Finset.univ.filter fun x => 25600 * w ≤ (x 0).val ∧ (x 0).val < 25600 * w + 25600
/-- Rows `[b, b + n)` of the flat result. -/
def oRows (b n : ℕ) : Finset S819200x512.Idx := Finset.univ.filter fun x => b ≤ (x 0).val ∧ (x 0).val < b + n

omit [FloatOps F] in
theorem mem_iBlk {w : ℕ} {x : S819200.Idx} : x ∈ iBlk w ↔ 25600 * w ≤ (x 0).val ∧ (x 0).val < 25600 * w + 25600 := by
  simp [iBlk]
omit [FloatOps F] in
theorem mem_oRows {b n : ℕ} {x : S819200x512.Idx} : x ∈ oRows b n ↔ b ≤ (x 0).val ∧ (x 0).val < b + n := by
  simp [oRows]

omit [FloatOps F] in
theorem set_iSl : (iSl L).view.set = iBlk (widL L) := by
  show ((View.whole (main_v4_scv : Ref sig .scVector)).slice (Rect.unit (s := S819200) (k0_off1 L) S25600.size (k0_off1_inb L))).set = _
  rw [View.set_slice_whole]
  ext x
  rw [Rect.mem_set_unit, mem_iBlk, k0_off1_eq]
  unfold widL
  constructor
  · intro h; have := h 0; simp at this; omega
  · intro h a; match a with | ⟨0, _⟩ => simp; omega

omit [FloatOps F] in
theorem pts_iSl (f : Buf (Elt F) (iLoc d)) :
    ((iSl L).view.loc (V d (cV L) (jV L)) ↦[(iSl L).view.set]{fullShare} f : sProp 𝕄) = iLoc d ↦[iBlk (widL L)]{fullShare} f := by
  rw [set_iSl]
omit [FloatOps F] in
theorem pts_wV (q : PosShare TreeShare) (f : Buf (Elt F) (wLoc d)) :
    ((wV).view.loc (V d (cV L) (jV L)) ↦{q} f : sProp 𝕄) = wLoc d ↦{q} f := rfl

/-! ## Blocks of the flat result -/

/-- 64 rows of the flat result from row `off 0`, as the task slices them for a copy-out. -/
abbrev oSl (off : Fin 2 → ℕ) (h : ∀ a, off a + S64x512.size a ≤ S819200x512.size a) : Memref sig .scVector .hbm S64x512 .f32 :=
  (oV).slice (Rect.unit (s := S819200x512) off S64x512.size h) (fun _ => rfl)

omit [FloatOps F] in
theorem set_oSl (off : Fin 2 → ℕ) (h : ∀ a, off a + S64x512.size a ≤ S819200x512.size a) (h1 : off 1 = 0) :
    (oSl off h).view.set = oRows (off 0) 64 := by
  show ((View.whole (main_v5_scv : Ref sig .scVector)).slice (Rect.unit (s := S819200x512) off S64x512.size h)).set = _
  rw [View.set_slice_whole]
  ext x
  rw [Rect.mem_set_unit, mem_oRows]
  constructor
  · intro hh; have := hh 0; simpa using this
  · intro hh a
    match a with
    | ⟨0, _⟩ => simpa using hh
    | ⟨1, _⟩ =>
      have h512 : (x 1).val < 512 := (x 1).isLt
      have h1' : off (1 : Fin 2) = 0 := h1
      simp [h1']; omega

omit [FloatOps F] in
theorem oRows_add (b n k : ℕ) : oRows b (n + k) = oRows b n ∪ oRows (b + n) k := by
  ext x; simp only [Finset.mem_union, mem_oRows]; omega
omit [FloatOps F] in
theorem oRows_disj (b n k : ℕ) : Disjoint (oRows b n) (oRows (b + n) k) :=
  Finset.disjoint_left.mpr fun x h1 h2 => by rw [mem_oRows] at h1 h2; omega

omit [FloatOps F] in
/-- Rows `[b, b + n + k)` held at one function are rows `[b, b + n)` and rows `[b + n, b + n + k)`. -/
theorem pts_rows_split (b n k : ℕ) (f : Buf (Elt F) (oLoc d)) :
    (oLoc d ↦[oRows b (n + k)]{fullShare} f : sProp 𝕄) ⊣⊢ iprop((oLoc d ↦[oRows b n]{fullShare} f) ∗ oLoc d ↦[oRows (b + n) k]{fullShare} f) := by
  rw [oRows_add]; exact pointsTo_union (oRows_disj b n k)

omit [FloatOps F] in
theorem off35_0 : ∀ i : grid0.Coords, k0_off35 i 0#32 = ![51200 * (i 1).val + 25600 * (i 0).val, 0] := by decide +kernel
omit [FloatOps F] in
theorem off35_1 : ∀ i : grid0.Coords, k0_off35 i 64#32 = ![51200 * (i 1).val + 25600 * (i 0).val + 64, 0] := by decide +kernel
omit [FloatOps F] in
theorem off35_2 : ∀ i : grid0.Coords, k0_off35 i 25472#32 = ![51200 * (i 1).val + 25600 * (i 0).val + 25472, 0] := by decide +kernel
omit [FloatOps F] in
theorem off35_3 : ∀ i : grid0.Coords, k0_off35 i 25536#32 = ![51200 * (i 1).val + 25600 * (i 0).val + 25536, 0] := by decide +kernel
omit [FloatOps F] in
theorem cond1_iff : ∀ t : Fin k0_t3_loop.trips, (k0_cond1 t = 1#1) ↔ t.val < 199 := by decide +kernel
omit [FloatOps F] in
theorem cond2_iff : ∀ t : Fin k0_t3_loop.trips, (k0_cond2 t = 1#1) ↔ t.val < 199 := by decide +kernel
omit [FloatOps F] in
theorem trips3 : k0_t3_loop.trips = 200 := by decide +kernel

/-! ## A trip's values, in one spelling -/

omit [FloatOps F] in
theorem inbw : ∀ m : Fin 32, ∀ a, (![16 * m.val] : Fin 1 → Nat) a + S16.size a ≤ S512.size a := by decide

/-- Register `m` of the scaled row: sixteen lanes of the row scratch from lane `16 m` on. -/
def wA (wvc : S512.Idx → Elt F .f32) (m : Fin 32) : FVec F S16 .f32 :=
  shapeCast S16 (View.readAt (Elt F) (wvV).view (Rect.unit (s := S512) ![16 * m.val] S16.size (inbw m)).toLoadRect wvc) shapeCasts_S16_S16

/-- Sixteen index words of the index scratch from `roff` on, as floats. -/
def xvOf (rawc : S25600.Idx → Elt F .i32) (roff : Fin 1 → ℕ) (h : ∀ a, roff a + S16.size a ≤ S25600.size a) : FVec F S16 .f32 :=
  sitofp .f32 (shapeCast S16 (View.readAt (Elt F) (rawV).view (Rect.unit (s := S25600) roff S16.size h).toLoadRect rawc) shapeCasts_S16_S16)

theorem wA_apply (wvc : S512.Idx → Elt F .f32) (m : Fin 32) (j : Fin 16) :
    wA wvc m (ix1 j) = wvc (ix1 (⟨16 * m.val + j.val, by omega⟩ : Fin 512)) := by
  unfold wA
  refine (congrFun (shapeCast_self (s := S16) _ _) _).trans ?_
  show wvc _ = wvc _
  exact congrArg wvc (funext fun a => match a with | ⟨0, _⟩ => Fin.ext (by simp))

theorem xvOf_apply (rawc : S25600.Idx → Elt F .i32) (roff : Fin 1 → ℕ) (h : ∀ a, roff a + S16.size a ≤ S25600.size a) (l : Fin 16) :
    xvOf rawc roff h (ix1 l) = FloatOps.sitofp .f32 (rawc (ix1 (⟨roff 0 + l.val, by have := h 0; simp at this; omega⟩ : Fin 25600))) := by
  unfold xvOf
  show FloatOps.sitofp .f32 (shapeCast S16 _ shapeCasts_S16_S16 (ix1 l)) = _
  refine (congrArg (FloatOps.sitofp .f32) (congrFun (shapeCast_self (s := S16) _ _) _)).trans ?_
  show FloatOps.sitofp .f32 (rawc _) = FloatOps.sitofp .f32 (rawc _)
  exact congrArg (fun z => FloatOps.sitofp .f32 (rawc z)) (funext fun a => match a with | ⟨0, _⟩ => Fin.ext (by simp))

end Tile

end Cert.Proof.KI

end
-- ==== Proof.KIPay.lean ====
import proofs.«206715_g21620865368695_cont_8to1_1569_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Writes
import Idealize.ShloMosaic.Lib.ValueIdx
import proofs.«206715_g21620865368695_cont_8to1_1569_15_alg».proof.Proof.Gen.KernelIdeal
import proofs.«206715_g21620865368695_cont_8to1_1569_15_alg».proof.Proof.Gen.KernelIdeal.Skeleton
import proofs.«206715_g21620865368695_cont_8to1_1569_15_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## What a tile computes, and what the handshakes carry -/

section Pay

variable [FloatOps F]

/-- The flat result as a function of the scaled row `w` and the flat index list `ix`: entry (r, col) is lane `col` of the
    row times the signed value of word `r`. -/
def outSpec (d : Dev nD) (w : Buf (Elt F) (wLoc d)) (ix : Buf (Elt F) (iLoc d)) : Buf (Elt F) (oLoc d) :=
  fun x => FloatOps.mulf (w (ix1 (x 1))) (FloatOps.sitofp .f32 (ix (ix1 (x 0))))

variable (fw : (d : Dev nD) → Buf (Elt F) (wLoc d)) (fi : (d : Dev nD) → Buf (Elt F) (iLoc d)) (fo : (d : Dev nD) → Buf (Elt F) (oLoc d))

/-- Task `w`'s read share of the scaled row. -/
abbrev wTok (w : ℕ) : PosShare TreeShare := Transfers.shareTokN fullShare w

/-- What task `w` is handed: its stretch of the index list, a read share of the scaled row, its rows of the result. -/
def goRes (d : Dev nD) (w : ℕ) : sProp 𝕄 :=
  iprop((iLoc d ↦[iBlk w]{fullShare} fi d) ∗ (wLoc d ↦{wTok w} fw d) ∗ (oLoc d ↦[oRows (25600 * w) 25600]{fullShare} fo d))
/-- What it hands back: the same, its rows of the result at the product. -/
def tdRes (d : Dev nD) (w : ℕ) : sProp 𝕄 :=
  iprop((iLoc d ↦[iBlk w]{fullShare} fi d) ∗ (wLoc d ↦{wTok w} fw d) ∗ (oLoc d ↦[oRows (25600 * w) 25600]{fullShare} outSpec d (fw d) (fi d)))

/-- The one call: each SparseCore is handed, and hands back, what its sixteen tasks are; task `i` of SparseCore `c` is
    tile number `2 i + c`. -/
def P : (K (F := F)).Pay (nD := nD) (Val := Elt F) (Name := ℕ) (U := UU) where
  st := fun _ d c => bigSep Finset.univ fun i : Fin ((K (F := F)).nSub 0) => goRes fw fi fo d (2 * i.val + c.val)
  dn := fun _ d c => bigSep Finset.univ fun i : Fin ((K (F := F)).nSub 0) => tdRes fw fi d (2 * i.val + c.val)
  go := fun _ d c i => goRes fw fi fo d (2 * i.val + c.val)
  td := fun _ d c i => tdRes fw fi d (2 * i.val + c.val)
  x := fun _ _ => iprop(emp)

instance goRes_storable (d : Dev nD) (w : ℕ) : BI.Storable (upEmb : UEmb _ 𝕄) (goRes fw fi fo d w) := by unfold goRes; infer_instance
instance tdRes_storable (d : Dev nD) (w : ℕ) : BI.Storable (upEmb : UEmb _ 𝕄) (tdRes fw fi d w) := by unfold tdRes; infer_instance

instance P_storable : (P (F := F) fw fi fo).IsStorable where
  st _ d c := by unfold P; infer_instance
  dn _ d c := by unfold P; infer_instance
  go _ d c i := by unfold P; infer_instance
  td _ d c i := by unfold P; infer_instance

end Pay

end Cert.Proof.KI

end
-- ==== Proof.Spec.lean ====
/-
  The function both programs compute, entry by entry. The table has two rows of 512 numbers; only row 1 matters:
  an index word 0 contributes the zero row (the reference masks it, the kernel multiplies by the word's value 0),
  an index word 1 contributes row 1 scaled by the literal 0x41B504F3 (the binary32 nearest 512^(1/2)), which both
  programs carry as the same word. So entry (b, s, col) of the result is
      (table[1, col] * literal) * value(idx[b, s])
  where value reads the 32-bit word as a signed integer. Stated for every float instance.
-/
import Idealize.ShloMosaic.PureOps
import Idealize.ShloMosaic.Lib.ValueIdx

noncomputable section

namespace Cert.Spec

open Idealize.ShloMosaic Idealize.ShloMosaic.ValueIdx

abbrev SIdx : Shape := ⟨2, ![4096, 200]⟩
abbrev STab : Shape := ⟨2, ![2, 512]⟩
abbrev SOut : Shape := ⟨3, ![4096, 200, 512]⟩

variable {F : FTy → Type} [FloatOps F]

/-- Row 1 of the table times the literal, at column `col`. -/
def scaled (w : FVec F STab .f32) (col : Fin 512) : F .f32 :=
  FloatOps.mulf (w (ix2 (1 : Fin 2) col)) (FloatOps.ofBits .f32 0x41B504F3#32)

/-- The result array: the scaled row times the index word's signed value. -/
def G (idx : IVec SIdx 32) (w : FVec F STab .f32) : FVec F SOut .f32 :=
  fun i => FloatOps.mulf (scaled w (i 2)) (FloatOps.sitofp .f32 (idx (ix2 (i 0) (i 1))))

end Cert.Spec

end
-- ==== Proof.KIHost.lean ====
/-
  The TensorCore's side of the program. Before the call it computes, in six operations, the scaled row (row 1 of the
  table times the literal, lane by lane) and the index words as one flat list of 819200; after the call it views the
  flat [819200, 512] result as [4096, 200, 512]. Across the call it hands the two SparseCores the whole index list,
  32 read shares of the scaled row (keeping the remainder of the share itself) and the whole flat result, and takes
  them back with the flat result at the product: tile number w = 2 i + c (task i of SparseCore c) owns words
  [25600 w, 25600 w + 25600) of the list and the same rows of the result, and these 32 stretches are disjoint and
  cover both arrays. Read at an entry (b, s, col), the viewed result is row 200 b + s of the flat result at lane col,
  that is (table[1, col] * literal) * value(idx[b, s]): the specification.
-/
import proofs.«206715_g21620865368695_cont_8to1_1569_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Value
import Idealize.ShloMosaic.Lib.Ring
import Idealize.ShloMosaic.Lib.Tactic
import Idealize.ShloMosaic.Lib.Writes
import Idealize.ShloMosaic.Lib.ValueIdx
import proofs.«206715_g21620865368695_cont_8to1_1569_15_alg».proof.Proof.Gen.KernelIdeal
import proofs.«206715_g21620865368695_cont_8to1_1569_15_alg».proof.Proof.Gen.KernelIdeal.Skeleton
import proofs.«206715_g21620865368695_cont_8to1_1569_15_alg».proof.Proof.KIPay
import proofs.«206715_g21620865368695_cont_8to1_1569_15_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo

variable {F : FTy → Type}

local notation "𝕄" => MT nD τ sig (HIx 1) (Elt F) ℕ UU ℕ

/-! ## The TensorCore's side: its ten arrays and its seven operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev cst' : DevRef τ sig := Proc.devRef .tc (main_cst : Ref sig .tc)
abbrev v2' : DevRef τ sig := Proc.devRef .tc (main_v2 : Ref sig .tc)
abbrev w' : DevRef τ sig := Proc.devRef .tc (main_v3 : Ref sig .tc)
abbrev i' : DevRef τ sig := Proc.devRef .tc (main_v4 : Ref sig .tc)
abbrev o' : DevRef τ sig := Proc.devRef .tc (main_v5 : Ref sig .tc)
abbrev r' : DevRef τ sig := Proc.devRef .tc (main_v6 : Ref sig .tc)

section Host

variable [FloatOps F]

/-- Row 1 of the table, as a [1, 512] array. -/
abbrev op0 : HloOp τ sig (Elt F) :=
  StableHlo.unary main_arg1 main_v0 ((extractStridedSlice S1x512 ![1, 0] · slices_S2x512_S1x512_1_0) : (⟨S2x512, .f32⟩ : BufTy).Contents (Elt F) → (⟨S1x512, .f32⟩ : BufTy).Contents (Elt F))
/-- The row as a vector of 512. -/
abbrev op1 : HloOp τ sig (Elt F) := StableHlo.reshape main_v0 main_v1 rfl shapeCasts_S1x512_S512
/-- The literal. -/
abbrev op2 : HloOp τ sig (Elt F) := StableHlo.nullary main_cst (constant S_ .f32 0x41B504F3#32)
/-- The literal spread over 512 lanes. -/
abbrev op3 : HloOp τ sig (Elt F) :=
  StableHlo.unary main_cst main_v2 (broadcastInDim S512 ![] bcast_S_S512 : (⟨S_, .f32⟩ : BufTy).Contents (Elt F) → (⟨S512, .f32⟩ : BufTy).Contents (Elt F))
/-- The scaled row: row 1 times the literal, lane by lane. -/
abbrev op4 : HloOp τ sig (Elt F) :=
  StableHlo.binary main_v1 main_v2 main_v3 (mulf : (⟨S512, .f32⟩ : BufTy).Contents (Elt F) → (⟨S512, .f32⟩ : BufTy).Contents (Elt F) → (⟨S512, .f32⟩ : BufTy).Contents (Elt F))
/-- The index words as one flat list of 819200. -/
abbrev op5 : HloOp τ sig (Elt F) := StableHlo.reshape main_arg0 main_v4 rfl shapeCasts_S4096x200_S819200
/-- The flat result viewed [4096, 200, 512]. -/
abbrev op6 : HloOp τ sig (Elt F) := StableHlo.reshape main_v5 main_v6 rfl shapeCasts_S819200x512_S4096x200x512

/-- The TensorCore's arrays, all unscoped. -/
abbrev S10 : Finset (DevRef τ sig) := {a0', a1', v0', v1', cst', v2', w', i', o', r'}

variable (m : (ℓ : Loc nD τ sig) → Buf (Elt F) ℓ) (ρ : Dev nD → PrngReg)

/-- The launch valuation; the valuation before the call (the six operations' results); after the call (the flat result
    at the product); after the last reshape. -/
def V0 (d : Dev nD) : Valuation τ sig (Elt F) := fun b => m (d, b)
def VF (d : Dev nD) : Valuation τ sig (Elt F) :=
  (op5 (F := F)).result ((op4 (F := F)).result ((op3 (F := F)).result ((op2 (F := F)).result ((op1 (F := F)).result ((op0 (F := F)).result (V0 m d))))))
def VG (d : Dev nD) : Valuation τ sig (Elt F) := Function.update (VF m d) o' (outSpec d (VF m d w') (VF m d i'))
def VH (d : Dev nD) : Valuation τ sig (Elt F) := (op6 (F := F)).result (VG m d)

/-- The families the call's payload is stated at: the scaled row, the flat index list and the flat result as the
    TensorCore holds them before the call. -/
def fwH : (d : Dev nD) → Buf (Elt F) (wLoc d) := fun d => VF m d w'
def fiH : (d : Dev nD) → Buf (Elt F) (iLoc d) := fun d => VF m d i'
def foH : (d : Dev nD) → Buf (Elt F) (oLoc d) := fun d => VF m d o'

/-! ## The values -/

theorem VF_eq_after (d : Dev nD) : VF m d = after [op0 (F := F), op1, op2, op3, op4, op5] (V0 m d) := rfl

/-- The scaled row before the call: lane `col` is entry (1, col) of the table times the literal. -/
theorem VF_w_apply (d : Dev nD) (col : Fin 512) :
    VF m d w' (ix1 col) = FloatOps.mulf (m ((SparseCore.T d).loc main_arg1) (ix2 (1 : Fin 2) col)) (FloatOps.ofBits .f32 0x41B504F3#32) := by
  have e : VF m d w' = mulf (shapeCast S512 (extractStridedSlice S1x512 ![1, 0] (V0 m d a1') slices_S2x512_S1x512_1_0) shapeCasts_S1x512_S512)
      (broadcastInDim S512 ![] bcast_S_S512 (constant S_ .f32 0x41B504F3#32)) := by
    rw [VF_eq_after]; after_results; rfl
  rw [e]
  show FloatOps.mulf (shapeCast S512 (extractStridedSlice S1x512 ![1, 0] (V0 m d a1') slices_S2x512_S1x512_1_0) shapeCasts_S1x512_S512 (ix1 col))
    (FloatOps.ofBits .f32 0x41B504F3#32) = _
  refine congrArg (fun z => FloatOps.mulf z (FloatOps.ofBits .f32 0x41B504F3#32)) ?_
  refine (shapeCast_apply _ shapeCasts_S1x512_S512 (ix1 col) (ix2 (0 : Fin 1) col) (by
    rw [Shape.rowMajor_val_two, Shape.rowMajor_val_one]; show (0 : ℕ) * 512 + col.val = col.val; omega)).trans ?_
  show m ((SparseCore.T d).loc main_arg1) _ = m ((SparseCore.T d).loc main_arg1) _
  exact congrArg (m ((SparseCore.T d).loc main_arg1)) (funext fun a => Fin.ext (by match a with | ⟨0, _⟩ => rfl | ⟨1, _⟩ => simp))

/-- The flat index list before the call: word `200 b + s` is the index word (b, s). -/
theorem VF_i_apply (d : Dev nD) (b : Fin 4096) (s : Fin 200) (r : Fin 819200) (hr : r.val = 200 * b.val + s.val) :
    VF m d i' (ix1 r) = m ((SparseCore.T d).loc main_arg0) (ix2 b s) := by
  have e : VF m d i' = shapeCast S819200 (V0 m d a0') shapeCasts_S4096x200_S819200 := by
    rw [VF_eq_after]; after_results; rfl
  rw [e]
  exact shapeCast_apply _ shapeCasts_S4096x200_S819200 (ix1 r) (ix2 b s) (by
    rw [Shape.rowMajor_val_two, Shape.rowMajor_val_one]; show b.val * 200 + s.val = r.val; omega)

/-- The result after the last reshape is the specification's function of the two argument arrays. -/
theorem VH_eq (d : Dev nD) :
    VH m d r' = Cert.Spec.G (F := F) (m ((SparseCore.T d).loc main_arg0)) (m ((SparseCore.T d).loc main_arg1)) := by
  have e : VH m d r' = shapeCast S4096x200x512 (outSpec d (VF m d w') (VF m d i')) shapeCasts_S819200x512_S4096x200x512 := by
    unfold VH
    rw [reshape_result]
    show (fun i => shapeCast S4096x200x512 (VG m d o') shapeCasts_S819200x512_S4096x200x512 i) = _
    unfold VG
    rw [Function.update_self]
  rw [e]
  funext j
  obtain ⟨b, s, col, rfl⟩ : ∃ (b : Fin 4096) (s : Fin 200) (col : Fin 512), j = ix3 b s col := ⟨j 0, j 1, j 2, eq_ix3 j⟩
  have hlt : 200 * b.val + s.val < 819200 := by
    have h0 : b.val < 4096 := b.isLt
    have h1 : s.val < 200 := s.isLt
    omega
  refine (shapeCast_apply _ shapeCasts_S819200x512_S4096x200x512 (ix3 b s col) (ix2 (⟨200 * b.val + s.val, hlt⟩ : Fin 819200) col) (by
    rw [Shape.rowMajor_val_two, Shape.rowMajor_val_three]
    show (200 * b.val + s.val) * 512 + col.val = (b.val * 200 + s.val) * 512 + col.val
    omega)).trans ?_
  show FloatOps.mulf (VF m d w' (ix1 col)) (FloatOps.sitofp .f32 (VF m d i' (ix1 (⟨200 * b.val + s.val, hlt⟩ : Fin 819200))))
    = FloatOps.mulf (FloatOps.mulf (m ((SparseCore.T d).loc main_arg1) (ix2 (1 : Fin 2) col)) (FloatOps.ofBits .f32 0x41B504F3#32))
        (FloatOps.sitofp .f32 (m ((SparseCore.T d).loc main_arg0) (ix2 b s)))
  rw [VF_w_apply, VF_i_apply m d b s _ rfl]

end Host

/-! ## The partition into the 32 tiles' shares -/

section Part

variable [FloatOps F]

omit [FloatOps F] in
/-- The 32 stretches of the flat index list are pairwise disjoint and cover it. -/
theorem iBlk_disjoint : ∀ t ∈ Finset.range 32, ∀ t' ∈ Finset.range 32, t ≠ t' → Disjoint (iBlk t) (iBlk t') :=
  fun t _ t' _ h => Finset.disjoint_left.mpr fun x h1 h2 => by rw [mem_iBlk] at h1 h2; omega
omit [FloatOps F] in
theorem iBlk_cover : (Finset.range 32).biUnion iBlk = Finset.univ := by
  ext x
  simp only [Finset.mem_biUnion, Finset.mem_range, mem_iBlk, Finset.mem_univ, iff_true]
  have hx : (x 0).val < 819200 := (x 0).isLt
  exact ⟨(x 0).val / 25600, by omega, by omega, by omega⟩
omit [FloatOps F] in
/-- The 32 blocks of 25600 rows of the flat result are pairwise disjoint and cover it. -/
theorem oRows_disjoint : ∀ t ∈ Finset.range 32, ∀ t' ∈ Finset.range 32, t ≠ t' → Disjoint (oRows (25600 * t) 25600) (oRows (25600 * t') 25600) :=
  fun t _ t' _ h => Finset.disjoint_left.mpr fun x h1 h2 => by rw [mem_oRows] at h1 h2; omega
omit [FloatOps F] in
theorem oRows_cover : (Finset.range 32).biUnion (fun w => oRows (25600 * w) 25600) = Finset.univ := by
  ext x
  simp only [Finset.mem_biUnion, Finset.mem_range, mem_oRows, Finset.mem_univ, iff_true]
  have hx : (x 0).val < 819200 := (x 0).isLt
  exact ⟨(x 0).val / 25600, by omega, by omega, by omega⟩

omit [FloatOps F] in
theorem iPts_blks (d : Dev nD) (f : Buf (Elt F) (iLoc d)) :
    (iLoc d ↦{fullShare} f : sProp 𝕄) = bigSep (Finset.range 32) fun w => iLoc d ↦[iBlk w]{fullShare} f := by
  rw [← pointsTo_biUnion (Finset.range 32) (ℓ := iLoc d) iBlk iBlk_disjoint, iBlk_cover]; try rfl
omit [FloatOps F] in
theorem oPts_rows (d : Dev nD) (f : Buf (Elt F) (oLoc d)) :
    (oLoc d ↦{fullShare} f : sProp 𝕄) = bigSep (Finset.range 32) fun w => oLoc d ↦[oRows (25600 * w) 25600]{fullShare} f := by
  rw [← pointsTo_biUnion (Finset.range 32) (ℓ := oLoc d) (fun w => oRows (25600 * w) 25600) oRows_disjoint, oRows_cover]; try rfl

omit [FloatOps F] in
/-- Tile (c, i) is number 2 i + c: the two SparseCores' sixteen tasks each are the 32 tiles. -/
theorem tiles_range (G : ℕ → sProp 𝕄) :
    (bigSep Finset.univ fun c : Fin ((K (F := F)).nCore 0) => bigSep Finset.univ fun i : Fin ((K (F := F)).nSub 0) => G (2 * i.val + c.val))
      = bigSep (Finset.range 32) G := by
  have hfin : ∀ (n : ℕ) (Φ : ℕ → sProp 𝕄), (bigSep Finset.univ fun i : Fin n => Φ i.val) = bigSep (Finset.range n) Φ := by
    intro n Φ
    rw [← Nat.Iio_eq_range, ← Fin.map_valEmbedding_univ, BI.bigSep_map]; rfl
  show (bigSep (Finset.univ : Finset (Fin 2)) fun c => bigSep (Finset.univ : Finset (Fin 16)) fun i => G (2 * i.val + c.val)) = _
  rw [BI.bigSep_fin_two]
  show iprop((bigSep (Finset.univ : Finset (Fin 16)) fun i => (fun k => G (2 * k)) i.val) ∗ (bigSep (Finset.univ : Finset (Fin 16)) fun i => (fun k => G (2 * k + 1)) i.val)) = _
  rw [hfin 16 (fun k => G (2 * k)), hfin 16 (fun k => G (2 * k + 1))]
  exact (Ring.bigSep_range_deinterleave 16 G).symm

variable (m : (ℓ : Loc nD τ sig) → Buf (Elt F) ℓ) (ρ : Dev nD → PrngReg)

/-- What the two SparseCores are handed: the whole index list, the 32 read shares of the scaled row, the whole result. -/
theorem st0_eq (d : Dev nD) :
    (bigSep Finset.univ fun c : Fin ((K (F := F)).nCore 0) => (P (fwH m) (fiH m) (foH m)).st 0 d c)
      = iprop((iLoc d ↦{fullShare} fiH m d) ∗ (bigSep (Finset.range 32) fun w => wLoc d ↦{wTok w} fwH m d) ∗ (oLoc d ↦{fullShare} foH m d)) := by
  show (bigSep Finset.univ fun c : Fin ((K (F := F)).nCore 0) => bigSep Finset.univ fun i : Fin ((K (F := F)).nSub 0) =>
    goRes (fwH m) (fiH m) (foH m) d (2 * i.val + c.val)) = _
  rw [tiles_range (fun w => goRes (fwH m) (fiH m) (foH m) d w)]
  unfold goRes
  rw [bigSep_sep', bigSep_sep', ← iPts_blks, ← oPts_rows]

/-- What they hand back: the same, the result at the product. -/
theorem dn0_eq (d : Dev nD) :
    (bigSep Finset.univ fun c : Fin ((K (F := F)).nCore 0) => (P (fwH m) (fiH m) (foH m)).dn 0 d c)
      = iprop((iLoc d ↦{fullShare} fiH m d) ∗ (bigSep (Finset.range 32) fun w => wLoc d ↦{wTok w} fwH m d)
          ∗ (oLoc d ↦{fullShare} outSpec d (fwH m d) (fiH m d))) := by
  show (bigSep Finset.univ fun c : Fin ((K (F := F)).nCore 0) => bigSep Finset.univ fun i : Fin ((K (F := F)).nSub 0) =>
    tdRes (fwH m) (fiH m) d (2 * i.val + c.val)) = _
  rw [tiles_range (fun w => tdRes (fwH m) (fiH m) d w)]
  unfold tdRes
  rw [bigSep_sep', bigSep_sep', ← iPts_blks, ← oPts_rows]

/-- A SparseCore's share IS its sixteen tasks' shares, and their results are its result. -/
theorem vecSplit : (K (F := F)).VecSplit' (P (fwH m) (fiH m) (foH m)) 0 := by
  intro d c
  show (bigSep Finset.univ fun i : Fin ((K (F := F)).nSub 0) => goRes (fwH m) (fiH m) (foH m) d (2 * i.val + c.val)) ⊢ |={Set.univ}=> iprop(
      (bigSep Finset.univ fun i : Fin ((K (F := F)).nSub 0) => goRes (fwH m) (fiH m) (foH m) d (2 * i.val + c.val))
      ∗ ((bigSep Finset.univ fun i : Fin ((K (F := F)).nSub 0) => tdRes (fwH m) (fiH m) d (2 * i.val + c.val))
          -∗ (bigSep Finset.univ fun i : Fin ((K (F := F)).nSub 0) => tdRes (fwH m) (fiH m) d (2 * i.val + c.val))))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (fwH m) (fiH m) (foH m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) (fwH m) (fiH m) (foH m)).x q thr) = bigSep Finset.univ fun _ => iprop(emp) from
    bigSep_congr fun _ _ => bigSep_univ_of_subsingleton (0 : Fin 1), bigSep_emp']
  iempintro

end Part

/-! ## @main on the TensorCore -/

section Main

variable [FloatOps F]

omit [FloatOps F] in
theorem held_S10 (d : Dev nD) (W : Valuation τ sig (Elt F)) :
    (held (SparseCore.T d) S10 W : sProp 𝕄)
      = iprop(((SparseCore.T d).loc main_arg0 ↦{fullShare} W a0') ∗ ((SparseCore.T d).loc main_arg1 ↦{fullShare} W a1')
          ∗ ((SparseCore.T d).loc main_v0 ↦{fullShare} W v0') ∗ ((SparseCore.T d).loc main_v1 ↦{fullShare} W v1')
          ∗ ((SparseCore.T d).loc main_cst ↦{fullShare} W cst') ∗ ((SparseCore.T d).loc main_v2 ↦{fullShare} W v2')
          ∗ (wLoc d ↦{fullShare} W w') ∗ (iLoc d ↦{fullShare} W i') ∗ (oLoc d ↦{fullShare} W o')
          ∗ (SparseCore.T d).loc main_v6 ↦{fullShare} W r') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
          ∗ ((SparseCore.T d).loc main_v0 ↦{fullShare} W main_v0) ∗ ((SparseCore.T d).loc main_v1 ↦{fullShare} W main_v1)
          ∗ ((SparseCore.T d).loc main_cst ↦{fullShare} W main_cst) ∗ ((SparseCore.T d).loc main_v2 ↦{fullShare} W main_v2)
          ∗ (wLoc d ↦{fullShare} W main_v3) ∗ (iLoc d ↦{fullShare} W main_v4) ∗ (oLoc d ↦{fullShare} W main_v5)
          ∗ (SparseCore.T d).loc main_v6 ↦{fullShare} W main_v6) := by
  unfold unscopedBufs
  rw [show (Finset.univ.filter fun b : Ref sig .tc => ¬ b.isScoped)
      = {main_arg0, main_arg1, main_v0, main_v1, main_cst, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ) (ρ : Dev nD → PrngReg)

theorem unscoped_held (d : Dev nD) :
    (unscopedBufs d (fun b => m ((SparseCore.T d).loc b)) : sProp 𝕄) = held (SparseCore.T d) S10 (V0 m d) := by
  rw [unscopedBufs_eq, held_S10]; rfl

/-- The two argument arrays are written by no operation. -/
theorem VF_a0 (d : Dev nD) : VF m d a0' = m ((SparseCore.T d).loc main_arg0) := by
  rw [VF_eq_after]; after_results; rfl
theorem VF_a1 (d : Dev nD) : VF m d a1' = m ((SparseCore.T d).loc main_arg1) := by
  rw [VF_eq_after]; after_results; rfl

theorem VG_of_ne (d : Dev nD) {x : DevRef τ sig} (h : x ≠ o') : VG m d x = VF m d x := Function.update_of_ne h _ _
theorem VG_o (d : Dev nD) : VG m d o' = outSpec d (fwH m d) (fiH m d) := Function.update_self _ _ _

/-- The ten arrays before the call. -/
theorem held_VF (d : Dev nD) :
    (held (SparseCore.T d) S10 ((op5 (F := F)).result ((op4 (F := F)).result ((op3 (F := F)).result ((op2 (F := F)).result
        ((op1 (F := F)).result ((op0 (F := F)).result (V0 m d)))))) ) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_v0 ↦{fullShare} VF m d v0') ∗ ((SparseCore.T d).loc main_v1 ↦{fullShare} VF m d v1')
          ∗ ((SparseCore.T d).loc main_cst ↦{fullShare} VF m d cst') ∗ ((SparseCore.T d).loc main_v2 ↦{fullShare} VF m d v2')
          ∗ (wLoc d ↦{fullShare} fwH m d) ∗ (iLoc d ↦{fullShare} fiH m d) ∗ (oLoc d ↦{fullShare} foH m d)
          ∗ (SparseCore.T d).loc main_v6 ↦{fullShare} VF m d r') := by
  show held (SparseCore.T d) S10 (VF m d) = _
  rw [held_S10, VF_a0, VF_a1]; rfl

/-- The ten arrays after the call, as the last reshape finds them. -/
theorem held_VG (d : Dev nD) :
    (held (SparseCore.T d) S10 (VG m d) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_v0 ↦{fullShare} VF m d v0') ∗ ((SparseCore.T d).loc main_v1 ↦{fullShare} VF m d v1')
          ∗ ((SparseCore.T d).loc main_cst ↦{fullShare} VF m d cst') ∗ ((SparseCore.T d).loc main_v2 ↦{fullShare} VF m d v2')
          ∗ (wLoc d ↦{fullShare} fwH m d) ∗ (iLoc d ↦{fullShare} fiH m d) ∗ (oLoc d ↦{fullShare} outSpec d (fwH m d) (fiH m d))
          ∗ (SparseCore.T d).loc main_v6 ↦{fullShare} VF m d r') := by
  rw [held_S10, VG_of_ne m d (show a0' ≠ o' by decide), VG_of_ne m d (show a1' ≠ o' by decide), VG_of_ne m d (show v0' ≠ o' by decide),
    VG_of_ne m d (show v1' ≠ o' by decide), VG_of_ne m d (show cst' ≠ o' by decide), VG_of_ne m d (show v2' ≠ o' by decide),
    VG_of_ne m d (show w' ≠ o' by decide), VG_of_ne m d (show i' ≠ o' by decide), VG_o, VG_of_ne m d (show r' ≠ o' by decide), VF_a0, VF_a1]
  rfl

/-- After the last reshape: the two argument arrays at their launch contents, the result array at its value. -/
theorem held_VH (d : Dev nD) :
    (held (SparseCore.T d) S10 ((op6 (F := F)).result (VG m d)) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_v6 ↦{fullShare} VH m d r')
          ∗ held (SparseCore.T d) (S10 \ {a0', a1', r'}) ((op6 (F := F)).result (VG m d))) := by
  unfold held
  rw [show S10 = insert a0' (insert a1' (insert r' (S10 \ {a0', a1', r'}))) by decide, SparseCore.bigSep_insert' (by decide),
    SparseCore.bigSep_insert' (by decide), SparseCore.bigSep_insert' (by decide),
    (op6 (F := F)).result_of_not_mem (VG m d) (b := a0') (show a0' ∉ ({r'} : Finset (DevRef τ sig)) by decide),
    (op6 (F := F)).result_of_not_mem (VG m d) (b := a1') (show a1' ∉ ({r'} : Finset (DevRef τ sig)) by decide),
    VG_of_ne m d (show a0' ≠ o' by decide), VG_of_ne m d (show a1' ≠ o' by decide), VF_a0, VF_a1]
  rfl

theorem h0 : (op0 (F := F)).bufs ⊆ S10 := show ({a1', v0'} : Finset (DevRef τ sig)) ⊆ S10 by decide
theorem h1 : (op1 (F := F)).bufs ⊆ S10 := show ({v0', v1'} : Finset (DevRef τ sig)) ⊆ S10 by decide
theorem h2 : (op2 (F := F)).bufs ⊆ S10 := show ({cst'} : Finset (DevRef τ sig)) ⊆ S10 by decide
theorem h3 : (op3 (F := F)).bufs ⊆ S10 := show ({cst', v2'} : Finset (DevRef τ sig)) ⊆ S10 by decide
theorem h4 : (op4 (F := F)).bufs ⊆ S10 := show ({v1', v2', w'} : Finset (DevRef τ sig)) ⊆ S10 by decide
theorem h5 : (op5 (F := F)).bufs ⊆ S10 := show ({a0', i'} : Finset (DevRef τ sig)) ⊆ S10 by decide
theorem h6 : (op6 (F := F)).bufs ⊆ S10 := show ({o', r'} : Finset (DevRef τ sig)) ⊆ S10 by decide

/-- What @main leaves the claim: the two argument arrays at their launch contents, the result array at its value. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_v6 ↦{fullShare} VH m d r'))

/-- @main on device `d`'s TensorCore: the six operations before the call (over the ten arrays held whole), the call — the
    index list, the 32 read shares of the scaled row and the result array to the two SparseCores and back, the rest of the
    scaled row kept —, the last reshape. -/
theorem hmain (κ : GSem nD τ sig → ℕ) (d : Dev nD) :
    iprop((K (F := F)).ctx EH (P (fwH m) (fiH m) (foH m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op0) (S := S10) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S10) h1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S10) h2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S10) h3
    (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := S10) h4
    (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := op5) (S := S10) h5
    (V := (op4 (F := F)).result ((op3 (F := F)).result ((op2 (F := F)).result ((op1 (F := F)).result ((op0 (F := F)).result (V0 m d))))))) $$ [Hb Hheld]
  · isplitl [Hb] <;> iassumption
  iintro ⟨Hb, Hheld⟩
  rw [wp_ret]; imodintro
  -- the call
  ihave Hh := (Entails.of_eq (held_VF (F := F) m d)) $$ Hheld
  icases Hh with ⟨Ha0, Ha1, Hv0, Hv1, Hcst, Hv2, Hw, Hi, Ho, Hr⟩
  ihave Hw' := (Transfers.pointsTo_toks_range (ℓ := wLoc d) (S := Finset.univ) (f := fwH m d) fullShare 32).1 $$ Hw
  icases Hw' with ⟨Hwk, Hwt⟩
  iapply ((K (F := F)).wp_run (D (F := F)) 𝒱 (EH := EH) (P := P (fwH m) (fiH m) (foH m)) κ d 0) $$ [Hst Hi Hwt Ho Hb Ha0 Ha1 Hv0 Hv1 Hcst Hv2 Hwk Hr]
  isplitr; · iexact Hctx
  isplitl [Hst]; · iexact Hst
  isplitl [Hi Hwt Ho]
  · rw [st0_eq]
    isplitl [Hi]; · iexact Hi
    isplitl [Hwt]; · iexact Hwt
    iexact Ho
  iintro ⟨Hst, Hdn⟩
  ihave Hdn' := (Entails.of_eq (dn0_eq m d)) $$ Hdn
  icases Hdn' with ⟨Hi, Hwt, Ho⟩
  ihave Hw := (Transfers.pointsTo_toks_range (ℓ := wLoc d) (S := Finset.univ) (f := fwH m d) fullShare 32).2 $$ [Hwk Hwt]
  · isplitl [Hwk] <;> iassumption
  -- the last reshape
  iapply (wp_hlo_within 𝒱 (SparseCore.T d) none Set.univ (op := op6) (S := S10) h6 (V := VG m d)) $$ [Hb Ha0 Ha1 Hv0 Hv1 Hcst Hv2 Hw Hi Ho Hr]
  · isplitl [Hb]; · iexact Hb
    rw [held_VG]
    isplitl [Ha0]; · iexact Ha0
    isplitl [Ha1]; · iexact Ha1
    isplitl [Hv0]; · iexact Hv0
    isplitl [Hv1]; · iexact Hv1
    isplitl [Hcst]; · iexact Hcst
    isplitl [Hv2]; · iexact Hv2
    isplitl [Hw]; · iexact Hw
    isplitl [Hi]; · iexact Hi
    isplitl [Ho]; · iexact Ho
    iexact Hr
  iintro ⟨Hb, Hheld⟩
  ihave Hh := (Entails.of_eq (held_VH (F := F) m d)) $$ Hheld
  icases Hh with ⟨Ha0, Ha1, Hr, -⟩
  rw [wp_ret]; imodintro; imodintro
  isplitl [Hst]; · iexact Hst
  isplitl [Ha0]; · iexact Ha0
  isplitl [Ha1]; · iexact Ha1
  iexact Hr

def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v6) = VH m d r'

set_option maxRecDepth 16384 in
theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := (SparseCore.T d).loc main_arg0) (I := Finset.univ) (q := fullShare)
    (f := m ((SparseCore.T d).loc main_arg0)))) $$ [HSI Ha0]
  · isplitl [HSI] <;> iassumption
  icases H with ⟨%h1, HSI, -⟩
  ihave H := (persistent_entails_right (SI_pointsTo_agree (st := s') (ℓ := (SparseCore.T d).loc main_arg1) (I := Finset.univ) (q := fullShare)
    (f := m ((SparseCore.T d).loc main_arg1)))) $$ [HSI Ha1]
  · isplitl [HSI] <;> iassumption
  icases H with ⟨%h2, HSI, -⟩
  ihave H := (SI_pointsTo_agree (st := s') (ℓ := (SparseCore.T d).loc main_v6) (I := Finset.univ) (q := fullShare) (f := VH m d r')) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The claim's post for this program: the result array is the specification's function of the two argument arrays,
    which end unchanged. -/
def QC : PUnit × MemSt nD τ sig (Elt F) → Prop := fun r => ∀ c : Dev nD,
  r.2.mem ((c.tc : Thread nD τ).loc main_v6)
      = Cert.Spec.G (F := F) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)

/-- The whole program's run, given the tile's obligation: every weakly fair execution terminates, nothing faulting, in a
    state where the result array is the specification and the argument arrays are unchanged. -/
theorem run_main [∀ e, Nonempty (Elt F e)]
    (tileObl : (K (F := F)).TileObl (D (F := F)) 𝒱 (P (fwH m) (fiH m) (foH m)) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (fwH m) (fiH m) (foH m)) facts v₀
    (fun q hq => match q with | 0 => nomatch hq)
    (fun q _ => match q with | 0 => tileObl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2.trans (VH_eq m c), (h c).1, (h c).2.1⟩)

end Main

end Cert.Proof.KI

end
-- ==== Proof.KIObl.lean ====
/-
  The tile obligation from the tile's body. The launch asks, for each task i of SparseCore c, that the kernel's body
  run at that processor from the task's share to the task's result; the body is stated at a grid point L. The task
  (c, i) is the grid point with coordinates (c, i), whose tile number 2 i + c is the one its share is stated at, so
  the body's statement at that point is the obligation, once the program found in the body table at that processor
  is unfolded to the kernel at those coordinates.
-/
import proofs.«206715_g21620865368695_cont_8to1_1569_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Value
import Idealize.ShloMosaic.Lib.Ring
import Idealize.ShloMosaic.Lib.Tactic
import Idealize.ShloMosaic.Lib.Writes
import Idealize.ShloMosaic.Lib.ValueIdx
import proofs.«206715_g21620865368695_cont_8to1_1569_15_alg».proof.Proof.Gen.KernelIdeal
import proofs.«206715_g21620865368695_cont_8to1_1569_15_alg».proof.Proof.Gen.KernelIdeal.Skeleton
import proofs.«206715_g21620865368695_cont_8to1_1569_15_alg».proof.Proof.KIHost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo

variable {F : FTy → Type}

local notation "𝕄" => MT nD τ sig (HIx 1) (Elt F) ℕ UU ℕ

local notation "wV" => (Memref.whole Cert.KernelIdeal.main_v3_scv : Memref Cert.KernelIdeal.sig Kind.scVector Space.hbm Cert.KernelIdeal.S512 EltTy.f32)
local notation "iV" => (Memref.whole Cert.KernelIdeal.main_v4_scv : Memref Cert.KernelIdeal.sig Kind.scVector Space.hbm Cert.KernelIdeal.S819200 EltTy.i32)
local notation "oV" => (Memref.whole Cert.KernelIdeal.main_v5_scv : Memref Cert.KernelIdeal.sig Kind.scVector Space.hbm Cert.KernelIdeal.S819200x512 EltTy.f32)
local notation "rawV" => (Memref.whole Cert.KernelIdeal.cc0_scratch0 : Memref Cert.KernelIdeal.sig Kind.scVector Space.vmem Cert.KernelIdeal.S25600 EltTy.i32)
local notation "wvV" => (Memref.whole Cert.KernelIdeal.cc0_scratch1 : Memref Cert.KernelIdeal.sig Kind.scVector Space.vmem Cert.KernelIdeal.S512 EltTy.f32)
local notation "r0V" => (Memref.whole Cert.KernelIdeal.cc0_scratch2 : Memref Cert.KernelIdeal.sig Kind.scVector Space.vmem Cert.KernelIdeal.S64x512 EltTy.f32)
local notation "r1V" => (Memref.whole Cert.KernelIdeal.cc0_scratch3 : Memref Cert.KernelIdeal.sig Kind.scVector Space.vmem Cert.KernelIdeal.S64x512 EltTy.f32)

section Obl

variable [FloatOps F]
variable (fw : (d : Dev nD) → Buf (Elt F) (wLoc d)) (fi : (d : Dev nD) → Buf (Elt F) (iLoc d)) (fo : (d : Dev nD) → Buf (Elt F) (oLoc d))

/-- The kernel's body at every grid point: from the tile's share — its stretch of the index list, a read share of the
    scaled row, its rows of the result — to the same with its rows at the product. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes fw fi fo d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L wV (Memref.isWhole_whole _) iV (Memref.isWhole_whole _) oV (Memref.isWhole_whole _)
            rawV (Memref.isWhole_whole _) wvV (Memref.isWhole_whole _) r0V (Memref.isWhole_whole _) r1V (Memref.isWhole_whole _)
            cc0_scratch4 cc0_scratch5 cc0_scoped0 cc0_scoped1)
          fun _ => iprop(tdRes fw fi d (widL L) ∗ scopedBufs (V d (cV L) (jV L)) ∗ scopedSems0 (V d (cV L) (jV L))
            ∗ ∃ W', ⌜∀ p ∈ W', p ∈ W ∨ p.2 = none⌝ ∗ owes (V d (cV L) (jV L)) O W')

omit [FloatOps F] in
/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The body table at a vector subcore is the kernel at that processor's coordinates, on the whole arrays and its scratch. -/
theorem defs₀_vector (c : Fin τ.nSC) (s : Fin τ.nSub) :
    defs₀ (F := F) (.scVector c s) 0 ()
      = SparseCore.onTile hcore0 hsub0 (fun c s => cc0__sc_body (coordsV c s)
          wV (Memref.isWhole_whole _) iV (Memref.isWhole_whole _) oV (Memref.isWhole_whole _)
          rawV (Memref.isWhole_whole _) wvV (Memref.isWhole_whole _) r0V (Memref.isWhole_whole _) r1V (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch's obligation for the one call, from the body. -/
theorem tileObl_of_body (hb : TileBody fw fi fo) : (K (F := F)).TileObl (D (F := F)) 𝒱 (P fw fi fo) v₀ 0 := by
  intro d c i O W hO _ _
  simp only [show (P fw fi fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hb d (coordsV ⟨_, hci.1⟩ ⟨_, hci.2⟩) O W hO).trans (wp_mono frame _ _ fun _ => obl_post)

end Obl

section Run

variable [FloatOps F] (m : (ℓ : Loc nD τ sig) → Buf (Elt F) ℓ) (ρ : Dev nD → PrngReg)

/-- The whole program's run from the body: the result array is the specification, the argument arrays unchanged. -/
theorem run_of_body [∀ e, Nonempty (Elt F e)] (hb : TileBody (fwH m) (fiH m) (foH m)) :
    θ_run (Cert.KernelIdeal.defs (F := F)) (Cert.KernelIdeal.threads (F := F)) ⟨m, fun _ => 0, ρ⟩ (QC m) :=
  run_main m ρ (tileObl_of_body (fwH m) (fiH m) (foH m) hb)

/-- The frame from the body: the same run, the result's value dropped. -/
theorem frame_of_body [∀ e, Nonempty (Elt F e)] (hb : TileBody (fwH m) (fiH m) (foH m)) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.KernelIdeal.defs _ _).mono (fun _ h c => (h c).2) (run_of_body m ρ hb)

end Run

end Cert.Proof.KI

end
-- ==== Proof.RefVal.lean ====
/-
  The reference's result as one pure term of its two argument arrays, cut into the pieces its text names.
  The row lookup take(table, idx, axis = 0) in its fill mode is: wrap a negative index word by the table's row count 2,
  view the words as [4096, 200, 1] start indices, test each start index for 0 <= i <= 1 (the last valid row
  start: 2 - 1), gather the table's rows at the start indices, and keep the gathered row where the test holds,
  NaN elsewhere. The mask is (idx != 0) as a float, spread over the last axis; the result is
  (taken * mask) * literal, the literal the binary32 word 0x41B504F3 on every entry.
-/
import proofs.«206715_g21620865368695_cont_8to1_1569_15_alg».proof.Proof.Gen.ReferenceIdeal

noncomputable section

namespace Cert.RefSide

open Idealize.ShloMosaic Cert.ReferenceIdeal Cert.ReferenceIdeal.Gen

variable {F : FTy → Type} [FloatOps F]

/-- The index words with negatives wrapped: word + 2 where word < 0, the word itself elsewhere. -/
def wrapped (idx : IVec S4096x200 32) : IVec S4096x200 32 :=
  select (cmpi .slt idx (broadcastInDim S4096x200 ![] bcast_S_S4096x200 (constantI S_ 32 0#32)))
    (addi idx (broadcastInDim S4096x200 ![] bcast_S_S4096x200 (constantI S_ 32 2#32))) idx

/-- The wrapped words as start indices, one per (row, position): shape [4096, 200, 1]. -/
def starts (idx : IVec S4096x200 32) : IVec S4096x200x1 32 :=
  broadcastInDim S4096x200x1 ![0, 1] bcast_S4096x200_S4096x200x1_0_1 (wrapped idx)

/-- The range test 0 <= start <= 1 per (row, position): the conjunction over the one start coordinate. -/
def inRange (idx : IVec S4096x200 32) : IVec S4096x200 1 :=
  Host.reduce IntOp.andi
    (andi (cmpi .sge (starts idx) (broadcastInDim S4096x200x1 ![] bcast_S_S4096x200x1 (constantI S_ 32 0#32)))
      (cmpi .sle (starts idx)
        (broadcastInDim S4096x200x1 ![0, 1, 2] bcast_S1x1x1_S4096x200x1_0_1_2
          (broadcastInDim S1x1x1 ![2] bcast_S1_S1x1x1_2 (constantI S1 32 1#32)))))
    (constantI S_ 1 1#1) reducesTo_S4096x200x1_S4096x200_d2 h_S_

/-- The table's rows gathered at the start indices, kept where the start is in range, NaN elsewhere. -/
def taken (idx : IVec S4096x200 32) (w : FVec F S2x512 .f32) : FVec F S4096x200x512 .f32 :=
  select (broadcastInDim S4096x200x512 ![0, 1] bcast_S4096x200_S4096x200x512_0_1 (inRange idx))
    (Host.gather gather_S2x512_S4096x200x1_S4096x200x512_2_0_n_n_0_2_1512 w (starts idx))
    (broadcastInDim S4096x200x512 ![] bcast_S_S4096x200x512 (constant S_ .f32 0x7FC00000#32))

/-- The mask (word != 0) as a float, spread over the last axis. -/
def maskf (idx : IVec S4096x200 32) : FVec F S4096x200x512 .f32 :=
  broadcastInDim S4096x200x512 ![0, 1, 2] bcast_S4096x200x1_S4096x200x512_0_1_2
    (broadcastInDim S4096x200x1 ![0, 1] bcast_S4096x200_S4096x200x1_0_1
      (uitofp .f32 (cmpi .ne idx (broadcastInDim S4096x200 ![] bcast_S_S4096x200 (constantI S_ 32 0#32)))))

/-- The reference's result: (taken * mask) * literal. -/
def val (idx : IVec S4096x200 32) (w : FVec F S2x512 .f32) : FVec F S4096x200x512 .f32 :=
  mulf (mulf (taken idx w) (maskf idx))
    (broadcastInDim S4096x200x512 ![] bcast_S_S4096x200x512 (constant S_ .f32 0x41B504F3#32))

end Cert.RefSide

end
-- ==== Proof.RefRun.lean ====
/-
  The reference's run. Its @main is a call of the row lookup's outlined function (which itself calls the outlined select)
  followed by ten operations of its own; a call means the callee's body executed on the operands, so with
  the two bodies unfolded at their call sites @main is one straight line of thirty-three host operations, each
  writing a buffer of its own. Every weakly fair execution of such a line terminates, nothing faulting, with
  each buffer at the fold of the operations' results over the launch contents; read at the result buffer that
  fold is the term `val` of the two argument arrays, and read at an argument buffer (which no operation
  writes) it is the launch contents.
-/
import proofs.«206715_g21620865368695_cont_8to1_1569_15_alg».proof.Proof.RefVal
import Idealize.ShloMosaic.Lib.StableHlo.Run

noncomputable section

namespace Cert.RefSide

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the two calls unfolded: the row lookup's twenty-three (the wrap of negative words —
    the zero, the comparison, the row count 2, the sum, and the callee's one select —, the words viewed as start
    indices, the range test's eight and its conjunction, the gather, the test spread over the row, the NaN and
    its spread, the select), then @main's own ten (the zero and its spread, word != 0, its conversion, the two spreads, the
    product, the literal and its spread, the product). -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 2#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 1#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S2x512_S4096x200x1_S4096x200x512_2_0_n_n_0_2_1512 x i),
    TRef.unary main_call0.v12 main_call0.v14 (broadcastInDim S4096x200x512 ![0, 1] bcast_S4096x200_S4096x200x512_0_1),
    TRef.nullary main_call0.cst (constant S_ .f32 0x7FC00000#32),
    TRef.unary main_call0.cst main_call0.v15 (broadcastInDim S4096x200x512 ![] bcast_S_S4096x200x512),
    TRef.ternary main_call0.v14 main_call0.v13 main_call0.v15 main_call0.v16 select,
    nullary main_c (constantI S_ 32 0#32),
    unary main_c main_v1 (broadcastInDim S4096x200 ![] bcast_S_S4096x200 : (⟨S_, .i32⟩ : BufTy).Contents (Elt F) → (⟨S4096x200, .i32⟩ : BufTy).Contents (Elt F)),
    binary main_arg0 main_v1 main_v2 (cmpi .ne : (⟨S4096x200, .i32⟩ : BufTy).Contents (Elt F) → (⟨S4096x200, .i32⟩ : BufTy).Contents (Elt F) → (⟨S4096x200, .i1⟩ : BufTy).Contents (Elt F)),
    unary main_v2 main_v3 (uitofp .f32 : (⟨S4096x200, .i1⟩ : BufTy).Contents (Elt F) → (⟨S4096x200, .f32⟩ : BufTy).Contents (Elt F)),
    unary main_v3 main_v4 (broadcastInDim S4096x200x1 ![0, 1] bcast_S4096x200_S4096x200x1_0_1 : (⟨S4096x200, .f32⟩ : BufTy).Contents (Elt F) → (⟨S4096x200x1, .f32⟩ : BufTy).Contents (Elt F)),
    unary main_v4 main_v5 (broadcastInDim S4096x200x512 ![0, 1, 2] bcast_S4096x200x1_S4096x200x512_0_1_2 : (⟨S4096x200x1, .f32⟩ : BufTy).Contents (Elt F) → (⟨S4096x200x512, .f32⟩ : BufTy).Contents (Elt F)),
    binary main_v0 main_v5 main_v6 (mulf : (⟨S4096x200x512, .f32⟩ : BufTy).Contents (Elt F) → (⟨S4096x200x512, .f32⟩ : BufTy).Contents (Elt F) → (⟨S4096x200x512, .f32⟩ : BufTy).Contents (Elt F)),
    nullary main_cst (constant S_ .f32 0x41B504F3#32),
    unary main_cst main_v7 (broadcastInDim S4096x200x512 ![] bcast_S_S4096x200x512 : (⟨S_, .f32⟩ : BufTy).Contents (Elt F) → (⟨S4096x200x512, .f32⟩ : BufTy).Contents (Elt F)),
    binary main_v6 main_v7 main_v8 (mulf : (⟨S4096x200x512, .f32⟩ : BufTy).Contents (Elt F) → (⟨S4096x200x512, .f32⟩ : BufTy).Contents (Elt F) → (⟨S4096x200x512, .f32⟩ : BufTy).Contents (Elt F)) ]

set_option maxRecDepth 1024 in
/-- @main is that straight line: the two functions' definitions unfolded at their calls, and sequencing
    reassociated, both sides are one chain of host steps. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub .., unary_bufs_sub .., unary_bufs_sub .., unary_bufs_sub ..,
    binary_bufs_sub .., nullary_bufs_sub .., unary_bufs_sub .., binary_bufs_sub ..⟩

/-- Contents moved to a buffer's own type and back are the contents. -/
theorem ofBuf_toBuf {T : BufTy} {Val : EltTy → Type} (x : TRef sig T) (v : T.Contents Val) : x.ofBuf (x.toBuf v) = v := by
  obtain ⟨r, h, _, _⟩ := x
  subst h
  rfl

attribute [local irreducible] Host.reduce Host.gather in
set_option maxRecDepth 8192 in
/-- The fold read at the result buffer is `val` of the contents at the two argument buffers: each operation's
    result at its own buffer is its function's value, at any other buffer what was there. -/
theorem out_eq (V : Valuation τ sig (Elt F)) :
    after ops V (main_v8 : DevRef τ sig) = val (V (main_arg0 : DevRef τ sig)) (V (main_arg1 : DevRef τ sig)) := by
  after_results_simp
  simp only [ofBuf_toBuf]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- On every device, for any float values, from any memory with zero counters: every weakly fair execution of
    @main terminates, nothing faulting, with the result buffer at `val` of the two argument arrays and the
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = val (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v8).trans (out_eq _), (h c main_arg0).trans (arg0_eq _),
      (h c main_arg1).trans (arg1_eq _)⟩)
    (run_seq scopedRefs_eq scopedSems_eq defs main (fun _ => ops) main_eq (fun _ => ops_sub) m ρ)

/-- The frame: the same run with the result's value dropped. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => (h c).2) (run m ρ)

end Cert.RefSide

end
-- ==== Proof.LibGatherRows.lean ====
/-
  A row gather read at an index.  What `W[idx]` of a table `W : [N, D]` at an integer array `idx : [R, C]` lowers to
  is a gather with offset axis [2], collapsed slice axis [0], start index map [0], slice sizes [1, D] and the index
  vector on axis 2, over the indices as `[R, C, 1]`.  Result element (r, c, e) is entry e of the table's row at the
  start index `idx[r, c, 0]`, read as a signed integer and clamped into [0, N − 1].
-/
import Idealize.ShloMosaic.Lib.ValueIdx

namespace Cert.GatherRows

open Idealize.ShloMosaic Idealize.ShloMosaic.ValueIdx

variable {α : Type}

/-- Those dimension numbers for a table `[N, D]`, start indices `[R, C, 1]` and result `[R, C, D]`. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- A rank-3 index's coordinates are below the literal extents, written as the extents themselves. -/
theorem idx3_lt0 {R C D : Nat} (y : (⟨3, ![R, C, D]⟩ : Shape).Idx) : (y 0).val < R := (y 0).isLt
theorem idx3_lt1 {R C D : Nat} (y : (⟨3, ![R, C, D]⟩ : Shape).Idx) : (y 1).val < C := (y 1).isLt
theorem idx3_lt2 {R C D : Nat} (y : (⟨3, ![R, C, D]⟩ : Shape).Idx) : (y 2).val < D := (y 2).isLt

/-- The start-indices index `[r, c, 0]` of result index `(r, c, e)`. -/
abbrev rowIdx {R C D : Nat} (y : (⟨3, ![R, C, D]⟩ : Shape).Idx) : (⟨3, ![R, C, 1]⟩ : Shape).Idx :=
  fun a => match a with
    | ⟨0, _⟩ => ⟨(y 0).val, idx3_lt0 y⟩
    | ⟨1, _⟩ => ⟨(y 1).val, idx3_lt1 y⟩
    | ⟨2, _⟩ => ⟨0, Nat.one_pos⟩

/-- The row gather read at `(r, c, e)`: entry `e` of the table's row at the start index `idx[r, c, 0]`, read signed
    and clamped into `[0, N − 1]`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowDims N D R C wf) x idx y
      = x (ix2 (n0 := N) (n1 := D) ⟨min (idx (rowIdx y)).toInt.toNat (N - 1), by omega⟩ ⟨(y 2).val, idx3_lt2 y⟩) := by
  unfold Host.gather
  congr 1
  funext a
  refine Fin.ext ?_
  match a with
  | ⟨0, _⟩ =>
    show (rowDims N D R C wf).start y idx 0 + (rowDims N D R C wf).batchCoord y 0 + (rowDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx y ⟨List.idxOf (0 : Fin 2) (rowDims N D R C wf).startIndexMap,
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
    rw [hsi]
    rfl
  | ⟨1, _⟩ =>
    show (rowDims N D R C wf).start y idx 1 + (rowDims N D R C wf).batchCoord y 1 + (rowDims N D R C wf).offCoord y 1 = _
    rw [GatherDims.batchCoord_eq_zero _ _ _ List.not_mem_nil]
    have hs : (rowDims N D R C wf).start y idx 1 = 0 := by
      unfold GatherDims.start
      rw [dif_neg (show ¬ ((1 : Fin 2) ∈ ([0] : List (Fin 2))) from by decide)]
    have hk : (1 : Fin 2) ∈ (rowDims N D R C wf).sKept :=
      (GatherDims.mem_sKept _ _).mpr ⟨(show ¬ ((1 : Fin 2) ∈ ([0] : List (Fin 2))) from by decide), List.not_mem_nil⟩
    rw [hs]
    simp only [Nat.zero_add]
    unfold GatherDims.offCoord
    rw [dif_pos hk]
    rfl

end Cert.GatherRows
-- ==== Proof.LibReduceOnes.lean ====
/-
  An "all" that comes out true.  A reduction by `and` over one-bit words, started from 1, is 1 when every element it
  meets is 1: the converse of reading a true "all" back into its elements.
-/
import Idealize.ShloMosaic.Lib.ReduceAll

namespace Cert.ReduceOnes

open Idealize.ShloMosaic

/-- A left fold by `and` from 1 over one-bit words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_ones f hf l

/-- A reduce by `and` whose initial value is 1 and whose operand is 1 everywhere is 1 at every result index. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x hx _

end Cert.ReduceOnes
-- ==== Proof.RefBridge.lean ====
/-
  The reference's result is the specification, entry by entry, wherever the index words are 0 or 1.
  The precondition's integer half says every index word w satisfies 0 <= w <= 1 as a signed integer, so w is the
  word 0 or the word 1. Then nothing of the row lookup's guards fires: w is not negative, so the wrap keeps it;
  the start index w passes the range test 0 <= w <= 1, so the lookup keeps the gathered row, which is the
  table's row w (the clamp of w into [0, 1] is w). The mask (w != 0) as a number is w's value. Hence entry
  (b, s, col) of the reference's result is (table[w, col] * w) * literal, against the specification's
  (table[1, col] * literal) * w:
    w = 0: both are 0, since a product with 0 is 0 for every extended real (also an infinite one);
    w = 1: both are table[1, col] * literal, since a product with 1 changes nothing.
  The table's entries may therefore be any extended reals: the precondition's finiteness half is not used.
-/
import proofs.«206715_g21620865368695_cont_8to1_1569_15_alg».proof.Proof.RefVal
import proofs.«206715_g21620865368695_cont_8to1_1569_15_alg».proof.Proof.Spec
import proofs.«206715_g21620865368695_cont_8to1_1569_15_alg».proof.Proof.Gen.Pre_input_domain
import proofs.«206715_g21620865368695_cont_8to1_1569_15_alg».proof.Proof.LibGatherRows
import proofs.«206715_g21620865368695_cont_8to1_1569_15_alg».proof.Proof.LibReduceOnes
import Idealize.ShloMosaic.PureOps.Ideal
import Idealize.ShloMosaic.Lib.ReduceAll
import Idealize.ShloMosaic.Lib.ValueIdx

noncomputable section

namespace Cert.RefSide

open Idealize.ShloMosaic Idealize.ShloMosaic.ValueIdx Cert.ReferenceIdeal Cert.ReferenceIdeal.Gen

/-! ## The index words are 0 or 1 -/

/-- A 32-bit word between 0 and 1 as a signed integer is the word 0 or the word 1. -/
theorem word_zero_or_one {x : BitVec 32} (h0 : (0#32 : BitVec 32).toInt ≤ x.toInt) (h1 : x.toInt ≤ (1#32 : BitVec 32).toInt) :
    x = 0#32 ∨ x = 1#32 := by
  have e0 : (0#32 : BitVec 32).toInt = 0 := by decide
  have e1 : (1#32 : BitVec 32).toInt = 1 := by decide
  rw [e0] at h0; rw [e1] at h1
  rcases (show x.toInt = 0 ∨ x.toInt = 1 by omega) with h | h
  · exact Or.inl (BitVec.eq_of_toInt_eq (h.trans e0.symm))
  · exact Or.inr (BitVec.eq_of_toInt_eq (h.trans e1.symm))

instance scalarIdxSubsingleton : Subsingleton Cert.Pre_input_domain.S_.Idx := ⟨fun a b => funext fun d => d.elim0⟩

/-- The precondition's integer half, read back: every index word is 0 or 1. -/
theorem word_range (a0 : IVec S4096x200 32) (a1 : FVec Ideal S2x512 .f32)
    (h : Cert.Pre_input_domain.fn (F := Ideal) a0 a1 = (fun _ => 1#1)) (j : S4096x200.Idx) :
    a0 j = 0#32 ∨ a0 j = 1#32 := by
  have h0 := congrFun h ix0
  dsimp only [Cert.Pre_input_domain.fn] at h0
  have h9 := (IntOp.andi_eq_one.1 h0).2
  have h8 := Host.reduce_andi_all _ _ _ _ _ h9 j
  obtain ⟨hge, hle⟩ := IntOp.andi_eq_one.1 h8
  exact word_zero_or_one (IntOp.cmpi_sge.1 hge) (IntOp.cmpi_sle.1 hle)

/-! ## The layout operations read at an index -/

section Layout
variable {α : Type}

theorem spread_rows_apply (x : S4096x200.Idx → α) (i : S4096x200x512.Idx) :
    broadcastInDim S4096x200x512 ![0, 1] bcast_S4096x200_S4096x200x512_0_1 x i = x (ix2 (i 0) (i 1)) :=
  congrArg x (funext fun a => Fin.ext (by match a with | ⟨0, _⟩ => rfl | ⟨1, _⟩ => rfl))

theorem view_unit_apply (x : S4096x200.Idx → α) (k : S4096x200x1.Idx) :
    broadcastInDim S4096x200x1 ![0, 1] bcast_S4096x200_S4096x200x1_0_1 x k = x (ix2 (k 0) (k 1)) :=
  congrArg x (funext fun a => Fin.ext (by match a with | ⟨0, _⟩ => rfl | ⟨1, _⟩ => rfl))

theorem spread_unit_apply (x : S4096x200x1.Idx → α) (i : S4096x200x512.Idx) :
    broadcastInDim S4096x200x512 ![0, 1, 2] bcast_S4096x200x1_S4096x200x512_0_1_2 x i = x (ix3 (i 0) (i 1) (0 : Fin 1)) :=
  congrArg x (funext fun a => Fin.ext (by match a with | ⟨0, _⟩ => rfl | ⟨1, _⟩ => rfl | ⟨2, _⟩ => rfl))

end Layout

/-! ## The pieces at an index word that is 0 or 1 -/

/-- The wrap keeps a word that is 0 or 1. -/
theorem wrapped_of_range (idx : IVec S4096x200 32) (j : S4096x200.Idx) (h : idx j = 0#32 ∨ idx j = 1#32) :
    wrapped idx j = idx j := by
  show Scalar.select (IntOp.cmpi .slt (idx j) 0#32) (IntOp.addi (idx j) 2#32) (idx j) = idx j
  rcases h with e | e <;> rw [e] <;> decide

/-- The start index of (b, s) is the wrapped word of (b, s). -/
theorem starts_apply (idx : IVec S4096x200 32) (k : S4096x200x1.Idx) : starts idx k = wrapped idx (ix2 (k 0) (k 1)) :=
  view_unit_apply (wrapped idx) k

/-- Every start index passes the range test when every word is 0 or 1. -/
theorem inRange_of_range (idx : IVec S4096x200 32) (h : ∀ j, idx j = 0#32 ∨ idx j = 1#32) (j : S4096x200.Idx) :
    inRange idx j = 1#1 := by
  unfold inRange
  refine Cert.ReduceOnes.reduce_andi_ones _ _ _ _ j rfl fun k => ?_
  show IntOp.andi (IntOp.cmpi .sge (starts idx k) 0#32) (IntOp.cmpi .sle (starts idx k) 1#32) = 1#1
  rw [starts_apply, wrapped_of_range idx _ (h _)]
  rcases h (ix2 (k 0) (k 1)) with e | e <;> rw [e] <;> decide

/-- The mask at an entry: the unsigned value of the one-bit word (word != 0). -/
theorem maskf_apply (idx : IVec S4096x200 32) (i : S4096x200x512.Idx) :
    maskf (F := Ideal) idx i = (((IntOp.cmpi .ne (idx (ix2 (i 0) (i 1))) 0#32).toNat : ℝ) : EReal) := by
  unfold maskf
  rw [spread_unit_apply, view_unit_apply]
  rfl

/-- The table row a start word selects: the word read as a signed integer, clamped into [0, 1]. -/
def rowOf (x : BitVec 32) : Fin 2 := ⟨min x.toInt.toNat 1, by omega⟩

theorem rowOf_zero : rowOf 0#32 = 0 := by decide
theorem rowOf_one : rowOf 1#32 = 1 := by decide

/-- The gathered row at an entry: the table's row selected by the start index of (b, s). -/
theorem gathered_apply (idx : IVec S4096x200 32) (w : FVec Ideal S2x512 .f32) (i : S4096x200x512.Idx) :
    Host.gather gather_S2x512_S4096x200x1_S4096x200x512_2_0_n_n_0_2_1512 w (starts idx) i
      = w (ix2 (rowOf (starts idx (Cert.GatherRows.rowIdx i))) (i 2)) := by
  have hd : gather_S2x512_S4096x200x1_S4096x200x512_2_0_n_n_0_2_1512
      = Cert.GatherRows.rowDims 2 512 4096 200 gather_S2x512_S4096x200x1_S4096x200x512_2_0_n_n_0_2_1512_wf := rfl
  rw [hd, Cert.GatherRows.gather_rows_apply (by decide)]
  rfl

/-- The start index of an entry's (b, s) is the index word itself when the word is 0 or 1. -/
theorem starts_row (idx : IVec S4096x200 32) (h : ∀ j, idx j = 0#32 ∨ idx j = 1#32) (i : S4096x200x512.Idx) :
    starts idx (Cert.GatherRows.rowIdx i) = idx (ix2 (i 0) (i 1)) :=
  (starts_apply idx _).trans (wrapped_of_range idx (ix2 (i 0) (i 1)) (h _))

/-- The row lookup at an entry whose word is 0 or 1: the table's row at the word. -/
theorem taken_of_range (idx : IVec S4096x200 32) (w : FVec Ideal S2x512 .f32) (h : ∀ j, idx j = 0#32 ∨ idx j = 1#32)
    (i : S4096x200x512.Idx) :
    taken idx w i = w (ix2 (rowOf (idx (ix2 (i 0) (i 1)))) (i 2)) := by
  unfold taken
  rw [select_apply, spread_rows_apply, inRange_of_range idx h, select_one, gathered_apply, starts_row idx h]

/-! ## The reference is the specification -/

/-- A constant spread over every entry reads its word's value at each entry. -/
theorem literal_apply (b : BitVec 32) (i : S4096x200x512.Idx) :
    broadcastInDim S4096x200x512 ![] bcast_S_S4096x200x512 (constant (F := Ideal) S_ .f32 b) i
      = FloatOps.ofBits (F := Ideal) .f32 b := rfl

/-- The reference's result at an entry: (lookup * mask) * literal, the literal kept as its word. -/
theorem val_apply (a0 : IVec S4096x200 32) (a1 : FVec Ideal S2x512 .f32) (i : S4096x200x512.Idx) :
    val (F := Ideal) a0 a1 i
      = (taken a0 a1 i * maskf (F := Ideal) a0 i) * FloatOps.ofBits (F := Ideal) .f32 0x41B504F3#32 := by
  unfold val
  rw [mulf_apply, mulf_apply, literal_apply]

/-- The specification at an entry: (row 1 * literal) * the word's signed value. -/
theorem G_apply (a0 : IVec S4096x200 32) (a1 : FVec Ideal S2x512 .f32) (i : S4096x200x512.Idx) :
    Cert.Spec.G (F := Ideal) a0 a1 i
      = (a1 (ix2 (1 : Fin 2) (i 2)) * FloatOps.ofBits (F := Ideal) .f32 0x41B504F3#32)
          * (((a0 (ix2 (i 0) (i 1))).toInt : ℝ) : EReal) := rfl

theorem mask_zero : (((IntOp.cmpi .ne (0#32 : BitVec 32) 0#32).toNat : ℝ) : EReal) = 0 := by
  rw [show (IntOp.cmpi .ne (0#32 : BitVec 32) 0#32).toNat = 0 by decide, Nat.cast_zero, EReal.coe_zero]
theorem mask_one : (((IntOp.cmpi .ne (1#32 : BitVec 32) 0#32).toNat : ℝ) : EReal) = 1 := by
  rw [show (IntOp.cmpi .ne (1#32 : BitVec 32) 0#32).toNat = 1 by decide, Nat.cast_one, EReal.coe_one]
theorem signed_zero : ((((0#32 : BitVec 32).toInt : ℤ) : ℝ) : EReal) = 0 := by
  rw [show (0#32 : BitVec 32).toInt = 0 by decide, Int.cast_zero, EReal.coe_zero]
theorem signed_one : ((((1#32 : BitVec 32).toInt : ℤ) : ℝ) : EReal) = 1 := by
  rw [show (1#32 : BitVec 32).toInt = 1 by decide, Int.cast_one, EReal.coe_one]

/-- Under the precondition the reference's result is the specification. -/
theorem val_eq_G (a0 : IVec S4096x200 32) (a1 : FVec Ideal S2x512 .f32)
    (h : Cert.Pre_input_domain.fn (F := Ideal) a0 a1 = (fun _ => 1#1)) :
    val (F := Ideal) a0 a1 = Cert.Spec.G (F := Ideal) a0 a1 := by
  have hr := word_range a0 a1 h
  funext i
  rw [val_apply, G_apply, taken_of_range a0 a1 hr, maskf_apply]
  generalize FloatOps.ofBits (F := Ideal) .f32 0x41B504F3#32 = c
  rcases hr (ix2 (i 0) (i 1)) with e | e
  · -- the word 0: both sides are a product with 0
    rw [e, mask_zero, signed_zero, mul_zero, zero_mul, mul_zero]
  · -- the word 1: both sides are the table's row 1 times the literal
    rw [e, mask_one, signed_one, mul_one, mul_one, rowOf_one]

end Cert.RefSide

end
-- ==== Proof.RefSpec.lean ====
/-
  The reference's run stated at the specification: under the precondition on the launch memory's two argument
  arrays, every weakly fair execution of the reference ends with its result the specification's function of those
  arrays, and the arrays unchanged. This is the run at the operations' composed term, rewritten by the equality of
  that term and the specification where the index words are 0 or 1.
-/
import proofs.«206715_g21620865368695_cont_8to1_1569_15_alg».proof.Proof.RefRun
import proofs.«206715_g21620865368695_cont_8to1_1569_15_alg».proof.Proof.RefBridge

noncomputable section

namespace Cert.RefSide

open Cert.ReferenceIdeal Cert.ReferenceIdeal.Gen Idealize.ShloMosaic Idealize.ShloMosaic.TcCoe Idealize.SL.Sem

theorem run_spec (m : (ℓ : Loc nD τ sig) → Buf (Elt Ideal) ℓ) (ρ : Dev nD → PrngReg)
    (hpre : ∀ c : Dev nD, Cert.Pre_input_domain.fn (F := Ideal) (m ((c.tc : Thread nD τ).loc main_arg0))
      (m ((c.tc : Thread nD τ).loc main_arg1)) = (fun _ => 1#1)) :
    θ_run (defs (F := Ideal)) (onTc (τ := τ) (main (F := Ideal))) ⟨m, fun _ => 0, ρ⟩ fun r => ∀ c : Dev nD,
      r.2.mem ((c.tc : Thread nD τ).loc main_v8)
          = Cert.Spec.G (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_eq_G _ _ (hpre c)), (h c).2⟩) (run (F := Ideal) m ρ)

end Cert.RefSide

end
-- ==== Proof.KIClaims.lean ====
/-
  The two claims about the idealized kernel, from its body. Its frame is its run with the result's value dropped.
  For the algebraic claim the shared value on each device is the specification's function of the kernel's two argument
  arrays: the kernel's run ends there; the reference, run from a memory that agrees on the arguments, satisfies the
  precondition there too and ends at the specification's function of ITS argument arrays, which are the same arrays.
-/
import proofs.«206715_g21620865368695_cont_8to1_1569_15_alg».proof.Defs
import proofs.«206715_g21620865368695_cont_8to1_1569_15_alg».proof.Proof.KIObl
import proofs.«206715_g21620865368695_cont_8to1_1569_15_alg».proof.Proof.RefSpec
import proofs.«206715_g21620865368695_cont_8to1_1569_15_alg».proof.Proof.Gen.Pre_input_domain

noncomputable section

namespace Cert.Proof.KI

open Idealize.ShloMosaic Idealize.SL.Sem

/-- `Cert.frame_KernelIdeal` (Defs.lean), from the body. -/
theorem frame_KernelIdeal_of_body
    (hb : ∀ m : (ℓ : Loc Cert.KernelIdeal.nD Cert.KernelIdeal.τ Cert.KernelIdeal.sig) → Buf (Elt Ideal) ℓ,
      TileBody (F := Ideal) (fwH m) (fiH m) (foH m)) :
    Cert.frame_KernelIdeal (hKernelIdeal := Cert.KernelIdeal.Gen.facts) (hPre_input_domain := Cert.Pre_input_domain.Gen.facts) :=
  fun m g _ => frame_of_body (F := Ideal) m g (hb m)

/-- `Cert.algebraic_KernelIdeal_ReferenceIdeal` (Defs.lean), from the body. -/
theorem algebraic_of_body
    (hb : ∀ m : (ℓ : Loc Cert.KernelIdeal.nD Cert.KernelIdeal.τ Cert.KernelIdeal.sig) → Buf (Elt Ideal) ℓ,
      TileBody (F := Ideal) (fwH m) (fiH m) (foH m)) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  have hpre' : ∀ c : Dev Cert.ReferenceIdeal.nD,
      Cert.Pre_input_domain.fn (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = (fun _ => 1#1) := by
    intro c
    rw [(hagree c).1, (hagree c).2]
    exact hpre c
  refine ⟨fun c => Cert.Spec.G (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    run_of_body (F := Ideal) m g (hb m), ?_⟩
  exact (θ_run Cert.ReferenceIdeal.defs _ _).mono
    (fun _ h c => ⟨by rw [(h c).1, (hagree c).1, (hagree c).2], (h c).2⟩)
    (Cert.RefSide.run_spec m' g' hpre')

end Cert.Proof.KI

end
-- ==== Proof.KBFill.lean ====
/-
  One trip of the fill loop, as mathematics. A trip takes sixteen index words, turns each into its signed value as
  a float, and writes sixteen rows of the 64 x 512 row buffer: row (16 k + l), columns [16 m, 16 m + 16) receive
  the m-th sixteen-lane register of the scaled row times the l-th value, for l < 16 and m < 32 — 512 stores of one
  sixteen-lane segment each, the last store first in the list. The segments tile rows [16 k, 16 k + 16) of the
  buffer, so after the trip those rows hold, entry by entry, (register m, lane j) * value l, and the rows above
  them are untouched.
-/
import Idealize.ShloMosaic.Lib.Writes
import Idealize.ShloMosaic.Lib.ValueIdx
import Idealize.ShloMosaic.Lib.ValueLayout
import Idealize.ShloMosaic.Lib.Pipeline.Value
import proofs.«206715_g21620865368695_cont_8to1_1569_15_alg».proof.Proof.Gen.Kernel

noncomputable section

namespace Cert.Proof.KB

open Cert.Kernel Cert.Kernel.Gen
open Idealize.ShloMosaic Idealize.ShloMosaic.ValueIdx

variable {F : FTy → Type} [FloatOps F]

theorem sl16 : ∀ l : Fin 16, S16.Slices ![l.val] S1 := by decide

/-- One store's payload: register `w` times lane `l` of the value vector `xv`, spread over sixteen lanes. -/
def lanePay (w xv : FVec F S16 .f32) (l : Fin 16) : FVec F S1x16 .f32 :=
  shapeCast S1x16 (mulf w (broadcast S16 (extractAt ![0] (extractStridedSlice S1 ![l.val] xv (sl16 l)) inpos_S1_p0))) shapeCasts_S16_S1x16

theorem lanePay_apply (w xv : FVec F S16 .f32) (l : Fin 16) (x : S1x16.Idx) :
    lanePay w xv l x = FloatOps.mulf (w (ix1 (x 1))) (xv (ix1 l)) := by
  obtain ⟨u, j, rfl⟩ : ∃ (u : Fin 1) (j : Fin 16), x = ix2 u j := ⟨x 0, x 1, eq_ix2 x⟩
  unfold lanePay
  rw [shapeCast_a_1a_apply]
  show FloatOps.mulf (w (ix1 j)) (xv _) = FloatOps.mulf (w (ix1 j)) (xv (ix1 l))
  refine congrArg (FloatOps.mulf (w (ix1 j))) (congrArg xv ?_)
  funext a
  match a with
  | ⟨0, _⟩ => exact Fin.ext (by simp)

section Pieces

variable (off : Fin 16 → Fin 32 → (Fin 2 → Nat)) (hinb : ∀ l m a, off l m a + S1x16.size a ≤ S64x512.size a)
  (w : Fin 32 → FVec F S16 .f32) (xv : FVec F S16 .f32)

/-- The store of lane `l`, register `m`. -/
def piece (l : Fin 16) (m : Fin 32) : View.Piece (Elt F) S64x512 .f32 :=
  ⟨Rect.unit (s := S64x512) (off l m) S1x16.size (hinb l m), lanePay (w m) xv l⟩

/-- Lane `l`'s stores of registers below `m`, the last first. -/
def rowPieces (l : Fin 16) : (m : ℕ) → m ≤ 32 → List (View.Piece (Elt F) S64x512 .f32)
  | 0, _ => []
  | m + 1, h => piece off hinb w xv l ⟨m, h⟩ :: rowPieces l m (Nat.le_of_succ_le h)

/-- The stores of the lanes below `l`, the last first. -/
def allPieces : (l : ℕ) → l ≤ 16 → List (View.Piece (Elt F) S64x512 .f32)
  | 0, _ => []
  | l + 1, h => rowPieces off hinb w xv ⟨l, h⟩ 32 le_rfl ++ allPieces l (Nat.le_of_succ_le h)

theorem mem_rowPieces {l : Fin 16} {p : View.Piece (Elt F) S64x512 .f32} :
    ∀ (m : ℕ) (h : m ≤ 32), p ∈ rowPieces off hinb w xv l m h ↔ ∃ m' : Fin 32, m'.val < m ∧ p = piece off hinb w xv l m'
  | 0, _ => by simp [rowPieces]
  | m + 1, h => by
    rw [rowPieces, List.mem_cons, mem_rowPieces m (Nat.le_of_succ_le h)]
    constructor
    · rintro (rfl | ⟨m', hm', rfl⟩)
      · exact ⟨⟨m, h⟩, Nat.lt_succ_self m, rfl⟩
      · exact ⟨m', Nat.lt_succ_of_lt hm', rfl⟩
    · rintro ⟨m', hm', rfl⟩
      rcases Nat.lt_succ_iff_lt_or_eq.mp hm' with hlt | heq
      · exact .inr ⟨m', hlt, rfl⟩
      · left; congr 1; exact Fin.ext heq

theorem mem_allPieces {p : View.Piece (Elt F) S64x512 .f32} :
    ∀ (n : ℕ) (h : n ≤ 16), p ∈ allPieces off hinb w xv n h ↔ ∃ (l : Fin 16) (m : Fin 32), l.val < n ∧ p = piece off hinb w xv l m
  | 0, _ => by simp [allPieces]
  | n + 1, h => by
    rw [allPieces, List.mem_append, mem_rowPieces, mem_allPieces n (Nat.le_of_succ_le h)]
    constructor
    · rintro (⟨m, _, rfl⟩ | ⟨l, m, hl, rfl⟩)
      · exact ⟨⟨n, h⟩, m, Nat.lt_succ_self n, rfl⟩
      · exact ⟨l, m, Nat.lt_succ_of_lt hl, rfl⟩
    · rintro ⟨l, m, hl, rfl⟩
      rcases Nat.lt_succ_iff_lt_or_eq.mp hl with hlt | heq
      · exact .inr ⟨l, m, hlt, rfl⟩
      · left; refine ⟨m, m.isLt, ?_⟩; congr 1; exact Fin.ext heq

/-- After a trip the sixteen rows it wrote hold the products, the rows above them what they held. -/
theorem fill_step {sig : RefSig} {κ : Kind} {sp : Space} (v : View sig κ sp S64x512 .f32) (k : ℕ)
    (hoff : ∀ l m, off l m = ![16 * k + l.val, 16 * m.val])
    (G : S64x512.Idx → Elt F .f32)
    (hG : ∀ (l : Fin 16) (m : Fin 32) (j : Fin 16) (y : S64x512.Idx), (y 0).val = 16 * k + l.val → (y 1).val = 16 * m.val + j.val →
      G y = FloatOps.mulf (w m (ix1 j)) (xv (ix1 l)))
    (f : v.ty.Contents (Elt F)) (hf : ∀ y : S64x512.Idx, (y 0).val < 16 * k → v.read (Elt F) f y = G y) :
    ∀ y : S64x512.Idx, (y 0).val < 16 * (k + 1) → v.read (Elt F) (v.writes (Elt F) f (allPieces off hinb w xv 16 le_rfl)) y = G y := by
  intro y hy
  by_cases h : (y 0).val < 16 * k
  · rw [View.read_writes_apply_of_forall_not_mem]
    · exact hf y h
    · intro p hp
      obtain ⟨l, m, _, rfl⟩ := (mem_allPieces off hinb w xv 16 le_rfl).mp hp
      show y ∉ (Rect.unit (s := S64x512) (off l m) S1x16.size (hinb l m)).set
      rw [Rect.mem_set_unit]
      intro hh
      have h0 := (hh 0).1
      rw [hoff] at h0
      simp at h0
      omega
  · have hy1 : (y 1).val < 512 := (y 1).isLt
    refine View.read_writes_apply_of_pieces (v := v) (f := f) G _ ?_ y ?_
    · intro p hp
      obtain ⟨l, m, _, rfl⟩ := (mem_allPieces off hinb w xv 16 le_rfl).mp hp
      intro (x : S1x16.Idx)
      show lanePay (w m) xv l x = G ((Rect.unit (s := S64x512) (off l m) S1x16.size (hinb l m)).emb x)
      rw [lanePay_apply]
      have hx0 : (x 0).val = 0 := by have := (x 0).isLt; simp at this; omega
      refine (hG l m (x 1) _ ?_ ?_).symm
      · rw [Rect.emb_apply, Rect.off_unit, Rect.stride_unit]
        have e0 : off l m 0 = 16 * k + l.val := by rw [hoff]; rfl
        omega
      · rw [Rect.emb_apply, Rect.off_unit, Rect.stride_unit]
        have e1 : off l m 1 = 16 * m.val := by rw [hoff]; rfl
        omega
    · have hl : (y 0).val - 16 * k < 16 := by omega
      have hm : (y 1).val / 16 < 32 := by omega
      refine ⟨piece off hinb w xv ⟨(y 0).val - 16 * k, hl⟩ ⟨(y 1).val / 16, hm⟩,
        (mem_allPieces off hinb w xv 16 le_rfl).mpr ⟨_, _, hl, rfl⟩, ?_⟩
      show y ∈ (Rect.unit (s := S64x512) (off _ _) S1x16.size (hinb _ _)).set
      rw [Rect.mem_set_unit, hoff]
      intro a
      match a with
      | ⟨0, _⟩ => simp; omega
      | ⟨1, _⟩ => simp; omega

end Pieces

end Cert.Proof.KB

end
-- ==== Proof.KBOffs.lean ====
/-
  The printed offset of each of a trip's 512 stores is row (16 k + l), column 16 m: the four fill loops of the body
  spell them through 32 offset functions each, one per register, collected here as one function of (lane, register).
-/
import Mathlib.Tactic.IntervalCases
import proofs.«206715_g21620865368695_cont_8to1_1569_15_alg».proof.Proof.Gen.Kernel

noncomputable section

namespace Cert.Proof.KB

open Cert.Kernel Cert.Kernel.Gen
open Idealize.ShloMosaic

/-- The printed offsets of the 32 stores of lane `l`, by register. -/
def offA (k : Fin k0_t1_loop.trips) (l : Fin 16) (m : Fin 32) : Fin 2 → Nat :=
  match m.val with
  | 0 => k0_off3 k (BitVec.ofNat 32 l.val)
  | 1 => k0_off4 k (BitVec.ofNat 32 l.val)
  | 2 => k0_off5 k (BitVec.ofNat 32 l.val)
  | 3 => k0_off6 k (BitVec.ofNat 32 l.val)
  | 4 => k0_off7 k (BitVec.ofNat 32 l.val)
  | 5 => k0_off8 k (BitVec.ofNat 32 l.val)
  | 6 => k0_off9 k (BitVec.ofNat 32 l.val)
  | 7 => k0_off10 k (BitVec.ofNat 32 l.val)
  | 8 => k0_off11 k (BitVec.ofNat 32 l.val)
  | 9 => k0_off12 k (BitVec.ofNat 32 l.val)
  | 10 => k0_off13 k (BitVec.ofNat 32 l.val)
  | 11 => k0_off14 k (BitVec.ofNat 32 l.val)
  | 12 => k0_off15 k (BitVec.ofNat 32 l.val)
  | 13 => k0_off16 k (BitVec.ofNat 32 l.val)
  | 14 => k0_off17 k (BitVec.ofNat 32 l.val)
  | 15 => k0_off18 k (BitVec.ofNat 32 l.val)
  | 16 => k0_off19 k (BitVec.ofNat 32 l.val)
  | 17 => k0_off20 k (BitVec.ofNat 32 l.val)
  | 18 => k0_off21 k (BitVec.ofNat 32 l.val)
  | 19 => k0_off22 k (BitVec.ofNat 32 l.val)
  | 20 => k0_off23 k (BitVec.ofNat 32 l.val)
  | 21 => k0_off24 k (BitVec.ofNat 32 l.val)
  | 22 => k0_off25 k (BitVec.ofNat 32 l.val)
  | 23 => k0_off26 k (BitVec.ofNat 32 l.val)
  | 24 => k0_off27 k (BitVec.ofNat 32 l.val)
  | 25 => k0_off28 k (BitVec.ofNat 32 l.val)
  | 26 => k0_off29 k (BitVec.ofNat 32 l.val)
  | 27 => k0_off30 k (BitVec.ofNat 32 l.val)
  | 28 => k0_off31 k (BitVec.ofNat 32 l.val)
  | 29 => k0_off32 k (BitVec.ofNat 32 l.val)
  | 30 => k0_off33 k (BitVec.ofNat 32 l.val)
  | _ => k0_off34 k (BitVec.ofNat 32 l.val)

theorem offA_eq (k : Fin k0_t1_loop.trips) (l : Fin 16) (m : Fin 32) : offA k l m = ![16 * k.val + l.val, 16 * m.val] := by
  obtain ⟨mv, hm⟩ := m
  interval_cases mv <;> first | exact k0_off3_eq k l | exact k0_off4_eq k l | exact k0_off5_eq k l | exact k0_off6_eq k l | exact k0_off7_eq k l | exact k0_off8_eq k l | exact k0_off9_eq k l | exact k0_off10_eq k l | exact k0_off11_eq k l | exact k0_off12_eq k l | exact k0_off13_eq k l | exact k0_off14_eq k l | exact k0_off15_eq k l | exact k0_off16_eq k l | exact k0_off17_eq k l | exact k0_off18_eq k l | exact k0_off19_eq k l | exact k0_off20_eq k l | exact k0_off21_eq k l | exact k0_off22_eq k l | exact k0_off23_eq k l | exact k0_off24_eq k l | exact k0_off25_eq k l | exact k0_off26_eq k l | exact k0_off27_eq k l | exact k0_off28_eq k l | exact k0_off29_eq k l | exact k0_off30_eq k l | exact k0_off31_eq k l | exact k0_off32_eq k l | exact k0_off33_eq k l | exact k0_off34_eq k l

theorem offA_inb (k : Fin k0_t1_loop.trips) (l : Fin 16) (m : Fin 32) : ∀ a, offA k l m a + S1x16.size a ≤ S64x512.size a := by
  have h4 : k.val < 4 := k.isLt
  intro a
  rw [offA_eq]
  match a with
  | ⟨0, _⟩ => simp; omega
  | ⟨1, _⟩ => simp; omega

/-- The printed offsets of the 32 stores of lane `l`, by register. -/
def offB (k : Fin k0_t2_loop.trips) (l : Fin 16) (m : Fin 32) : Fin 2 → Nat :=
  match m.val with
  | 0 => k0_off37 k (BitVec.ofNat 32 l.val)
  | 1 => k0_off38 k (BitVec.ofNat 32 l.val)
  | 2 => k0_off39 k (BitVec.ofNat 32 l.val)
  | 3 => k0_off40 k (BitVec.ofNat 32 l.val)
  | 4 => k0_off41 k (BitVec.ofNat 32 l.val)
  | 5 => k0_off42 k (BitVec.ofNat 32 l.val)
  | 6 => k0_off43 k (BitVec.ofNat 32 l.val)
  | 7 => k0_off44 k (BitVec.ofNat 32 l.val)
  | 8 => k0_off45 k (BitVec.ofNat 32 l.val)
  | 9 => k0_off46 k (BitVec.ofNat 32 l.val)
  | 10 => k0_off47 k (BitVec.ofNat 32 l.val)
  | 11 => k0_off48 k (BitVec.ofNat 32 l.val)
  | 12 => k0_off49 k (BitVec.ofNat 32 l.val)
  | 13 => k0_off50 k (BitVec.ofNat 32 l.val)
  | 14 => k0_off51 k (BitVec.ofNat 32 l.val)
  | 15 => k0_off52 k (BitVec.ofNat 32 l.val)
  | 16 => k0_off53 k (BitVec.ofNat 32 l.val)
  | 17 => k0_off54 k (BitVec.ofNat 32 l.val)
  | 18 => k0_off55 k (BitVec.ofNat 32 l.val)
  | 19 => k0_off56 k (BitVec.ofNat 32 l.val)
  | 20 => k0_off57 k (BitVec.ofNat 32 l.val)
  | 21 => k0_off58 k (BitVec.ofNat 32 l.val)
  | 22 => k0_off59 k (BitVec.ofNat 32 l.val)
  | 23 => k0_off60 k (BitVec.ofNat 32 l.val)
  | 24 => k0_off61 k (BitVec.ofNat 32 l.val)
  | 25 => k0_off62 k (BitVec.ofNat 32 l.val)
  | 26 => k0_off63 k (BitVec.ofNat 32 l.val)
  | 27 => k0_off64 k (BitVec.ofNat 32 l.val)
  | 28 => k0_off65 k (BitVec.ofNat 32 l.val)
  | 29 => k0_off66 k (BitVec.ofNat 32 l.val)
  | 30 => k0_off67 k (BitVec.ofNat 32 l.val)
  | _ => k0_off68 k (BitVec.ofNat 32 l.val)

theorem offB_eq (k : Fin k0_t2_loop.trips) (l : Fin 16) (m : Fin 32) : offB k l m = ![16 * k.val + l.val, 16 * m.val] := by
  obtain ⟨mv, hm⟩ := m
  interval_cases mv <;> first | exact k0_off37_eq k l | exact k0_off38_eq k l | exact k0_off39_eq k l | exact k0_off40_eq k l | exact k0_off41_eq k l | exact k0_off42_eq k l | exact k0_off43_eq k l | exact k0_off44_eq k l | exact k0_off45_eq k l | exact k0_off46_eq k l | exact k0_off47_eq k l | exact k0_off48_eq k l | exact k0_off49_eq k l | exact k0_off50_eq k l | exact k0_off51_eq k l | exact k0_off52_eq k l | exact k0_off53_eq k l | exact k0_off54_eq k l | exact k0_off55_eq k l | exact k0_off56_eq k l | exact k0_off57_eq k l | exact k0_off58_eq k l | exact k0_off59_eq k l | exact k0_off60_eq k l | exact k0_off61_eq k l | exact k0_off62_eq k l | exact k0_off63_eq k l | exact k0_off64_eq k l | exact k0_off65_eq k l | exact k0_off66_eq k l | exact k0_off67_eq k l | exact k0_off68_eq k l

theorem offB_inb (k : Fin k0_t2_loop.trips) (l : Fin 16) (m : Fin 32) : ∀ a, offB k l m a + S1x16.size a ≤ S64x512.size a := by
  have h4 : k.val < 4 := k.isLt
  intro a
  rw [offB_eq]
  match a with
  | ⟨0, _⟩ => simp; omega
  | ⟨1, _⟩ => simp; omega

/-- The printed offsets of the 32 stores of lane `l`, by register. -/
def offC (k : Fin k0_t4_loop.trips) (l : Fin 16) (m : Fin 32) : Fin 2 → Nat :=
  match m.val with
  | 0 => k0_off71 k (BitVec.ofNat 32 l.val)
  | 1 => k0_off72 k (BitVec.ofNat 32 l.val)
  | 2 => k0_off73 k (BitVec.ofNat 32 l.val)
  | 3 => k0_off74 k (BitVec.ofNat 32 l.val)
  | 4 => k0_off75 k (BitVec.ofNat 32 l.val)
  | 5 => k0_off76 k (BitVec.ofNat 32 l.val)
  | 6 => k0_off77 k (BitVec.ofNat 32 l.val)
  | 7 => k0_off78 k (BitVec.ofNat 32 l.val)
  | 8 => k0_off79 k (BitVec.ofNat 32 l.val)
  | 9 => k0_off80 k (BitVec.ofNat 32 l.val)
  | 10 => k0_off81 k (BitVec.ofNat 32 l.val)
  | 11 => k0_off82 k (BitVec.ofNat 32 l.val)
  | 12 => k0_off83 k (BitVec.ofNat 32 l.val)
  | 13 => k0_off84 k (BitVec.ofNat 32 l.val)
  | 14 => k0_off85 k (BitVec.ofNat 32 l.val)
  | 15 => k0_off86 k (BitVec.ofNat 32 l.val)
  | 16 => k0_off87 k (BitVec.ofNat 32 l.val)
  | 17 => k0_off88 k (BitVec.ofNat 32 l.val)
  | 18 => k0_off89 k (BitVec.ofNat 32 l.val)
  | 19 => k0_off90 k (BitVec.ofNat 32 l.val)
  | 20 => k0_off91 k (BitVec.ofNat 32 l.val)
  | 21 => k0_off92 k (BitVec.ofNat 32 l.val)
  | 22 => k0_off93 k (BitVec.ofNat 32 l.val)
  | 23 => k0_off94 k (BitVec.ofNat 32 l.val)
  | 24 => k0_off95 k (BitVec.ofNat 32 l.val)
  | 25 => k0_off96 k (BitVec.ofNat 32 l.val)
  | 26 => k0_off97 k (BitVec.ofNat 32 l.val)
  | 27 => k0_off98 k (BitVec.ofNat 32 l.val)
  | 28 => k0_off99 k (BitVec.ofNat 32 l.val)
  | 29 => k0_off100 k (BitVec.ofNat 32 l.val)
  | 30 => k0_off101 k (BitVec.ofNat 32 l.val)
  | _ => k0_off102 k (BitVec.ofNat 32 l.val)

theorem offC_eq (k : Fin k0_t4_loop.trips) (l : Fin 16) (m : Fin 32) : offC k l m = ![16 * k.val + l.val, 16 * m.val] := by
  obtain ⟨mv, hm⟩ := m
  interval_cases mv <;> first | exact k0_off71_eq k l | exact k0_off72_eq k l | exact k0_off73_eq k l | exact k0_off74_eq k l | exact k0_off75_eq k l | exact k0_off76_eq k l | exact k0_off77_eq k l | exact k0_off78_eq k l | exact k0_off79_eq k l | exact k0_off80_eq k l | exact k0_off81_eq k l | exact k0_off82_eq k l | exact k0_off83_eq k l | exact k0_off84_eq k l | exact k0_off85_eq k l | exact k0_off86_eq k l | exact k0_off87_eq k l | exact k0_off88_eq k l | exact k0_off89_eq k l | exact k0_off90_eq k l | exact k0_off91_eq k l | exact k0_off92_eq k l | exact k0_off93_eq k l | exact k0_off94_eq k l | exact k0_off95_eq k l | exact k0_off96_eq k l | exact k0_off97_eq k l | exact k0_off98_eq k l | exact k0_off99_eq k l | exact k0_off100_eq k l | exact k0_off101_eq k l | exact k0_off102_eq k l

theorem offC_inb (k : Fin k0_t4_loop.trips) (l : Fin 16) (m : Fin 32) : ∀ a, offC k l m a + S1x16.size a ≤ S64x512.size a := by
  have h4 : k.val < 4 := k.isLt
  intro a
  rw [offC_eq]
  match a with
  | ⟨0, _⟩ => simp; omega
  | ⟨1, _⟩ => simp; omega

/-- The printed offsets of the 32 stores of lane `l`, by register. -/
def offD (k : Fin k0_t5_loop.trips) (l : Fin 16) (m : Fin 32) : Fin 2 → Nat :=
  match m.val with
  | 0 => k0_off106 k (BitVec.ofNat 32 l.val)
  | 1 => k0_off107 k (BitVec.ofNat 32 l.val)
  | 2 => k0_off108 k (BitVec.ofNat 32 l.val)
  | 3 => k0_off109 k (BitVec.ofNat 32 l.val)
  | 4 => k0_off110 k (BitVec.ofNat 32 l.val)
  | 5 => k0_off111 k (BitVec.ofNat 32 l.val)
  | 6 => k0_off112 k (BitVec.ofNat 32 l.val)
  | 7 => k0_off113 k (BitVec.ofNat 32 l.val)
  | 8 => k0_off114 k (BitVec.ofNat 32 l.val)
  | 9 => k0_off115 k (BitVec.ofNat 32 l.val)
  | 10 => k0_off116 k (BitVec.ofNat 32 l.val)
  | 11 => k0_off117 k (BitVec.ofNat 32 l.val)
  | 12 => k0_off118 k (BitVec.ofNat 32 l.val)
  | 13 => k0_off119 k (BitVec.ofNat 32 l.val)
  | 14 => k0_off120 k (BitVec.ofNat 32 l.val)
  | 15 => k0_off121 k (BitVec.ofNat 32 l.val)
  | 16 => k0_off122 k (BitVec.ofNat 32 l.val)
  | 17 => k0_off123 k (BitVec.ofNat 32 l.val)
  | 18 => k0_off124 k (BitVec.ofNat 32 l.val)
  | 19 => k0_off125 k (BitVec.ofNat 32 l.val)
  | 20 => k0_off126 k (BitVec.ofNat 32 l.val)
  | 21 => k0_off127 k (BitVec.ofNat 32 l.val)
  | 22 => k0_off128 k (BitVec.ofNat 32 l.val)
  | 23 => k0_off129 k (BitVec.ofNat 32 l.val)
  | 24 => k0_off130 k (BitVec.ofNat 32 l.val)
  | 25 => k0_off131 k (BitVec.ofNat 32 l.val)
  | 26 => k0_off132 k (BitVec.ofNat 32 l.val)
  | 27 => k0_off133 k (BitVec.ofNat 32 l.val)
  | 28 => k0_off134 k (BitVec.ofNat 32 l.val)
  | 29 => k0_off135 k (BitVec.ofNat 32 l.val)
  | 30 => k0_off136 k (BitVec.ofNat 32 l.val)
  | _ => k0_off137 k (BitVec.ofNat 32 l.val)

theorem offD_eq (k : Fin k0_t5_loop.trips) (l : Fin 16) (m : Fin 32) : offD k l m = ![16 * k.val + l.val, 16 * m.val] := by
  obtain ⟨mv, hm⟩ := m
  interval_cases mv <;> first | exact k0_off106_eq k l | exact k0_off107_eq k l | exact k0_off108_eq k l | exact k0_off109_eq k l | exact k0_off110_eq k l | exact k0_off111_eq k l | exact k0_off112_eq k l | exact k0_off113_eq k l | exact k0_off114_eq k l | exact k0_off115_eq k l | exact k0_off116_eq k l | exact k0_off117_eq k l | exact k0_off118_eq k l | exact k0_off119_eq k l | exact k0_off120_eq k l | exact k0_off121_eq k l | exact k0_off122_eq k l | exact k0_off123_eq k l | exact k0_off124_eq k l | exact k0_off125_eq k l | exact k0_off126_eq k l | exact k0_off127_eq k l | exact k0_off128_eq k l | exact k0_off129_eq k l | exact k0_off130_eq k l | exact k0_off131_eq k l | exact k0_off132_eq k l | exact k0_off133_eq k l | exact k0_off134_eq k l | exact k0_off135_eq k l | exact k0_off136_eq k l | exact k0_off137_eq k l

theorem offD_inb (k : Fin k0_t5_loop.trips) (l : Fin 16) (m : Fin 32) : ∀ a, offD k l m a + S1x16.size a ≤ S64x512.size a := by
  have h4 : k.val < 4 := k.isLt
  intro a
  rw [offD_eq]
  match a with
  | ⟨0, _⟩ => simp; omega
  | ⟨1, _⟩ => simp; omega

end Cert.Proof.KB

end
-- ==== Proof.KBSetup.lean ====
import proofs.«206715_g21620865368695_cont_8to1_1569_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Writes
import Idealize.ShloMosaic.Lib.ValueIdx
import proofs.«206715_g21620865368695_cont_8to1_1569_15_alg».proof.Proof.Gen.Kernel
import proofs.«206715_g21620865368695_cont_8to1_1569_15_alg».proof.Proof.Gen.Kernel.Skeleton
import Mathlib.Tactic.IntervalCases
import proofs.«206715_g21620865368695_cont_8to1_1569_15_alg».proof.Proof.KBFill
import proofs.«206715_g21620865368695_cont_8to1_1569_15_alg».proof.Proof.KBOffs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The scaled row, the flat index list and the flat result, as locations of device `d`. -/
abbrev wLoc (d : Dev nD) : Loc nD τ sig := (SparseCore.T d).loc main_v3
abbrev iLoc (d : Dev nD) : Loc nD τ sig := (SparseCore.T d).loc main_v4
abbrev oLoc (d : Dev nD) : Loc nD τ sig := (SparseCore.T d).loc main_v5

local notation "wV" => (Memref.whole Cert.Kernel.main_v3_scv : Memref Cert.Kernel.sig Kind.scVector Space.hbm Cert.Kernel.S512 EltTy.f32)
local notation "iV" => (Memref.whole Cert.Kernel.main_v4_scv : Memref Cert.Kernel.sig Kind.scVector Space.hbm Cert.Kernel.S819200 EltTy.i32)
local notation "oV" => (Memref.whole Cert.Kernel.main_v5_scv : Memref Cert.Kernel.sig Kind.scVector Space.hbm Cert.Kernel.S819200x512 EltTy.f32)
local notation "rawV" => (Memref.whole Cert.Kernel.cc0_scratch0 : Memref Cert.Kernel.sig Kind.scVector Space.vmem Cert.Kernel.S25600 EltTy.i32)
local notation "wvV" => (Memref.whole Cert.Kernel.cc0_scratch1 : Memref Cert.Kernel.sig Kind.scVector Space.vmem Cert.Kernel.S512 EltTy.f32)
local notation "r0V" => (Memref.whole Cert.Kernel.cc0_scratch2 : Memref Cert.Kernel.sig Kind.scVector Space.vmem Cert.Kernel.S64x512 EltTy.f32)
local notation "r1V" => (Memref.whole Cert.Kernel.cc0_scratch3 : Memref Cert.Kernel.sig Kind.scVector Space.vmem Cert.Kernel.S64x512 EltTy.f32)

section Tile

variable [FloatOps F] (d : Dev nD) (L : grid0.Coords)

abbrev cV (L : grid0.Coords) : Fin τ.nSC := (L 0).castLE hcore0
abbrev jV (L : grid0.Coords) : Fin τ.nSub := (L 1).castLE hsub0

/-- The tile's stretch of the flat index list, as the task slices it. -/
abbrev iSl (L : grid0.Coords) : Memref sig .scVector .hbm S25600 .i32 :=
  (iV).slice (Rect.unit (s := S819200) (k0_off1 L) S25600.size (k0_off1_inb L)) (fun _ => rfl)

abbrev cAcell (d : Dev nD) (c : Fin τ.nSC) (i : Fin τ.nSub) : GSem nD τ sig := (V d c i, .dma cc0_scratch4.sem)
abbrev cBcell (d : Dev nD) (c : Fin τ.nSC) (i : Fin τ.nSub) : GSem nD τ sig := (V d c i, .dma cc0_scratch5.sem)
abbrev cCcell (d : Dev nD) (c : Fin τ.nSC) (i : Fin τ.nSub) : GSem nD τ sig := (V d c i, .dma cc0_scoped0.sem)
abbrev cDcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cDcell d (cV L) (jV L)) 0
          ∗ bigSep (((((ownCells (V d (cV L) (jV L))).erase (cAcell d (cV L) (jV L))).erase (cBcell d (cV L) (jV L))).erase (cCcell d (cV L) (jV L))).erase (cDcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch4.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch5.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩),
    SparseCore.bigSep_erase' (Finset.mem_erase.mpr ⟨by simp [cCcell, cDcell]; decide, Finset.mem_erase.mpr ⟨by simp [cBcell, cDcell]; decide, Finset.mem_erase.mpr ⟨by simp [cAcell, cDcell]; decide,
      (mem_ownCells (g := cDcell d (cV L) (jV L))).mpr ⟨rfl, by show (SemLoc.dma cc0_scoped1.sem : SemLoc sig).isScoped .scVector = true; decide⟩⟩⟩⟩)]

omit [FloatOps F] in
/-- The four scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-! ## Which rows a tile owns -/

/-- The tile number of a grid point: tiles are numbered subcore-major, the two SparseCores alternating. -/
abbrev widL (L : grid0.Coords) : ℕ := 2 * (L 1).val + (L 0).val

/-- Stretch `w` of the flat index list: 25600 consecutive words. -/
def iBlk (w : ℕ) : Finset S819200.Idx := Finset.univ.filter fun x => 25600 * w ≤ (x 0).val ∧ (x 0).val < 25600 * w + 25600
/-- Rows `[b, b + n)` of the flat result. -/
def oRows (b n : ℕ) : Finset S819200x512.Idx := Finset.univ.filter fun x => b ≤ (x 0).val ∧ (x 0).val < b + n

omit [FloatOps F] in
theorem mem_iBlk {w : ℕ} {x : S819200.Idx} : x ∈ iBlk w ↔ 25600 * w ≤ (x 0).val ∧ (x 0).val < 25600 * w + 25600 := by
  simp [iBlk]
omit [FloatOps F] in
theorem mem_oRows {b n : ℕ} {x : S819200x512.Idx} : x ∈ oRows b n ↔ b ≤ (x 0).val ∧ (x 0).val < b + n := by
  simp [oRows]

omit [FloatOps F] in
theorem set_iSl : (iSl L).view.set = iBlk (widL L) := by
  show ((View.whole (main_v4_scv : Ref sig .scVector)).slice (Rect.unit (s := S819200) (k0_off1 L) S25600.size (k0_off1_inb L))).set = _
  rw [View.set_slice_whole]
  ext x
  rw [Rect.mem_set_unit, mem_iBlk, k0_off1_eq]
  unfold widL
  constructor
  · intro h; have := h 0; simp at this; omega
  · intro h a; match a with | ⟨0, _⟩ => simp; omega

omit [FloatOps F] in
theorem pts_iSl (f : Buf (Elt F) (iLoc d)) :
    ((iSl L).view.loc (V d (cV L) (jV L)) ↦[(iSl L).view.set]{fullShare} f : sProp 𝕄) = iLoc d ↦[iBlk (widL L)]{fullShare} f := by
  rw [set_iSl]
omit [FloatOps F] in
theorem pts_wV (q : PosShare TreeShare) (f : Buf (Elt F) (wLoc d)) :
    ((wV).view.loc (V d (cV L) (jV L)) ↦{q} f : sProp 𝕄) = wLoc d ↦{q} f := rfl

/-! ## Blocks of the flat result -/

/-- 64 rows of the flat result from row `off 0`, as the task slices them for a copy-out. -/
abbrev oSl (off : Fin 2 → ℕ) (h : ∀ a, off a + S64x512.size a ≤ S819200x512.size a) : Memref sig .scVector .hbm S64x512 .f32 :=
  (oV).slice (Rect.unit (s := S819200x512) off S64x512.size h) (fun _ => rfl)

omit [FloatOps F] in
theorem set_oSl (off : Fin 2 → ℕ) (h : ∀ a, off a + S64x512.size a ≤ S819200x512.size a) (h1 : off 1 = 0) :
    (oSl off h).view.set = oRows (off 0) 64 := by
  show ((View.whole (main_v5_scv : Ref sig .scVector)).slice (Rect.unit (s := S819200x512) off S64x512.size h)).set = _
  rw [View.set_slice_whole]
  ext x
  rw [Rect.mem_set_unit, mem_oRows]
  constructor
  · intro hh; have := hh 0; simpa using this
  · intro hh a
    match a with
    | ⟨0, _⟩ => simpa using hh
    | ⟨1, _⟩ =>
      have h512 : (x 1).val < 512 := (x 1).isLt
      have h1' : off (1 : Fin 2) = 0 := h1
      simp [h1']; omega

omit [FloatOps F] in
theorem oRows_add (b n k : ℕ) : oRows b (n + k) = oRows b n ∪ oRows (b + n) k := by
  ext x; simp only [Finset.mem_union, mem_oRows]; omega
omit [FloatOps F] in
theorem oRows_disj (b n k : ℕ) : Disjoint (oRows b n) (oRows (b + n) k) :=
  Finset.disjoint_left.mpr fun x h1 h2 => by rw [mem_oRows] at h1 h2; omega

omit [FloatOps F] in
/-- Rows `[b, b + n + k)` held at one function are rows `[b, b + n)` and rows `[b + n, b + n + k)`. -/
theorem pts_rows_split (b n k : ℕ) (f : Buf (Elt F) (oLoc d)) :
    (oLoc d ↦[oRows b (n + k)]{fullShare} f : sProp 𝕄) ⊣⊢ iprop((oLoc d ↦[oRows b n]{fullShare} f) ∗ oLoc d ↦[oRows (b + n) k]{fullShare} f) := by
  rw [oRows_add]; exact pointsTo_union (oRows_disj b n k)

omit [FloatOps F] in
theorem off35_0 : ∀ i : grid0.Coords, k0_off35 i 0#32 = ![51200 * (i 1).val + 25600 * (i 0).val, 0] := by decide +kernel
omit [FloatOps F] in
theorem off35_1 : ∀ i : grid0.Coords, k0_off35 i 64#32 = ![51200 * (i 1).val + 25600 * (i 0).val + 64, 0] := by decide +kernel
omit [FloatOps F] in
theorem off35_2 : ∀ i : grid0.Coords, k0_off35 i 25472#32 = ![51200 * (i 1).val + 25600 * (i 0).val + 25472, 0] := by decide +kernel
omit [FloatOps F] in
theorem off35_3 : ∀ i : grid0.Coords, k0_off35 i 25536#32 = ![51200 * (i 1).val + 25600 * (i 0).val + 25536, 0] := by decide +kernel
omit [FloatOps F] in
theorem cond1_iff : ∀ t : Fin k0_t3_loop.trips, (k0_cond1 t = 1#1) ↔ t.val < 199 := by decide +kernel
omit [FloatOps F] in
theorem cond2_iff : ∀ t : Fin k0_t3_loop.trips, (k0_cond2 t = 1#1) ↔ t.val < 199 := by decide +kernel
omit [FloatOps F] in
theorem trips3 : k0_t3_loop.trips = 200 := by decide +kernel

/-! ## A trip's values, in one spelling -/

omit [FloatOps F] in
theorem inbw : ∀ m : Fin 32, ∀ a, (![16 * m.val] : Fin 1 → Nat) a + S16.size a ≤ S512.size a := by decide

/-- Register `m` of the scaled row: sixteen lanes of the row scratch from lane `16 m` on. -/
def wA (wvc : S512.Idx → Elt F .f32) (m : Fin 32) : FVec F S16 .f32 :=
  shapeCast S16 (View.readAt (Elt F) (wvV).view (Rect.unit (s := S512) ![16 * m.val] S16.size (inbw m)).toLoadRect wvc) shapeCasts_S16_S16

/-- Sixteen index words of the index scratch from `roff` on, as floats. -/
def xvOf (rawc : S25600.Idx → Elt F .i32) (roff : Fin 1 → ℕ) (h : ∀ a, roff a + S16.size a ≤ S25600.size a) : FVec F S16 .f32 :=
  sitofp .f32 (shapeCast S16 (View.readAt (Elt F) (rawV).view (Rect.unit (s := S25600) roff S16.size h).toLoadRect rawc) shapeCasts_S16_S16)

theorem wA_apply (wvc : S512.Idx → Elt F .f32) (m : Fin 32) (j : Fin 16) :
    wA wvc m (ix1 j) = wvc (ix1 (⟨16 * m.val + j.val, by omega⟩ : Fin 512)) := by
  unfold wA
  refine (congrFun (shapeCast_self (s := S16) _ _) _).trans ?_
  show wvc _ = wvc _
  exact congrArg wvc (funext fun a => match a with | ⟨0, _⟩ => Fin.ext (by simp))

theorem xvOf_apply (rawc : S25600.Idx → Elt F .i32) (roff : Fin 1 → ℕ) (h : ∀ a, roff a + S16.size a ≤ S25600.size a) (l : Fin 16) :
    xvOf rawc roff h (ix1 l) = FloatOps.sitofp .f32 (rawc (ix1 (⟨roff 0 + l.val, by have := h 0; simp at this; omega⟩ : Fin 25600))) := by
  unfold xvOf
  show FloatOps.sitofp .f32 (shapeCast S16 _ shapeCasts_S16_S16 (ix1 l)) = _
  refine (congrArg (FloatOps.sitofp .f32) (congrFun (shapeCast_self (s := S16) _ _) _)).trans ?_
  show FloatOps.sitofp .f32 (rawc _) = FloatOps.sitofp .f32 (rawc _)
  exact congrArg (fun z => FloatOps.sitofp .f32 (rawc z)) (funext fun a => match a with | ⟨0, _⟩ => Fin.ext (by simp))

end Tile

end Cert.Proof.KB

end
-- ==== Proof.KBPay.lean ====
import proofs.«206715_g21620865368695_cont_8to1_1569_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Writes
import Idealize.ShloMosaic.Lib.ValueIdx
import proofs.«206715_g21620865368695_cont_8to1_1569_15_alg».proof.Proof.Gen.Kernel
import proofs.«206715_g21620865368695_cont_8to1_1569_15_alg».proof.Proof.Gen.Kernel.Skeleton
import proofs.«206715_g21620865368695_cont_8to1_1569_15_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## What a tile computes, and what the handshakes carry -/

section Pay

variable [FloatOps F]

/-- The flat result as a function of the scaled row `w` and the flat index list `ix`: entry (r, col) is lane `col` of the
    row times the signed value of word `r`. -/
def outSpec (d : Dev nD) (w : Buf (Elt F) (wLoc d)) (ix : Buf (Elt F) (iLoc d)) : Buf (Elt F) (oLoc d) :=
  fun x => FloatOps.mulf (w (ix1 (x 1))) (FloatOps.sitofp .f32 (ix (ix1 (x 0))))

variable (fw : (d : Dev nD) → Buf (Elt F) (wLoc d)) (fi : (d : Dev nD) → Buf (Elt F) (iLoc d)) (fo : (d : Dev nD) → Buf (Elt F) (oLoc d))

/-- Task `w`'s read share of the scaled row. -/
abbrev wTok (w : ℕ) : PosShare TreeShare := Transfers.shareTokN fullShare w

/-- What task `w` is handed: its stretch of the index list, a read share of the scaled row, its rows of the result. -/
def goRes (d : Dev nD) (w : ℕ) : sProp 𝕄 :=
  iprop((iLoc d ↦[iBlk w]{fullShare} fi d) ∗ (wLoc d ↦{wTok w} fw d) ∗ (oLoc d ↦[oRows (25600 * w) 25600]{fullShare} fo d))
/-- What it hands back: the same, its rows of the result at the product. -/
def tdRes (d : Dev nD) (w : ℕ) : sProp 𝕄 :=
  iprop((iLoc d ↦[iBlk w]{fullShare} fi d) ∗ (wLoc d ↦{wTok w} fw d) ∗ (oLoc d ↦[oRows (25600 * w) 25600]{fullShare} outSpec d (fw d) (fi d)))

/-- The one call: each SparseCore is handed, and hands back, what its sixteen tasks are; task `i` of SparseCore `c` is
    tile number `2 i + c`. -/
def P : (K (F := F)).Pay (nD := nD) (Val := Elt F) (Name := ℕ) (U := UU) where
  st := fun _ d c => bigSep Finset.univ fun i : Fin ((K (F := F)).nSub 0) => goRes fw fi fo d (2 * i.val + c.val)
  dn := fun _ d c => bigSep Finset.univ fun i : Fin ((K (F := F)).nSub 0) => tdRes fw fi d (2 * i.val + c.val)
  go := fun _ d c i => goRes fw fi fo d (2 * i.val + c.val)
  td := fun _ d c i => tdRes fw fi d (2 * i.val + c.val)
  x := fun _ _ => iprop(emp)

instance goRes_storable (d : Dev nD) (w : ℕ) : BI.Storable (upEmb : UEmb _ 𝕄) (goRes fw fi fo d w) := by unfold goRes; infer_instance
instance tdRes_storable (d : Dev nD) (w : ℕ) : BI.Storable (upEmb : UEmb _ 𝕄) (tdRes fw fi d w) := by unfold tdRes; infer_instance

instance P_storable : (P (F := F) fw fi fo).IsStorable where
  st _ d c := by unfold P; infer_instance
  dn _ d c := by unfold P; infer_instance
  go _ d c i := by unfold P; infer_instance
  td _ d c i := by unfold P; infer_instance

end Pay

end Cert.Proof.KB

end
-- ==== Proof.KBHost.lean ====
/-
  The TensorCore's side of the program. Before the call it computes, in six operations, the scaled row (row 1 of the
  table times the literal, lane by lane) and the index words as one flat list of 819200; after the call it views the
  flat [819200, 512] result as [4096, 200, 512]. Across the call it hands the two SparseCores the whole index list,
  32 read shares of the scaled row (keeping the remainder of the share itself) and the whole flat result, and takes
  them back with the flat result at the product: tile number w = 2 i + c (task i of SparseCore c) owns words
  [25600 w, 25600 w + 25600) of the list and the same rows of the result, and these 32 stretches are disjoint and
  cover both arrays. Read at an entry (b, s, col), the viewed result is row 200 b + s of the flat result at lane col,
  that is (table[1, col] * literal) * value(idx[b, s]): the specification.
-/
import proofs.«206715_g21620865368695_cont_8to1_1569_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Value
import Idealize.ShloMosaic.Lib.Ring
import Idealize.ShloMosaic.Lib.Tactic
import Idealize.ShloMosaic.Lib.Writes
import Idealize.ShloMosaic.Lib.ValueIdx
import proofs.«206715_g21620865368695_cont_8to1_1569_15_alg».proof.Proof.Gen.Kernel
import proofs.«206715_g21620865368695_cont_8to1_1569_15_alg».proof.Proof.Gen.Kernel.Skeleton
import proofs.«206715_g21620865368695_cont_8to1_1569_15_alg».proof.Proof.KBPay
import proofs.«206715_g21620865368695_cont_8to1_1569_15_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo

variable {F : FTy → Type}

local notation "𝕄" => MT nD τ sig (HIx 1) (Elt F) ℕ UU ℕ

/-! ## The TensorCore's side: its ten arrays and its seven operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev cst' : DevRef τ sig := Proc.devRef .tc (main_cst : Ref sig .tc)
abbrev v2' : DevRef τ sig := Proc.devRef .tc (main_v2 : Ref sig .tc)
abbrev w' : DevRef τ sig := Proc.devRef .tc (main_v3 : Ref sig .tc)
abbrev i' : DevRef τ sig := Proc.devRef .tc (main_v4 : Ref sig .tc)
abbrev o' : DevRef τ sig := Proc.devRef .tc (main_v5 : Ref sig .tc)
abbrev r' : DevRef τ sig := Proc.devRef .tc (main_v6 : Ref sig .tc)

section Host

variable [FloatOps F]

/-- Row 1 of the table, as a [1, 512] array. -/
abbrev op0 : HloOp τ sig (Elt F) :=
  StableHlo.unary main_arg1 main_v0 ((extractStridedSlice S1x512 ![1, 0] · slices_S2x512_S1x512_1_0) : (⟨S2x512, .f32⟩ : BufTy).Contents (Elt F) → (⟨S1x512, .f32⟩ : BufTy).Contents (Elt F))
/-- The row as a vector of 512. -/
abbrev op1 : HloOp τ sig (Elt F) := StableHlo.reshape main_v0 main_v1 rfl shapeCasts_S1x512_S512
/-- The literal. -/
abbrev op2 : HloOp τ sig (Elt F) := StableHlo.nullary main_cst (constant S_ .f32 0x41B504F3#32)
/-- The literal spread over 512 lanes. -/
abbrev op3 : HloOp τ sig (Elt F) :=
  StableHlo.unary main_cst main_v2 (broadcastInDim S512 ![] bcast_S_S512 : (⟨S_, .f32⟩ : BufTy).Contents (Elt F) → (⟨S512, .f32⟩ : BufTy).Contents (Elt F))
/-- The scaled row: row 1 times the literal, lane by lane. -/
abbrev op4 : HloOp τ sig (Elt F) :=
  StableHlo.binary main_v1 main_v2 main_v3 (mulf : (⟨S512, .f32⟩ : BufTy).Contents (Elt F) → (⟨S512, .f32⟩ : BufTy).Contents (Elt F) → (⟨S512, .f32⟩ : BufTy).Contents (Elt F))
/-- The index words as one flat list of 819200. -/
abbrev op5 : HloOp τ sig (Elt F) := StableHlo.reshape main_arg0 main_v4 rfl shapeCasts_S4096x200_S819200
/-- The flat result viewed [4096, 200, 512]. -/
abbrev op6 : HloOp τ sig (Elt F) := StableHlo.reshape main_v5 main_v6 rfl shapeCasts_S819200x512_S4096x200x512

/-- The TensorCore's arrays, all unscoped. -/
abbrev S10 : Finset (DevRef τ sig) := {a0', a1', v0', v1', cst', v2', w', i', o', r'}

variable (m : (ℓ : Loc nD τ sig) → Buf (Elt F) ℓ) (ρ : Dev nD → PrngReg)

/-- The launch valuation; the valuation before the call (the six operations' results); after the call (the flat result
    at the product); after the last reshape. -/
def V0 (d : Dev nD) : Valuation τ sig (Elt F) := fun b => m (d, b)
def VF (d : Dev nD) : Valuation τ sig (Elt F) :=
  (op5 (F := F)).result ((op4 (F := F)).result ((op3 (F := F)).result ((op2 (F := F)).result ((op1 (F := F)).result ((op0 (F := F)).result (V0 m d))))))
def VG (d : Dev nD) : Valuation τ sig (Elt F) := Function.update (VF m d) o' (outSpec d (VF m d w') (VF m d i'))
def VH (d : Dev nD) : Valuation τ sig (Elt F) := (op6 (F := F)).result (VG m d)

/-- The families the call's payload is stated at: the scaled row, the flat index list and the flat result as the
    TensorCore holds them before the call. -/
def fwH : (d : Dev nD) → Buf (Elt F) (wLoc d) := fun d => VF m d w'
def fiH : (d : Dev nD) → Buf (Elt F) (iLoc d) := fun d => VF m d i'
def foH : (d : Dev nD) → Buf (Elt F) (oLoc d) := fun d => VF m d o'

/-! ## The values -/

theorem VF_eq_after (d : Dev nD) : VF m d = after [op0 (F := F), op1, op2, op3, op4, op5] (V0 m d) := rfl

/-- The scaled row before the call: lane `col` is entry (1, col) of the table times the literal. -/
theorem VF_w_apply (d : Dev nD) (col : Fin 512) :
    VF m d w' (ix1 col) = FloatOps.mulf (m ((SparseCore.T d).loc main_arg1) (ix2 (1 : Fin 2) col)) (FloatOps.ofBits .f32 0x41B504F3#32) := by
  have e : VF m d w' = mulf (shapeCast S512 (extractStridedSlice S1x512 ![1, 0] (V0 m d a1') slices_S2x512_S1x512_1_0) shapeCasts_S1x512_S512)
      (broadcastInDim S512 ![] bcast_S_S512 (constant S_ .f32 0x41B504F3#32)) := by
    rw [VF_eq_after]; after_results; rfl
  rw [e]
  show FloatOps.mulf (shapeCast S512 (extractStridedSlice S1x512 ![1, 0] (V0 m d a1') slices_S2x512_S1x512_1_0) shapeCasts_S1x512_S512 (ix1 col))
    (FloatOps.ofBits .f32 0x41B504F3#32) = _
  refine congrArg (fun z => FloatOps.mulf z (FloatOps.ofBits .f32 0x41B504F3#32)) ?_
  refine (shapeCast_apply _ shapeCasts_S1x512_S512 (ix1 col) (ix2 (0 : Fin 1) col) (by
    rw [Shape.rowMajor_val_two, Shape.rowMajor_val_one]; show (0 : ℕ) * 512 + col.val = col.val; omega)).trans ?_
  show m ((SparseCore.T d).loc main_arg1) _ = m ((SparseCore.T d).loc main_arg1) _
  exact congrArg (m ((SparseCore.T d).loc main_arg1)) (funext fun a => Fin.ext (by match a with | ⟨0, _⟩ => rfl | ⟨1, _⟩ => simp))

/-- The flat index list before the call: word `200 b + s` is the index word (b, s). -/
theorem VF_i_apply (d : Dev nD) (b : Fin 4096) (s : Fin 200) (r : Fin 819200) (hr : r.val = 200 * b.val + s.val) :
    VF m d i' (ix1 r) = m ((SparseCore.T d).loc main_arg0) (ix2 b s) := by
  have e : VF m d i' = shapeCast S819200 (V0 m d a0') shapeCasts_S4096x200_S819200 := by
    rw [VF_eq_after]; after_results; rfl
  rw [e]
  exact shapeCast_apply _ shapeCasts_S4096x200_S819200 (ix1 r) (ix2 b s) (by
    rw [Shape.rowMajor_val_two, Shape.rowMajor_val_one]; show b.val * 200 + s.val = r.val; omega)

/-- The result after the last reshape is the specification's function of the two argument arrays. -/
theorem VH_eq (d : Dev nD) :
    VH m d r' = Cert.Spec.G (F := F) (m ((SparseCore.T d).loc main_arg0)) (m ((SparseCore.T d).loc main_arg1)) := by
  have e : VH m d r' = shapeCast S4096x200x512 (outSpec d (VF m d w') (VF m d i')) shapeCasts_S819200x512_S4096x200x512 := by
    unfold VH
    rw [reshape_result]
    show (fun i => shapeCast S4096x200x512 (VG m d o') shapeCasts_S819200x512_S4096x200x512 i) = _
    unfold VG
    rw [Function.update_self]
  rw [e]
  funext j
  obtain ⟨b, s, col, rfl⟩ : ∃ (b : Fin 4096) (s : Fin 200) (col : Fin 512), j = ix3 b s col := ⟨j 0, j 1, j 2, eq_ix3 j⟩
  have hlt : 200 * b.val + s.val < 819200 := by
    have h0 : b.val < 4096 := b.isLt
    have h1 : s.val < 200 := s.isLt
    omega
  refine (shapeCast_apply _ shapeCasts_S819200x512_S4096x200x512 (ix3 b s col) (ix2 (⟨200 * b.val + s.val, hlt⟩ : Fin 819200) col) (by
    rw [Shape.rowMajor_val_two, Shape.rowMajor_val_three]
    show (200 * b.val + s.val) * 512 + col.val = (b.val * 200 + s.val) * 512 + col.val
    omega)).trans ?_
  show FloatOps.mulf (VF m d w' (ix1 col)) (FloatOps.sitofp .f32 (VF m d i' (ix1 (⟨200 * b.val + s.val, hlt⟩ : Fin 819200))))
    = FloatOps.mulf (FloatOps.mulf (m ((SparseCore.T d).loc main_arg1) (ix2 (1 : Fin 2) col)) (FloatOps.ofBits .f32 0x41B504F3#32))
        (FloatOps.sitofp .f32 (m ((SparseCore.T d).loc main_arg0) (ix2 b s)))
  rw [VF_w_apply, VF_i_apply m d b s _ rfl]

end Host

/-! ## The partition into the 32 tiles' shares -/

section Part

variable [FloatOps F]

omit [FloatOps F] in
/-- The 32 stretches of the flat index list are pairwise disjoint and cover it. -/
theorem iBlk_disjoint : ∀ t ∈ Finset.range 32, ∀ t' ∈ Finset.range 32, t ≠ t' → Disjoint (iBlk t) (iBlk t') :=
  fun t _ t' _ h => Finset.disjoint_left.mpr fun x h1 h2 => by rw [mem_iBlk] at h1 h2; omega
omit [FloatOps F] in
theorem iBlk_cover : (Finset.range 32).biUnion iBlk = Finset.univ := by
  ext x
  simp only [Finset.mem_biUnion, Finset.mem_range, mem_iBlk, Finset.mem_univ, iff_true]
  have hx : (x 0).val < 819200 := (x 0).isLt
  exact ⟨(x 0).val / 25600, by omega, by omega, by omega⟩
omit [FloatOps F] in
/-- The 32 blocks of 25600 rows of the flat result are pairwise disjoint and cover it. -/
theorem oRows_disjoint : ∀ t ∈ Finset.range 32, ∀ t' ∈ Finset.range 32, t ≠ t' → Disjoint (oRows (25600 * t) 25600) (oRows (25600 * t') 25600) :=
  fun t _ t' _ h => Finset.disjoint_left.mpr fun x h1 h2 => by rw [mem_oRows] at h1 h2; omega
omit [FloatOps F] in
theorem oRows_cover : (Finset.range 32).biUnion (fun w => oRows (25600 * w) 25600) = Finset.univ := by
  ext x
  simp only [Finset.mem_biUnion, Finset.mem_range, mem_oRows, Finset.mem_univ, iff_true]
  have hx : (x 0).val < 819200 := (x 0).isLt
  exact ⟨(x 0).val / 25600, by omega, by omega, by omega⟩

omit [FloatOps F] in
theorem iPts_blks (d : Dev nD) (f : Buf (Elt F) (iLoc d)) :
    (iLoc d ↦{fullShare} f : sProp 𝕄) = bigSep (Finset.range 32) fun w => iLoc d ↦[iBlk w]{fullShare} f := by
  rw [← pointsTo_biUnion (Finset.range 32) (ℓ := iLoc d) iBlk iBlk_disjoint, iBlk_cover]; try rfl
omit [FloatOps F] in
theorem oPts_rows (d : Dev nD) (f : Buf (Elt F) (oLoc d)) :
    (oLoc d ↦{fullShare} f : sProp 𝕄) = bigSep (Finset.range 32) fun w => oLoc d ↦[oRows (25600 * w) 25600]{fullShare} f := by
  rw [← pointsTo_biUnion (Finset.range 32) (ℓ := oLoc d) (fun w => oRows (25600 * w) 25600) oRows_disjoint, oRows_cover]; try rfl

omit [FloatOps F] in
/-- Tile (c, i) is number 2 i + c: the two SparseCores' sixteen tasks each are the 32 tiles. -/
theorem tiles_range (G : ℕ → sProp 𝕄) :
    (bigSep Finset.univ fun c : Fin ((K (F := F)).nCore 0) => bigSep Finset.univ fun i : Fin ((K (F := F)).nSub 0) => G (2 * i.val + c.val))
      = bigSep (Finset.range 32) G := by
  have hfin : ∀ (n : ℕ) (Φ : ℕ → sProp 𝕄), (bigSep Finset.univ fun i : Fin n => Φ i.val) = bigSep (Finset.range n) Φ := by
    intro n Φ
    rw [← Nat.Iio_eq_range, ← Fin.map_valEmbedding_univ, BI.bigSep_map]; rfl
  show (bigSep (Finset.univ : Finset (Fin 2)) fun c => bigSep (Finset.univ : Finset (Fin 16)) fun i => G (2 * i.val + c.val)) = _
  rw [BI.bigSep_fin_two]
  show iprop((bigSep (Finset.univ : Finset (Fin 16)) fun i => (fun k => G (2 * k)) i.val) ∗ (bigSep (Finset.univ : Finset (Fin 16)) fun i => (fun k => G (2 * k + 1)) i.val)) = _
  rw [hfin 16 (fun k => G (2 * k)), hfin 16 (fun k => G (2 * k + 1))]
  exact (Ring.bigSep_range_deinterleave 16 G).symm

variable (m : (ℓ : Loc nD τ sig) → Buf (Elt F) ℓ) (ρ : Dev nD → PrngReg)

/-- What the two SparseCores are handed: the whole index list, the 32 read shares of the scaled row, the whole result. -/
theorem st0_eq (d : Dev nD) :
    (bigSep Finset.univ fun c : Fin ((K (F := F)).nCore 0) => (P (fwH m) (fiH m) (foH m)).st 0 d c)
      = iprop((iLoc d ↦{fullShare} fiH m d) ∗ (bigSep (Finset.range 32) fun w => wLoc d ↦{wTok w} fwH m d) ∗ (oLoc d ↦{fullShare} foH m d)) := by
  show (bigSep Finset.univ fun c : Fin ((K (F := F)).nCore 0) => bigSep Finset.univ fun i : Fin ((K (F := F)).nSub 0) =>
    goRes (fwH m) (fiH m) (foH m) d (2 * i.val + c.val)) = _
  rw [tiles_range (fun w => goRes (fwH m) (fiH m) (foH m) d w)]
  unfold goRes
  rw [bigSep_sep', bigSep_sep', ← iPts_blks, ← oPts_rows]

/-- What they hand back: the same, the result at the product. -/
theorem dn0_eq (d : Dev nD) :
    (bigSep Finset.univ fun c : Fin ((K (F := F)).nCore 0) => (P (fwH m) (fiH m) (foH m)).dn 0 d c)
      = iprop((iLoc d ↦{fullShare} fiH m d) ∗ (bigSep (Finset.range 32) fun w => wLoc d ↦{wTok w} fwH m d)
          ∗ (oLoc d ↦{fullShare} outSpec d (fwH m d) (fiH m d))) := by
  show (bigSep Finset.univ fun c : Fin ((K (F := F)).nCore 0) => bigSep Finset.univ fun i : Fin ((K (F := F)).nSub 0) =>
    tdRes (fwH m) (fiH m) d (2 * i.val + c.val)) = _
  rw [tiles_range (fun w => tdRes (fwH m) (fiH m) d w)]
  unfold tdRes
  rw [bigSep_sep', bigSep_sep', ← iPts_blks, ← oPts_rows]

/-- A SparseCore's share IS its sixteen tasks' shares, and their results are its result. -/
theorem vecSplit : (K (F := F)).VecSplit' (P (fwH m) (fiH m) (foH m)) 0 := by
  intro d c
  show (bigSep Finset.univ fun i : Fin ((K (F := F)).nSub 0) => goRes (fwH m) (fiH m) (foH m) d (2 * i.val + c.val)) ⊢ |={Set.univ}=> iprop(
      (bigSep Finset.univ fun i : Fin ((K (F := F)).nSub 0) => goRes (fwH m) (fiH m) (foH m) d (2 * i.val + c.val))
      ∗ ((bigSep Finset.univ fun i : Fin ((K (F := F)).nSub 0) => tdRes (fwH m) (fiH m) d (2 * i.val + c.val))
          -∗ (bigSep Finset.univ fun i : Fin ((K (F := F)).nSub 0) => tdRes (fwH m) (fiH m) d (2 * i.val + c.val))))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (fwH m) (fiH m) (foH m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) (fwH m) (fiH m) (foH m)).x q thr) = bigSep Finset.univ fun _ => iprop(emp) from
    bigSep_congr fun _ _ => bigSep_univ_of_subsingleton (0 : Fin 1), bigSep_emp']
  iempintro

end Part

/-! ## @main on the TensorCore -/

section Main

variable [FloatOps F]

omit [FloatOps F] in
theorem held_S10 (d : Dev nD) (W : Valuation τ sig (Elt F)) :
    (held (SparseCore.T d) S10 W : sProp 𝕄)
      = iprop(((SparseCore.T d).loc main_arg0 ↦{fullShare} W a0') ∗ ((SparseCore.T d).loc main_arg1 ↦{fullShare} W a1')
          ∗ ((SparseCore.T d).loc main_v0 ↦{fullShare} W v0') ∗ ((SparseCore.T d).loc main_v1 ↦{fullShare} W v1')
          ∗ ((SparseCore.T d).loc main_cst ↦{fullShare} W cst') ∗ ((SparseCore.T d).loc main_v2 ↦{fullShare} W v2')
          ∗ (wLoc d ↦{fullShare} W w') ∗ (iLoc d ↦{fullShare} W i') ∗ (oLoc d ↦{fullShare} W o')
          ∗ (SparseCore.T d).loc main_v6 ↦{fullShare} W r') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
          ∗ ((SparseCore.T d).loc main_v0 ↦{fullShare} W main_v0) ∗ ((SparseCore.T d).loc main_v1 ↦{fullShare} W main_v1)
          ∗ ((SparseCore.T d).loc main_cst ↦{fullShare} W main_cst) ∗ ((SparseCore.T d).loc main_v2 ↦{fullShare} W main_v2)
          ∗ (wLoc d ↦{fullShare} W main_v3) ∗ (iLoc d ↦{fullShare} W main_v4) ∗ (oLoc d ↦{fullShare} W main_v5)
          ∗ (SparseCore.T d).loc main_v6 ↦{fullShare} W main_v6) := by
  unfold unscopedBufs
  rw [show (Finset.univ.filter fun b : Ref sig .tc => ¬ b.isScoped)
      = {main_arg0, main_arg1, main_v0, main_v1, main_cst, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ) (ρ : Dev nD → PrngReg)

theorem unscoped_held (d : Dev nD) :
    (unscopedBufs d (fun b => m ((SparseCore.T d).loc b)) : sProp 𝕄) = held (SparseCore.T d) S10 (V0 m d) := by
  rw [unscopedBufs_eq, held_S10]; rfl

/-- The two argument arrays are written by no operation. -/
theorem VF_a0 (d : Dev nD) : VF m d a0' = m ((SparseCore.T d).loc main_arg0) := by
  rw [VF_eq_after]; after_results; rfl
theorem VF_a1 (d : Dev nD) : VF m d a1' = m ((SparseCore.T d).loc main_arg1) := by
  rw [VF_eq_after]; after_results; rfl

theorem VG_of_ne (d : Dev nD) {x : DevRef τ sig} (h : x ≠ o') : VG m d x = VF m d x := Function.update_of_ne h _ _
theorem VG_o (d : Dev nD) : VG m d o' = outSpec d (fwH m d) (fiH m d) := Function.update_self _ _ _

/-- The ten arrays before the call. -/
theorem held_VF (d : Dev nD) :
    (held (SparseCore.T d) S10 ((op5 (F := F)).result ((op4 (F := F)).result ((op3 (F := F)).result ((op2 (F := F)).result
        ((op1 (F := F)).result ((op0 (F := F)).result (V0 m d)))))) ) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_v0 ↦{fullShare} VF m d v0') ∗ ((SparseCore.T d).loc main_v1 ↦{fullShare} VF m d v1')
          ∗ ((SparseCore.T d).loc main_cst ↦{fullShare} VF m d cst') ∗ ((SparseCore.T d).loc main_v2 ↦{fullShare} VF m d v2')
          ∗ (wLoc d ↦{fullShare} fwH m d) ∗ (iLoc d ↦{fullShare} fiH m d) ∗ (oLoc d ↦{fullShare} foH m d)
          ∗ (SparseCore.T d).loc main_v6 ↦{fullShare} VF m d r') := by
  show held (SparseCore.T d) S10 (VF m d) = _
  rw [held_S10, VF_a0, VF_a1]; rfl

/-- The ten arrays after the call, as the last reshape finds them. -/
theorem held_VG (d : Dev nD) :
    (held (SparseCore.T d) S10 (VG m d) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_v0 ↦{fullShare} VF m d v0') ∗ ((SparseCore.T d).loc main_v1 ↦{fullShare} VF m d v1')
          ∗ ((SparseCore.T d).loc main_cst ↦{fullShare} VF m d cst') ∗ ((SparseCore.T d).loc main_v2 ↦{fullShare} VF m d v2')
          ∗ (wLoc d ↦{fullShare} fwH m d) ∗ (iLoc d ↦{fullShare} fiH m d) ∗ (oLoc d ↦{fullShare} outSpec d (fwH m d) (fiH m d))
          ∗ (SparseCore.T d).loc main_v6 ↦{fullShare} VF m d r') := by
  rw [held_S10, VG_of_ne m d (show a0' ≠ o' by decide), VG_of_ne m d (show a1' ≠ o' by decide), VG_of_ne m d (show v0' ≠ o' by decide),
    VG_of_ne m d (show v1' ≠ o' by decide), VG_of_ne m d (show cst' ≠ o' by decide), VG_of_ne m d (show v2' ≠ o' by decide),
    VG_of_ne m d (show w' ≠ o' by decide), VG_of_ne m d (show i' ≠ o' by decide), VG_o, VG_of_ne m d (show r' ≠ o' by decide), VF_a0, VF_a1]
  rfl

/-- After the last reshape: the two argument arrays at their launch contents, the result array at its value. -/
theorem held_VH (d : Dev nD) :
    (held (SparseCore.T d) S10 ((op6 (F := F)).result (VG m d)) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_v6 ↦{fullShare} VH m d r')
          ∗ held (SparseCore.T d) (S10 \ {a0', a1', r'}) ((op6 (F := F)).result (VG m d))) := by
  unfold held
  rw [show S10 = insert a0' (insert a1' (insert r' (S10 \ {a0', a1', r'}))) by decide, SparseCore.bigSep_insert' (by decide),
    SparseCore.bigSep_insert' (by decide), SparseCore.bigSep_insert' (by decide),
    (op6 (F := F)).result_of_not_mem (VG m d) (b := a0') (show a0' ∉ ({r'} : Finset (DevRef τ sig)) by decide),
    (op6 (F := F)).result_of_not_mem (VG m d) (b := a1') (show a1' ∉ ({r'} : Finset (DevRef τ sig)) by decide),
    VG_of_ne m d (show a0' ≠ o' by decide), VG_of_ne m d (show a1' ≠ o' by decide), VF_a0, VF_a1]
  rfl

theorem h0 : (op0 (F := F)).bufs ⊆ S10 := show ({a1', v0'} : Finset (DevRef τ sig)) ⊆ S10 by decide
theorem h1 : (op1 (F := F)).bufs ⊆ S10 := show ({v0', v1'} : Finset (DevRef τ sig)) ⊆ S10 by decide
theorem h2 : (op2 (F := F)).bufs ⊆ S10 := show ({cst'} : Finset (DevRef τ sig)) ⊆ S10 by decide
theorem h3 : (op3 (F := F)).bufs ⊆ S10 := show ({cst', v2'} : Finset (DevRef τ sig)) ⊆ S10 by decide
theorem h4 : (op4 (F := F)).bufs ⊆ S10 := show ({v1', v2', w'} : Finset (DevRef τ sig)) ⊆ S10 by decide
theorem h5 : (op5 (F := F)).bufs ⊆ S10 := show ({a0', i'} : Finset (DevRef τ sig)) ⊆ S10 by decide
theorem h6 : (op6 (F := F)).bufs ⊆ S10 := show ({o', r'} : Finset (DevRef τ sig)) ⊆ S10 by decide

/-- What @main leaves the claim: the two argument arrays at their launch contents, the result array at its value. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_v6 ↦{fullShare} VH m d r'))

/-- @main on device `d`'s TensorCore: the six operations before the call (over the ten arrays held whole), the call — the
    index list, the 32 read shares of the scaled row and the result array to the two SparseCores and back, the rest of the
    scaled row kept —, the last reshape. -/
theorem hmain (κ : GSem nD τ sig → ℕ) (d : Dev nD) :
    iprop((K (F := F)).ctx EH (P (fwH m) (fiH m) (foH m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op0) (S := S10) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S10) h1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S10) h2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S10) h3
    (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := S10) h4
    (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := op5) (S := S10) h5
    (V := (op4 (F := F)).result ((op3 (F := F)).result ((op2 (F := F)).result ((op1 (F := F)).result ((op0 (F := F)).result (V0 m d))))))) $$ [Hb Hheld]
  · isplitl [Hb] <;> iassumption
  iintro ⟨Hb, Hheld⟩
  rw [wp_ret]; imodintro
  -- the call
  ihave Hh := (Entails.of_eq (held_VF (F := F) m d)) $$ Hheld
  icases Hh with ⟨Ha0, Ha1, Hv0, Hv1, Hcst, Hv2, Hw, Hi, Ho, Hr⟩
  ihave Hw' := (Transfers.pointsTo_toks_range (ℓ := wLoc d) (S := Finset.univ) (f := fwH m d) fullShare 32).1 $$ Hw
  icases Hw' with ⟨Hwk, Hwt⟩
  iapply ((K (F := F)).wp_run (D (F := F)) 𝒱 (EH := EH) (P := P (fwH m) (fiH m) (foH m)) κ d 0) $$ [Hst Hi Hwt Ho Hb Ha0 Ha1 Hv0 Hv1 Hcst Hv2 Hwk Hr]
  isplitr; · iexact Hctx
  isplitl [Hst]; · iexact Hst
  isplitl [Hi Hwt Ho]
  · rw [st0_eq]
    isplitl [Hi]; · iexact Hi
    isplitl [Hwt]; · iexact Hwt
    iexact Ho
  iintro ⟨Hst, Hdn⟩
  ihave Hdn' := (Entails.of_eq (dn0_eq m d)) $$ Hdn
  icases Hdn' with ⟨Hi, Hwt, Ho⟩
  ihave Hw := (Transfers.pointsTo_toks_range (ℓ := wLoc d) (S := Finset.univ) (f := fwH m d) fullShare 32).2 $$ [Hwk Hwt]
  · isplitl [Hwk] <;> iassumption
  -- the last reshape
  iapply (wp_hlo_within 𝒱 (SparseCore.T d) none Set.univ (op := op6) (S := S10) h6 (V := VG m d)) $$ [Hb Ha0 Ha1 Hv0 Hv1 Hcst Hv2 Hw Hi Ho Hr]
  · isplitl [Hb]; · iexact Hb
    rw [held_VG]
    isplitl [Ha0]; · iexact Ha0
    isplitl [Ha1]; · iexact Ha1
    isplitl [Hv0]; · iexact Hv0
    isplitl [Hv1]; · iexact Hv1
    isplitl [Hcst]; · iexact Hcst
    isplitl [Hv2]; · iexact Hv2
    isplitl [Hw]; · iexact Hw
    isplitl [Hi]; · iexact Hi
    isplitl [Ho]; · iexact Ho
    iexact Hr
  iintro ⟨Hb, Hheld⟩
  ihave Hh := (Entails.of_eq (held_VH (F := F) m d)) $$ Hheld
  icases Hh with ⟨Ha0, Ha1, Hr, -⟩
  rw [wp_ret]; imodintro; imodintro
  isplitl [Hst]; · iexact Hst
  isplitl [Ha0]; · iexact Ha0
  isplitl [Ha1]; · iexact Ha1
  iexact Hr

def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v6) = VH m d r'

set_option maxRecDepth 16384 in
theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := (SparseCore.T d).loc main_arg0) (I := Finset.univ) (q := fullShare)
    (f := m ((SparseCore.T d).loc main_arg0)))) $$ [HSI Ha0]
  · isplitl [HSI] <;> iassumption
  icases H with ⟨%h1, HSI, -⟩
  ihave H := (persistent_entails_right (SI_pointsTo_agree (st := s') (ℓ := (SparseCore.T d).loc main_arg1) (I := Finset.univ) (q := fullShare)
    (f := m ((SparseCore.T d).loc main_arg1)))) $$ [HSI Ha1]
  · isplitl [HSI] <;> iassumption
  icases H with ⟨%h2, HSI, -⟩
  ihave H := (SI_pointsTo_agree (st := s') (ℓ := (SparseCore.T d).loc main_v6) (I := Finset.univ) (q := fullShare) (f := VH m d r')) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The claim's post for this program: the result array is the specification's function of the two argument arrays,
    which end unchanged. -/
def QC : PUnit × MemSt nD τ sig (Elt F) → Prop := fun r => ∀ c : Dev nD,
  r.2.mem ((c.tc : Thread nD τ).loc main_v6)
      = Cert.Spec.G (F := F) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)

/-- The whole program's run, given the tile's obligation: every weakly fair execution terminates, nothing faulting, in a
    state where the result array is the specification and the argument arrays are unchanged. -/
theorem run_main [∀ e, Nonempty (Elt F e)]
    (tileObl : (K (F := F)).TileObl (D (F := F)) 𝒱 (P (fwH m) (fiH m) (foH m)) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (fwH m) (fiH m) (foH m)) facts v₀
    (fun q hq => match q with | 0 => nomatch hq)
    (fun q _ => match q with | 0 => tileObl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2.trans (VH_eq m c), (h c).1, (h c).2.1⟩)

end Main

end Cert.Proof.KB

end
-- ==== Proof.KBObl.lean ====
/-
  The tile obligation from the tile's body. The launch asks, for each task i of SparseCore c, that the kernel's body
  run at that processor from the task's share to the task's result; the body is stated at a grid point L. The task
  (c, i) is the grid point with coordinates (c, i), whose tile number 2 i + c is the one its share is stated at, so
  the body's statement at that point is the obligation, once the program found in the body table at that processor
  is unfolded to the kernel at those coordinates.
-/
import proofs.«206715_g21620865368695_cont_8to1_1569_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Value
import Idealize.ShloMosaic.Lib.Ring
import Idealize.ShloMosaic.Lib.Tactic
import Idealize.ShloMosaic.Lib.Writes
import Idealize.ShloMosaic.Lib.ValueIdx
import proofs.«206715_g21620865368695_cont_8to1_1569_15_alg».proof.Proof.Gen.Kernel
import proofs.«206715_g21620865368695_cont_8to1_1569_15_alg».proof.Proof.Gen.Kernel.Skeleton
import proofs.«206715_g21620865368695_cont_8to1_1569_15_alg».proof.Proof.KBHost

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo

variable {F : FTy → Type}

local notation "𝕄" => MT nD τ sig (HIx 1) (Elt F) ℕ UU ℕ

local notation "wV" => (Memref.whole Cert.Kernel.main_v3_scv : Memref Cert.Kernel.sig Kind.scVector Space.hbm Cert.Kernel.S512 EltTy.f32)
local notation "iV" => (Memref.whole Cert.Kernel.main_v4_scv : Memref Cert.Kernel.sig Kind.scVector Space.hbm Cert.Kernel.S819200 EltTy.i32)
local notation "oV" => (Memref.whole Cert.Kernel.main_v5_scv : Memref Cert.Kernel.sig Kind.scVector Space.hbm Cert.Kernel.S819200x512 EltTy.f32)
local notation "rawV" => (Memref.whole Cert.Kernel.cc0_scratch0 : Memref Cert.Kernel.sig Kind.scVector Space.vmem Cert.Kernel.S25600 EltTy.i32)
local notation "wvV" => (Memref.whole Cert.Kernel.cc0_scratch1 : Memref Cert.Kernel.sig Kind.scVector Space.vmem Cert.Kernel.S512 EltTy.f32)
local notation "r0V" => (Memref.whole Cert.Kernel.cc0_scratch2 : Memref Cert.Kernel.sig Kind.scVector Space.vmem Cert.Kernel.S64x512 EltTy.f32)
local notation "r1V" => (Memref.whole Cert.Kernel.cc0_scratch3 : Memref Cert.Kernel.sig Kind.scVector Space.vmem Cert.Kernel.S64x512 EltTy.f32)

section Obl

variable [FloatOps F]
variable (fw : (d : Dev nD) → Buf (Elt F) (wLoc d)) (fi : (d : Dev nD) → Buf (Elt F) (iLoc d)) (fo : (d : Dev nD) → Buf (Elt F) (oLoc d))

/-- The kernel's body at every grid point: from the tile's share — its stretch of the index list, a read share of the
    scaled row, its rows of the result — to the same with its rows at the product. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes fw fi fo d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L wV (Memref.isWhole_whole _) iV (Memref.isWhole_whole _) oV (Memref.isWhole_whole _)
            rawV (Memref.isWhole_whole _) wvV (Memref.isWhole_whole _) r0V (Memref.isWhole_whole _) r1V (Memref.isWhole_whole _)
            cc0_scratch4 cc0_scratch5 cc0_scoped0 cc0_scoped1)
          fun _ => iprop(tdRes fw fi d (widL L) ∗ scopedBufs (V d (cV L) (jV L)) ∗ scopedSems0 (V d (cV L) (jV L))
            ∗ ∃ W', ⌜∀ p ∈ W', p ∈ W ∨ p.2 = none⌝ ∗ owes (V d (cV L) (jV L)) O W')

omit [FloatOps F] in
/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The body table at a vector subcore is the kernel at that processor's coordinates, on the whole arrays and its scratch. -/
theorem defs₀_vector (c : Fin τ.nSC) (s : Fin τ.nSub) :
    defs₀ (F := F) (.scVector c s) 0 ()
      = SparseCore.onTile hcore0 hsub0 (fun c s => cc0__sc_body (coordsV c s)
          wV (Memref.isWhole_whole _) iV (Memref.isWhole_whole _) oV (Memref.isWhole_whole _)
          rawV (Memref.isWhole_whole _) wvV (Memref.isWhole_whole _) r0V (Memref.isWhole_whole _) r1V (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch's obligation for the one call, from the body. -/
theorem tileObl_of_body (hb : TileBody fw fi fo) : (K (F := F)).TileObl (D (F := F)) 𝒱 (P fw fi fo) v₀ 0 := by
  intro d c i O W hO _ _
  simp only [show (P fw fi fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hb d (coordsV ⟨_, hci.1⟩ ⟨_, hci.2⟩) O W hO).trans (wp_mono frame _ _ fun _ => obl_post)

end Obl

section Run

variable [FloatOps F] (m : (ℓ : Loc nD τ sig) → Buf (Elt F) ℓ) (ρ : Dev nD → PrngReg)

/-- The whole program's run from the body: the result array is the specification, the argument arrays unchanged. -/
theorem run_of_body [∀ e, Nonempty (Elt F e)] (hb : TileBody (fwH m) (fiH m) (foH m)) :
    θ_run (Cert.Kernel.defs (F := F)) (Cert.Kernel.threads (F := F)) ⟨m, fun _ => 0, ρ⟩ (QC m) :=
  run_main m ρ (tileObl_of_body (fwH m) (fiH m) (foH m) hb)

/-- The frame from the body: the same run, the result's value dropped. -/
theorem frame_of_body [∀ e, Nonempty (Elt F e)] (hb : TileBody (fwH m) (fiH m) (foH m)) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.Kernel.defs _ _).mono (fun _ h c => (h c).2) (run_of_body m ρ hb)

end Run

end Cert.Proof.KB

end
-- ==== Proof.KBClaims.lean ====
/-
  The word-level kernel's frame, from its body: its run with the result's value dropped.
-/
import proofs.«206715_g21620865368695_cont_8to1_1569_15_alg».proof.Defs
import proofs.«206715_g21620865368695_cont_8to1_1569_15_alg».proof.Proof.KBObl
import proofs.«206715_g21620865368695_cont_8to1_1569_15_alg».proof.Proof.Gen.Pre_input_domain

noncomputable section

namespace Cert.Proof.KB

open Idealize.ShloMosaic Idealize.SL.Sem

/-- `Cert.frame_Kernel` (Defs.lean), from the body. -/
theorem frame_Kernel_of_body
    (hb : ∀ m : (ℓ : Loc Cert.Kernel.nD Cert.Kernel.τ Cert.Kernel.sig) → Buf (Elt Bits) ℓ,
      TileBody (F := Bits) (fwH m) (fiH m) (foH m)) :
    Cert.frame_Kernel (hKernel := Cert.Kernel.Gen.facts) (hPre_input_domain := Cert.Pre_input_domain.Gen.facts) :=
  fun m g _ => frame_of_body (F := Bits) m g (hb m)

end Cert.Proof.KB

end
-- ==== Proof.KITile.lean ====
import proofs.«206715_g21620865368695_cont_8to1_1569_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Writes
import Idealize.ShloMosaic.Lib.ValueIdx
import proofs.«206715_g21620865368695_cont_8to1_1569_15_alg».proof.Proof.Gen.KernelIdeal
import proofs.«206715_g21620865368695_cont_8to1_1569_15_alg».proof.Proof.Gen.KernelIdeal.Skeleton
import proofs.«206715_g21620865368695_cont_8to1_1569_15_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "wV" => (Memref.whole Cert.KernelIdeal.main_v3_scv : Memref Cert.KernelIdeal.sig Kind.scVector Space.hbm Cert.KernelIdeal.S512 EltTy.f32)
local notation "iV" => (Memref.whole Cert.KernelIdeal.main_v4_scv : Memref Cert.KernelIdeal.sig Kind.scVector Space.hbm Cert.KernelIdeal.S819200 EltTy.i32)
local notation "oV" => (Memref.whole Cert.KernelIdeal.main_v5_scv : Memref Cert.KernelIdeal.sig Kind.scVector Space.hbm Cert.KernelIdeal.S819200x512 EltTy.f32)
local notation "rawV" => (Memref.whole Cert.KernelIdeal.cc0_scratch0 : Memref Cert.KernelIdeal.sig Kind.scVector Space.vmem Cert.KernelIdeal.S25600 EltTy.i32)
local notation "wvV" => (Memref.whole Cert.KernelIdeal.cc0_scratch1 : Memref Cert.KernelIdeal.sig Kind.scVector Space.vmem Cert.KernelIdeal.S512 EltTy.f32)
local notation "r0V" => (Memref.whole Cert.KernelIdeal.cc0_scratch2 : Memref Cert.KernelIdeal.sig Kind.scVector Space.vmem Cert.KernelIdeal.S64x512 EltTy.f32)
local notation "r1V" => (Memref.whole Cert.KernelIdeal.cc0_scratch3 : Memref Cert.KernelIdeal.sig Kind.scVector Space.vmem Cert.KernelIdeal.S64x512 EltTy.f32)

section Tile

variable [FloatOps F] (d : Dev nD) (L : grid0.Coords)

/-! ## What a filled row buffer holds -/

/-- Word `n` of the index scratch (word 0 past its end, never read). -/
def rawN (rawc : S25600.Idx → Elt F .i32) (n : ℕ) : Elt F .i32 :=
  if h : n < 25600 then rawc (ix1 (⟨n, h⟩ : Fin 25600)) else rawc (ix1 (⟨0, by decide⟩ : Fin 25600))

/-- Entry (r, col) of the row buffer filled for the 64 index words from word `cb` on: lane `col` of the scaled row
    times the signed value of word `cb + r`. -/
def rowG (wvc : S512.Idx → Elt F .f32) (rawc : S25600.Idx → Elt F .i32) (cb : ℕ) : S64x512.Idx → Elt F .f32 :=
  fun y => FloatOps.mulf (wvc (ix1 (y 1))) (FloatOps.sitofp .f32 (rawN rawc (cb + (y 0).val)))

theorem rowG_hG (wvc : S512.Idx → Elt F .f32) (rawc : S25600.Idx → Elt F .i32) (cb k : ℕ) (roff : Fin 1 → ℕ)
    (h : ∀ a, roff a + S16.size a ≤ S25600.size a) (hroff : roff 0 = cb + 16 * k) :
    ∀ (l : Fin 16) (m : Fin 32) (j : Fin 16) (y : S64x512.Idx), (y 0).val = 16 * k + l.val → (y 1).val = 16 * m.val + j.val →
      rowG wvc rawc cb y = FloatOps.mulf (wA wvc m (ix1 j)) (xvOf rawc roff h (ix1 l)) := by
  intro l m j y h0 h1
  rw [wA_apply, xvOf_apply]
  unfold rowG rawN
  have hlt : cb + (y 0).val < 25600 := by have := h 0; simp at this; omega
  rw [dif_pos hlt]
  have e1 : (y 1) = (⟨16 * m.val + j.val, by omega⟩ : Fin 512) := Fin.ext h1
  have e2 : (⟨cb + (y 0).val, hlt⟩ : Fin 25600) = ⟨roff 0 + l.val, by omega⟩ := Fin.ext (by simp; omega)
  rw [e1, e2]

/-- The first `16 k` rows of a row buffer hold what the fill computes. -/
def RowsDone {sg : RefSig} {κ : Kind} {sp : Space} (v : View sg κ sp S64x512 .f32) (wvc : S512.Idx → Elt F .f32) (rawc : S25600.Idx → Elt F .i32) (cb k : ℕ)
    (f : v.ty.Contents (Elt F)) : Prop :=
  ∀ y : S64x512.Idx, (y 0).val < 16 * k → v.read (Elt F) f y = rowG wvc rawc cb y

theorem rowsDone_zero {sg : RefSig} {κ : Kind} {sp : Space} (v : View sg κ sp S64x512 .f32) (wvc : S512.Idx → Elt F .f32) (rawc : S25600.Idx → Elt F .i32) (cb : ℕ)
    (f : v.ty.Contents (Elt F)) : RowsDone v wvc rawc cb 0 f := fun y h => absurd h (by omega)

/-- One trip of a fill loop takes `RowsDone k` to `RowsDone (k + 1)`. -/
theorem rowsDone_step {sg : RefSig} {κ : Kind} {sp : Space} (v : View sg κ sp S64x512 .f32) (wvc : S512.Idx → Elt F .f32) (rawc : S25600.Idx → Elt F .i32) (cb k : ℕ)
    (off : Fin 16 → Fin 32 → (Fin 2 → Nat)) (hinb : ∀ l m a, off l m a + S1x16.size a ≤ S64x512.size a)
    (hoff : ∀ l m, off l m = ![16 * k + l.val, 16 * m.val])
    (roff : Fin 1 → ℕ) (h : ∀ a, roff a + S16.size a ≤ S25600.size a) (hroff : roff 0 = cb + 16 * k)
    (f : v.ty.Contents (Elt F)) (hf : RowsDone v wvc rawc cb k f) :
    RowsDone v wvc rawc cb (k + 1) (v.writes (Elt F) f (allPieces off hinb (wA wvc) (xvOf rawc roff h) 16 le_rfl)) :=
  fill_step off hinb (wA wvc) (xvOf rawc roff h) v k hoff (rowG wvc rawc cb) (rowG_hG wvc rawc cb k roff h hroff) f hf

/-! ## The fill loops' invariants -/

/-- Before trip `k` of a fill of row buffer 0: the index scratch as it stands, the buffer's first `16 k` rows filled. -/
def invFill0 (wvc : S512.Idx → Elt F .f32) (rawc : S25600.Idx → Elt F .i32) (cb : ℕ) (k : Nat) (_ : PUnit) : sProp 𝕄 :=
  iprop(((rawV).view.loc (V d (cV L) (jV L)) ↦{fullShare} rawc)
    ∗ ∃ f, ((r0V).view.loc (V d (cV L) (jV L)) ↦{fullShare} f) ∗ ⌜RowsDone (r0V).view wvc rawc cb k f⌝)
/-- The same for row buffer 1. -/
def invFill1 (wvc : S512.Idx → Elt F .f32) (rawc : S25600.Idx → Elt F .i32) (cb : ℕ) (k : Nat) (_ : PUnit) : sProp 𝕄 :=
  iprop(((rawV).view.loc (V d (cV L) (jV L)) ↦{fullShare} rawc)
    ∗ ∃ f, ((r1V).view.loc (V d (cV L) (jV L)) ↦{fullShare} f) ∗ ⌜RowsDone (r1V).view wvc rawc cb k f⌝)

omit [FloatOps F] in
theorem trips1 : k0_t1_loop.trips = 4 := by decide +kernel
omit [FloatOps F] in
theorem trips2 : k0_t2_loop.trips = 4 := by decide +kernel
omit [FloatOps F] in
theorem trips4 : k0_t4_loop.trips = 4 := by decide +kernel
omit [FloatOps F] in
theorem trips5 : k0_t5_loop.trips = 4 := by decide +kernel

omit [FloatOps F] in
theorem inb35_0 (L : grid0.Coords) : ∀ a, (k0_off35 L 0#32) a + S64x512.size a ≤ S819200x512.size a := k0_off35_inb L 0
omit [FloatOps F] in
theorem inb35_1 (L : grid0.Coords) : ∀ a, (k0_off35 L 64#32) a + S64x512.size a ≤ S819200x512.size a := k0_off35_inb L 1
omit [FloatOps F] in
theorem inb35_2 (L : grid0.Coords) : ∀ a, (k0_off35 L 25472#32) a + S64x512.size a ≤ S819200x512.size a := k0_off35_inb L 2
omit [FloatOps F] in
theorem inb35_3 (L : grid0.Coords) : ∀ a, (k0_off35 L 25536#32) a + S64x512.size a ≤ S819200x512.size a := k0_off35_inb L 3

omit [FloatOps F] in
/-- A 64-row block of the result addressed at a closed offset is those rows. -/
theorem set_oSl' (off : Fin 2 → ℕ) (h : ∀ a, off a + S64x512.size a ≤ S819200x512.size a) (b : ℕ) (e : off = ![b, 0]) :
    (oSl off h).view.set = oRows b 64 := by
  subst e
  exact set_oSl _ h rfl

variable (fw : Buf (Elt F) (wLoc d)) (fi : Buf (Elt F) (iLoc d)) (fo : Buf (Elt F) (oLoc d))

/-! ## A copied-out block is the product on its rows -/

theorem rawN_of_lt (rawc : S25600.Idx → Elt F .i32) (n : ℕ) (h : n < 25600) : rawN rawc n = rawc (ix1 (⟨n, h⟩ : Fin 25600)) := by
  unfold rawN; rw [dif_pos h]

/-- 64 rows of the result written whole with a filled row buffer's contents are the product there. -/
theorem chunk_eq (off : Fin 2 → ℕ) (h : ∀ a, off a + S64x512.size a ≤ S819200x512.size a) (b c : ℕ) (e : off = ![b + 64 * c, 0])
    (hb : b + 25600 ≤ 819200) (hc : 64 * c + 64 ≤ 25600)
    (wvc : S512.Idx → Elt F .f32) (rawc : S25600.Idx → Elt F .i32) (hw : ∀ j, wvc j = fw j)
    (hr : ∀ (n : ℕ) (hn : n < 25600), rawc (ix1 (⟨n, hn⟩ : Fin 25600)) = fi (ix1 (⟨b + n, by omega⟩ : Fin 819200)))
    (pay : S64x512.Idx → Elt F .f32) (hpay : ∀ y, pay y = rowG wvc rawc (64 * c) y) (g0 : Buf (Elt F) (oLoc d)) :
    ((oSl off h).view.loc (V d (cV L) (jV L)) ↦[(oSl off h).view.set]{fullShare} (oSl off h).view.writes (Elt F) g0 [⟨Rect.whole S64x512, pay⟩] : sProp 𝕄)
      = oLoc d ↦[oRows (b + 64 * c) 64]{fullShare} outSpec d fw fi := by
  subst e
  rw [set_oSl' _ h _ rfl]
  show (oLoc d ↦[oRows (b + 64 * c) 64]{fullShare} _ : sProp 𝕄) = _
  refine pointsTo_congr fun i hi => ?_
  rw [mem_oRows] at hi
  have h0 : (i 0).val - (b + 64 * c) < 64 := by omega
  have h1 : (i 1).val < 512 := (i 1).isLt
  obtain ⟨y, hy0, hy1⟩ : ∃ y : S64x512.Idx, (y 0).val = (i 0).val - (b + 64 * c) ∧ (y 1).val = (i 1).val :=
    ⟨ix2 (⟨(i 0).val - (b + 64 * c), h0⟩ : Fin 64) (⟨(i 1).val, h1⟩ : Fin 512), rfl, rfl⟩
  have hy : (oSl ![b + 64 * c, 0] h).view.emb y = i := by
    funext a; apply Fin.ext
    show ((Rect.unit (s := S819200x512) ![b + 64 * c, 0] S64x512.size h).emb y a : ℕ) = _
    rw [Rect.emb_apply, Rect.off_unit, Rect.stride_unit]
    match a with
    | ⟨0, _⟩ => show (b + 64 * c) + 1 * (y 0).val = (i 0).val; omega
    | ⟨1, _⟩ => show 0 + 1 * (y 1).val = (i 1).val; omega
  have hread : ((oSl ![b + 64 * c, 0] h).view.writes (Elt F) g0 [⟨Rect.whole S64x512, pay⟩]) ((oSl ![b + 64 * c, 0] h).view.emb y)
      = (oSl ![b + 64 * c, 0] h).view.read (Elt F) ((oSl ![b + 64 * c, 0] h).view.writes (Elt F) g0 [⟨Rect.whole S64x512, pay⟩]) y :=
    ((View.read_apply _ _).trans (cast_eq _ _)).symm
  have hpc : (oSl ![b + 64 * c, 0] h).view.read (Elt F) ((oSl ![b + 64 * c, 0] h).view.writes (Elt F) g0 [⟨Rect.whole S64x512, pay⟩]) y = pay y :=
    View.read_writes_apply_of_pieces (v := (oSl ![b + 64 * c, 0] h).view) (f := g0) pay [⟨Rect.whole S64x512, pay⟩]
      (by intro p hp x; rw [List.mem_singleton] at hp; subst hp; show pay x = pay ((Rect.whole S64x512).emb x); rw [Rect.emb_whole_apply])
      y ⟨_, List.mem_singleton_self _, by rw [Rect.set_whole]; exact Finset.mem_univ _⟩
  rw [← hy, hread, hpc, hpay, hy]
  unfold rowG outSpec
  have hlt : 64 * c + (y 0).val < 25600 := by omega
  rw [rawN_of_lt _ _ hlt, hr _ hlt, hw]
  have e1 : (ix1 (y 1) : S512.Idx) = ix1 (i 1) := by funext a; match a with | ⟨0, _⟩ => exact Fin.ext hy1
  have e0 : (ix1 (⟨b + (64 * c + (y 0).val), by omega⟩ : Fin 819200) : S819200.Idx) = ix1 (i 0) := by
    funext a; match a with | ⟨0, _⟩ => exact Fin.ext (by show b + (64 * c + (y 0).val) = (i 0).val; omega)
  rw [e1, e0]
  rfl

/-! ## The copy-out loop's invariant -/

/-- Block `c` of the tile's rows is on its way out of row buffer 0. -/
def flightA (wvc : S512.Idx → Elt F .f32) (rawc : S25600.Idx → Elt F .i32) (fo : Buf (Elt F) (oLoc d)) (c : ℕ) : sProp 𝕄 :=
  iprop(∃ (off : Fin 2 → ℕ) (h : ∀ a, off a + S64x512.size a ≤ S819200x512.size a)
      (f0 : Buf (Elt F) ((r0V).view.loc (V d (cV L) (jV L)))) (pay : S64x512.Idx → Elt F .f32),
    ⌜off = ![25600 * widL L + 64 * c, 0] ∧ ∀ y, pay y = rowG wvc rawc (64 * c) y⌝
    ∗ Transfers.Flight countersEmb (V d (cV L) (jV L)) (SemLoc.dma (SemArray.sem cc0_scratch4)) (default : HIx 1) 1048576
        iprop(((oSl off h).view.loc (V d (cV L) (jV L)) ↦[(oSl off h).view.set]{fullShare}
              (oSl off h).view.writes (Elt F) fo [⟨Rect.whole S64x512, pay⟩])
          ∗ ((r0V).view.loc (V d (cV L) (jV L)) ↦[(r0V).view.set]{fullShare} f0))
    ∗ ((r0V).view.loc (V d (cV L) (jV L)) ↦[Finset.univ \ (r0V).view.set]{fullShare} f0))

/-- Block `c` of the tile's rows is on its way out of row buffer 1. -/
def flightB (wvc : S512.Idx → Elt F .f32) (rawc : S25600.Idx → Elt F .i32) (fo : Buf (Elt F) (oLoc d)) (c : ℕ) : sProp 𝕄 :=
  iprop(∃ (off : Fin 2 → ℕ) (h : ∀ a, off a + S64x512.size a ≤ S819200x512.size a)
      (f0 : Buf (Elt F) ((r1V).view.loc (V d (cV L) (jV L)))) (pay : S64x512.Idx → Elt F .f32),
    ⌜off = ![25600 * widL L + 64 * c, 0] ∧ ∀ y, pay y = rowG wvc rawc (64 * c) y⌝
    ∗ Transfers.Flight countersEmb (V d (cV L) (jV L)) (SemLoc.dma (SemArray.sem cc0_scratch5)) (default : HIx 1) 1048576
        iprop(((oSl off h).view.loc (V d (cV L) (jV L)) ↦[(oSl off h).view.set]{fullShare}
              (oSl off h).view.writes (Elt F) fo [⟨Rect.whole S64x512, pay⟩])
          ∗ ((r1V).view.loc (V d (cV L) (jV L)) ↦[(r1V).view.set]{fullShare} f0))
    ∗ ((r1V).view.loc (V d (cV L) (jV L)) ↦[Finset.univ \ (r1V).view.set]{fullShare} f0))

/-- Before trip `j` of the copy-out loop (`J = min j 199`): blocks `2 J` and `2 J + 1` in flight, the rows of the blocks
    before them at the product, the rows after them as they were. -/
def inv3 (wvc : S512.Idx → Elt F .f32) (rawc : S25600.Idx → Elt F .i32) (fw : Buf (Elt F) (wLoc d)) (fi : Buf (Elt F) (iLoc d))
    (fo : Buf (Elt F) (oLoc d)) (O : CellTallies nD τ sig (HIx 1)) (W : Waits sig (HIx 1)) (j : Nat) (_ : PUnit) : sProp 𝕄 :=
  iprop(Transfers.MayWaits (V d (cV L) (jV L)) (default : HIx 1) O
    ∗ ((rawV).view.loc (V d (cV L) (jV L)) ↦{fullShare} rawc)
    ∗ flightA d L wvc rawc fo (2 * min j 199)
    ∗ flightB d L wvc rawc fo (2 * min j 199 + 1)
    ∗ (oLoc d ↦[oRows (25600 * widL L) (128 * min j 199)]{fullShare} outSpec d fw fi)
    ∗ (oLoc d ↦[oRows (25600 * widL L + 128 * min j 199 + 128) (25472 - 128 * min j 199)]{fullShare} fo)
    ∗ ∃ W', ⌜∀ p ∈ W', p ∈ W ∨ p.2 = none⌝ ∗ owes (V d (cV L) (jV L)) O W')

omit [FloatOps F] in
theorem pts_rows_cast (b b' n n' : ℕ) (hb : b = b') (hn : n = n') (f : Buf (Elt F) (oLoc d)) :
    (oLoc d ↦[oRows b n]{fullShare} f : sProp 𝕄) = oLoc d ↦[oRows b' n']{fullShare} f := by subst hb; subst hn; rfl
omit [FloatOps F] in
theorem oRows_zero (b : ℕ) : oRows b 0 = ∅ := by ext x; simp [mem_oRows]
omit [FloatOps F] in
theorem trips3' : Scf.trips k0_t3_loop.lb k0_t3_loop.ub k0_t3_loop.st = 200 := by decide +kernel
omit [FloatOps F] in
theorem trips1' : Scf.trips k0_t1_loop.lb k0_t1_loop.ub k0_t1_loop.st = 4 := by decide +kernel
omit [FloatOps F] in
theorem trips2' : Scf.trips k0_t2_loop.lb k0_t2_loop.ub k0_t2_loop.st = 4 := by decide +kernel
omit [FloatOps F] in
theorem trips4' : Scf.trips k0_t4_loop.lb k0_t4_loop.ub k0_t4_loop.st = 4 := by decide +kernel
omit [FloatOps F] in
theorem trips5' : Scf.trips k0_t5_loop.lb k0_t5_loop.ub k0_t5_loop.st = 4 := by decide +kernel

/-- A filled row buffer read whole is the fill's function. -/
theorem pay_of_done {sg : RefSig} {κ : Kind} {sp : Space} (v : View sg κ sp S64x512 .f32) (wvc : S512.Idx → Elt F .f32) (rawc : S25600.Idx → Elt F .i32)
    (cb cb' n : ℕ) (hn : n = 4) (hcb : cb' = cb) (f : v.ty.Contents (Elt F)) (hf : RowsDone v wvc rawc cb n f) :
    ∀ y, ReadAs.same.apply (v.read (Elt F) f) y = rowG wvc rawc cb' y := by
  subst hn; subst hcb
  intro y
  have hy : (y 0).val < 64 := (y 0).isLt
  exact hf y (by omega)

set_option maxHeartbeats 8000000 in
theorem tile_body (hF : (K (F := F)).Facts) (O : CellTallies nD τ sig (HIx 1)) (W : Waits sig (HIx 1)) (hO : ∀ g, O g none = 0)
    (q : PosShare TreeShare) :
    iprop(levAts (K (F := F)).L (K (F := F)).lev ∗ emp
        ∗ ((iLoc d ↦[iBlk (widL L)]{fullShare} fi : sProp 𝕄) ∗ (wLoc d ↦{q} fw) ∗ (oLoc d ↦[oRows (25600 * widL L) 25600]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L wV (Memref.isWhole_whole _) iV (Memref.isWhole_whole _) oV (Memref.isWhole_whole _)
            rawV (Memref.isWhole_whole _) wvV (Memref.isWhole_whole _) r0V (Memref.isWhole_whole _) r1V (Memref.isWhole_whole _)
            cc0_scratch4 cc0_scratch5 cc0_scoped0 cc0_scoped1)
          fun _ => iprop(((iLoc d ↦[iBlk (widL L)]{fullShare} fi : sProp 𝕄) ∗ (wLoc d ↦{q} fw) ∗ (oLoc d ↦[oRows (25600 * widL L) 25600]{fullShare} outSpec d fw fi))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hi, Hw, Ho⟩, ⟨⟨%fraw, Hraw⟩, ⟨%fwv, Hwv⟩, ⟨%fr0, Hr0⟩, ⟨%fr1, Hr1⟩, Hbufs⟩, ⟨HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iSl (F := F) d L _).symm) $$ Hi
  ihave Hw' := (Entails.of_eq (pts_wV (F := F) d L _ _).symm) $$ Hw
  ihave Hraw' := (Entails.of_eq (show ((V d (cV L) (jV L)).loc cc0_scratch0 ↦{fullShare} fraw : sProp 𝕄) = (rawV).view.loc (V d (cV L) (jV L)) ↦{fullShare} fraw from rfl)) $$ Hraw
  ihave Hwv' := (Entails.of_eq (show ((V d (cV L) (jV L)).loc cc0_scratch1 ↦{fullShare} fwv : sProp 𝕄) = (wvV).view.loc (V d (cV L) (jV L)) ↦{fullShare} fwv from rfl)) $$ Hwv
  ihave Hr0' := (Entails.of_eq (show ((V d (cV L) (jV L)).loc cc0_scratch2 ↦{fullShare} fr0 : sProp 𝕄) = (r0V).view.loc (V d (cV L) (jV L)) ↦{fullShare} fr0 from rfl)) $$ Hr0
  ihave Hr1' := (Entails.of_eq (show ((V d (cV L) (jV L)).loc cc0_scratch3 ↦{fullShare} fr1 : sProp 𝕄) = (r1V).view.loc (V d (cV L) (jV L)) ↦{fullShare} fr1 from rfl)) $$ Hr1
  -- the first two 64-row blocks of the tile's rows, as the task will address them
  ihave Ho2 := (pts_rows_split (F := F) d (25600 * widL L) 64 (64 + 25472) (fo)).1 $$ Ho
  icases Ho2 with ⟨Hc0, Ho2⟩
  ihave Ho3 := (pts_rows_split (F := F) d (25600 * widL L + 64) 64 25472 (fo)).1 $$ Ho2
  icases Ho3 with ⟨Hc1, Hpend⟩
  have hs0 : (oSl (k0_off35 L 0#32) (inb35_0 L)).view.set = oRows (25600 * widL L) 64 :=
    set_oSl' _ _ _ (by rw [off35_0]; unfold widL; congr 1; omega)
  have hs1 : (oSl (k0_off35 L 64#32) (inb35_1 L)).view.set = oRows (25600 * widL L + 64) 64 :=
    set_oSl' _ _ _ (by rw [off35_1]; unfold widL; congr 1; omega)
  ihave Hc0' := (Entails.of_eq (show (oLoc d ↦[oRows (25600 * widL L) 64]{fullShare} fo : sProp 𝕄)
      = (oSl (k0_off35 L 0#32) (inb35_0 L)).view.loc (V d (cV L) (jV L)) ↦[(oSl (k0_off35 L 0#32) (inb35_0 L)).view.set]{fullShare} fo by rw [hs0])) $$ Hc0
  ihave Hc1' := (Entails.of_eq (show (oLoc d ↦[oRows (25600 * widL L + 64) 64]{fullShare} fo : sProp 𝕄)
      = (oSl (k0_off35 L 64#32) (inb35_1 L)).view.loc (V d (cV L) (jV L)) ↦[(oSl (k0_off35 L 64#32) (inb35_1 L)).view.set]{fullShare} fo by rw [hs1])) $$ Hc1
  sl_exec_parts
  have hL1 : (L 1).val < 16 := (L 1).isLt
  have hL0 : (L 0).val < 2 := (L 0).isLt
  have hwv : ∀ j, (View.write (Elt F) (wvV).view fwv (tile_body.sl.dma0_1 d fw) Finset.univ) j = fw j := by
    intro j
    show ((View.whole (cc0_scratch1 : Ref sig .scVector)).write (Elt F) fwv (tile_body.sl.dma0_1 d fw) Finset.univ) j = _
    rw [View.write_whole_univ]; rfl
  have hraw : ∀ (n : ℕ) (hn : n < 25600), (View.write (Elt F) (rawV).view fraw (tile_body.sl.dma0 d L fi) Finset.univ) (ix1 (⟨n, hn⟩ : Fin 25600))
      = fi (ix1 (⟨25600 * widL L + n, by unfold widL; omega⟩ : Fin 819200)) := by
    intro n hn
    show ((View.whole (cc0_scratch0 : Ref sig .scVector)).write (Elt F) fraw (tile_body.sl.dma0 d L fi) Finset.univ) _ = _
    rw [View.write_whole_univ]
    show (iSl L).view.read (Elt F) fi (ix1 (⟨n, hn⟩ : Fin 25600)) = _
    refine ((View.read_apply _ _).trans (cast_eq _ _)).trans ?_
    refine congrArg fi (funext fun a => ?_)
    match a with
    | ⟨0, _⟩ =>
      apply Fin.ext
      show ((Rect.unit (s := S819200) (k0_off1 L) S25600.size (k0_off1_inb L)).emb (ix1 (⟨n, hn⟩ : Fin 25600)) ⟨0, by decide⟩ : ℕ) = _
      rw [Rect.emb_apply, Rect.off_unit, Rect.stride_unit]
      have e0 : k0_off1 L 0 = 51200 * (L 1).val + 25600 * (L 0).val := by rw [k0_off1_eq]; rfl
      show k0_off1 L 0 + 1 * n = 25600 * widL L + n
      rw [e0]; unfold widL; omega
  -- fill row buffer 0 for block 0
  sl_for (invFill0 (F := F) d L (View.write (Elt F) (wvV).view fwv (tile_body.sl.dma0_1 d (fw)) Finset.univ)
      (View.write (Elt F) (rawV).view fraw (tile_body.sl.dma0 d L (fi)) Finset.univ) 0) $$ [Hraw' Hr0']
  case region =>
    intro k _
    unfold invFill0
    iintro ⟨Hraw, %f, Hr0, %hP⟩
    sl_exec_parts
    sl_step
    isplitl [Hraw]; · iexact Hraw
    iexists _
    isplitl [Hr0]; · iexact Hr0
    ipureintro
    exact rowsDone_step (r0V).view (View.write (Elt F) (wvV).view fwv (tile_body.sl.dma0_1 d (fw)) Finset.univ)
      (View.write (Elt F) (rawV).view fraw (tile_body.sl.dma0 d L (fi)) Finset.univ) 0 k.val (offA k) (offA_inb k) (offA_eq k) (k0_off2 k) (k0_off2_inb k)
      (by rw [k0_off2_eq]; simp) f hP
  · unfold invFill0
    isplitl [Hraw']; · iexact Hraw'
    iexists _
    isplitl [Hr0']; · iexact Hr0'
    ipureintro; exact rowsDone_zero _ _ _ _ _
  iintro %_ HI
  unfold invFill0
  icases HI with ⟨Hraw, %f0, Hr0, %hf0⟩
  sl_exec_parts
  -- fill row buffer 1 for block 1
  sl_for (invFill1 (F := F) d L (View.write (Elt F) (wvV).view fwv (tile_body.sl.dma0_1 d fw) Finset.univ)
      (View.write (Elt F) (rawV).view fraw (tile_body.sl.dma0 d L fi) Finset.univ) 64) $$ [Hraw Hr1']
  case region =>
    intro k _
    unfold invFill1
    iintro ⟨Hraw, %f, Hr1, %hP⟩
    sl_exec_parts
    sl_step
    isplitl [Hraw]; · iexact Hraw
    iexists _
    isplitl [Hr1]; · iexact Hr1
    ipureintro
    exact rowsDone_step (r1V).view (View.write (Elt F) (wvV).view fwv (tile_body.sl.dma0_1 d fw) Finset.univ)
      (View.write (Elt F) (rawV).view fraw (tile_body.sl.dma0 d L fi) Finset.univ) 64 k.val (offB k) (offB_inb k) (offB_eq k) (k0_off36 k) (k0_off36_inb k)
      (by rw [k0_off36_eq]; simp; omega) f hP
  · unfold invFill1
    isplitl [Hraw]; · iexact Hraw
    iexists _
    isplitl [Hr1']; · iexact Hr1'
    ipureintro; exact rowsDone_zero _ _ _ _ _
  iintro %_ HI
  unfold invFill1
  icases HI with ⟨Hraw, %f1, Hr1, %hf1⟩
  sl_exec_parts
  -- the copy-out loop
  sl_for (inv3 (F := F) d L (View.write (Elt F) (wvV).view fwv (tile_body.sl.dma0_1 d fw) Finset.univ)
      (View.write (Elt F) (rawV).view fraw (tile_body.sl.dma0 d L fi) Finset.univ) fw fi fo O
      (insert (SemLoc.dma (SemArray.sem cc0_scoped1), (default : HIx 1)) (insert (SemLoc.dma (SemArray.sem cc0_scoped0), (default : HIx 1)) W))) $$ [Hmw Hraw HsemA Hr0 HsemB Hr1 Hpend HO]
  case region =>
    intro k _
    unfold inv3
    iintro ⟨Hmw, Hraw, HfA, HfB, Hdone, Hpend, %W', %hW', HO⟩
    have hk200 : k.val < 200 := lt_of_lt_of_eq k.isLt trips3'
    by_cases hlt : k.val < 199
    · have k0_h1 : k0_cond1 k = 1#1 := (cond1_iff k).mpr hlt
      have k0_h2 : k0_cond2 k = 1#1 := (cond2_iff k).mpr hlt
      have hmin : min k.val 199 = k.val := by omega
      have hmin' : min (k.val + 1) 199 = k.val + 1 := by omega
      rw [hmin, hmin']
      unfold flightA flightB
      icases HfA with ⟨%offa, %ha, %f0, %paya, ⟨%ea, %hpa⟩, HFA, HrA⟩
      icases HfB with ⟨%offb, %hb, %f1, %payb, ⟨%eb, %hpb⟩, HFB, HrB⟩
      subst ea; subst eb
      -- the two blocks this trip sends out, cut from the rows still to do
      have epend : 25472 - 128 * k.val = 64 + (64 + (25344 - 128 * k.val)) := by omega
      rw [epend]
      ihave Hp2 := (pts_rows_split (F := F) d (25600 * widL L + 128 * k.val + 128) 64 (64 + (25344 - 128 * k.val)) fo).1 $$ Hpend
      icases Hp2 with ⟨Hca, Hp3⟩
      ihave Hp4 := (pts_rows_split (F := F) d (25600 * widL L + 128 * k.val + 128 + 64) 64 (25344 - 128 * k.val) fo).1 $$ Hp3
      icases Hp4 with ⟨Hcb, Hpend⟩
      have hsa : (oSl (k0_off103 L k) (k0_off103_inb L k k0_h1)).view.set = oRows (25600 * widL L + 128 * k.val + 128) 64 :=
        set_oSl' _ _ _ (by rw [k0_off103_eq]; unfold widL; congr 1; omega)
      have hsb : (oSl (k0_off138 L k) (k0_off138_inb L k k0_h2)).view.set = oRows (25600 * widL L + 128 * k.val + 128 + 64) 64 :=
        set_oSl' _ _ _ (by rw [k0_off138_eq]; unfold widL; congr 1; omega)
      ihave Hca' := (Entails.of_eq (show (oLoc d ↦[oRows (25600 * widL L + 128 * k.val + 128) 64]{fullShare} fo : sProp 𝕄)
          = (oSl (k0_off103 L k) (k0_off103_inb L k k0_h1)).view.loc (V d (cV L) (jV L)) ↦[(oSl (k0_off103 L k) (k0_off103_inb L k k0_h1)).view.set]{fullShare} fo by rw [hsa])) $$ Hca
      ihave Hcb' := (Entails.of_eq (show (oLoc d ↦[oRows (25600 * widL L + 128 * k.val + 128 + 64) 64]{fullShare} fo : sProp 𝕄)
          = (oSl (k0_off138 L k) (k0_off138_inb L k k0_h2)).view.loc (V d (cV L) (jV L)) ↦[(oSl (k0_off138 L k) (k0_off138_inb L k k0_h2)).view.set]{fullShare} fo by rw [hsb])) $$ Hcb
      sl_exec_parts
      -- refill row buffer 0
      sl_for (invFill0 (F := F) d L (View.write (Elt F) (wvV).view fwv (tile_body.sl.dma0_1 d fw) Finset.univ) (View.write (Elt F) (rawV).view fraw (tile_body.sl.dma0 d L fi) Finset.univ) (128 * k.val + 128)) $$ [Hraw HrA]
      case region =>
        intro k4 _
        unfold invFill0
        iintro ⟨Hraw, %f, Hr0, %hP⟩
        sl_exec_parts
        sl_step
        isplitl [Hraw]; · iexact Hraw
        iexists _
        isplitl [Hr0]; · iexact Hr0
        ipureintro
        exact rowsDone_step (r0V).view (View.write (Elt F) (wvV).view fwv (tile_body.sl.dma0_1 d fw) Finset.univ) (View.write (Elt F) (rawV).view fraw (tile_body.sl.dma0 d L fi) Finset.univ) (128 * k.val + 128) k4.val (offC k4) (offC_inb k4) (offC_eq k4) (k0_off70 k k4) (k0_off70_inb k k4 k0_h1)
          (by rw [k0_off70_eq]; simp; omega) f hP
      · unfold invFill0
        isplitl [Hraw]; · iexact Hraw
        iexists _
        isplitl [HrA]; · iexact HrA
        ipureintro; exact rowsDone_zero _ _ _ _ _
      iintro %_ HI
      unfold invFill0
      icases HI with ⟨Hraw, %g0, Hr0, %hg0⟩
      sl_exec_parts
      -- refill row buffer 1
      sl_for (invFill1 (F := F) d L (View.write (Elt F) (wvV).view fwv (tile_body.sl.dma0_1 d fw) Finset.univ) (View.write (Elt F) (rawV).view fraw (tile_body.sl.dma0 d L fi) Finset.univ) (128 * k.val + 192)) $$ [Hraw HrB]
      case region =>
        intro k5 _
        unfold invFill1
        iintro ⟨Hraw, %f, Hr1, %hP⟩
        sl_exec_parts
        sl_step
        isplitl [Hraw]; · iexact Hraw
        iexists _
        isplitl [Hr1]; · iexact Hr1
        ipureintro
        exact rowsDone_step (r1V).view (View.write (Elt F) (wvV).view fwv (tile_body.sl.dma0_1 d fw) Finset.univ) (View.write (Elt F) (rawV).view fraw (tile_body.sl.dma0 d L fi) Finset.univ) (128 * k.val + 192) k5.val (offD k5) (offD_inb k5) (offD_eq k5) (k0_off105 k k5) (k0_off105_inb k k5 k0_h2)
          (by rw [k0_off105_eq]; simp; omega) f hP
      · unfold invFill1
        isplitl [Hraw]; · iexact Hraw
        iexists _
        isplitl [HrB]; · iexact HrB
        ipureintro; exact rowsDone_zero _ _ _ _ _
      iintro %_ HI
      unfold invFill1
      icases HI with ⟨Hraw, %g1, Hr1, %hg1⟩
      sl_exec_parts
      sl_step
      -- the invariant before the next trip: the two blocks that landed join the rows done
      ihave HdA := (Entails.of_eq ((chunk_eq (F := F) d L fw fi _ ha (25600 * widL L) (2 * k.val) rfl (by unfold widL; omega) (by omega) (View.write (Elt F) (wvV).view fwv (tile_body.sl.dma0_1 d fw) Finset.univ) (View.write (Elt F) (rawV).view fraw (tile_body.sl.dma0 d L fi) Finset.univ) hwv hraw paya hpa _).trans
          (pts_rows_cast (F := F) d _ (25600 * widL L + 128 * k.val) _ 64 (by omega) rfl _))) $$ HFA_dst
      ihave HdB := (Entails.of_eq ((chunk_eq (F := F) d L fw fi _ hb (25600 * widL L) (2 * k.val + 1) rfl (by unfold widL; omega) (by omega) (View.write (Elt F) (wvV).view fwv (tile_body.sl.dma0_1 d fw) Finset.univ) (View.write (Elt F) (rawV).view fraw (tile_body.sl.dma0 d L fi) Finset.univ) hwv hraw payb hpb _).trans
          (pts_rows_cast (F := F) d _ (25600 * widL L + (128 * k.val + 64)) _ 64 (by omega) rfl _))) $$ HFB_dst
      ihave Hd1 := (pts_rows_split (F := F) d (25600 * widL L) (128 * k.val) 64 (outSpec d fw fi)).2 $$ [Hdone HdA]
      · isplitl [Hdone] <;> iassumption
      ihave Hd2 := (pts_rows_split (F := F) d (25600 * widL L) (128 * k.val + 64) 64 (outSpec d fw fi)).2 $$ [Hd1 HdB]
      · isplitl [Hd1] <;> iassumption
      isplitl [Hmw]; · iexact Hmw
      isplitl [Hraw]; · iexact Hraw
      isplitl [HFA Hr0]
      · iexists (k0_off103 L k), (k0_off103_inb L k k0_h1), g0, _
        isplitr
        swap
        · isplitl [HFA]; · iexact HFA
          iexact Hr0
        · ipureintro
          exact ⟨by rw [k0_off103_eq]; unfold widL; congr 1; omega,
            pay_of_done (r0V).view _ _ (128 * k.val + 128) _ _ trips4' (by omega) g0 hg0⟩
      isplitl [HFB Hr1]
      · iexists (k0_off138 L k), (k0_off138_inb L k k0_h2), g1, _
        isplitr
        swap
        · isplitl [HFB]; · iexact HFB
          iexact Hr1
        · ipureintro
          exact ⟨by rw [k0_off138_eq]; unfold widL; congr 1; omega,
            pay_of_done (r1V).view _ _ (128 * k.val + 192) _ _ trips5' (by omega) g1 hg1⟩
      isplitl [Hd2]
      · iapply (Entails.of_eq (pts_rows_cast (F := F) d (25600 * widL L) (25600 * widL L) (128 * k.val + 64 + 64) (128 * (k.val + 1)) rfl (by omega) (outSpec d fw fi))); iexact Hd2
      isplitl [Hpend]
      · iapply (Entails.of_eq (pts_rows_cast (F := F) d (25600 * widL L + 128 * k.val + 128 + 64 + 64) (25600 * widL L + 128 * (k.val + 1) + 128)
          (25344 - 128 * k.val) (25472 - 128 * (k.val + 1)) (by omega) (by omega) fo)); iexact Hpend
      iexists _; isplitr
      swap
      · iexact HO
      ipureintro; intro p hp
      rcases Finset.mem_insert.mp hp with hp | hp; · exact .inr (hp ▸ rfl)
      rcases Finset.mem_insert.mp hp with hp | hp; · exact .inr (hp ▸ rfl)
      exact hW' p hp
    · have k0_h1 : ¬ k0_cond1 k = 1#1 := fun h => hlt ((cond1_iff k).mp h)
      have k0_h2 : ¬ k0_cond2 k = 1#1 := fun h => hlt ((cond2_iff k).mp h)
      have hmin : min (k.val + 1) 199 = min k.val 199 := by omega
      rw [hmin]
      sl_exec_parts
      sl_step
      isplitl [Hmw]; · iexact Hmw
      isplitl [Hraw]; · iexact Hraw
      isplitl [HfA]; · iexact HfA
      isplitl [HfB]; · iexact HfB
      isplitl [Hdone]; · iexact Hdone
      isplitl [Hpend]; · iexact Hpend
      iexists W'; isplitr
      · ipureintro; exact hW'
      · iexact HO
  · unfold inv3
    rw [show min 0 199 = 0 from rfl]
    isplitl [Hmw]; · iexact Hmw
    isplitl [Hraw]; · iexact Hraw
    isplitl [HsemA Hr0]
    · unfold flightA
      iexists (k0_off35 L 0#32), (inb35_0 L), f0, _
      isplitr
      swap
      · isplitl [HsemA]; · iexact HsemA
        iexact Hr0
      · ipureintro
        exact ⟨by rw [off35_0]; unfold widL; congr 1; omega, pay_of_done (r0V).view _ _ 0 _ _ trips1' (by omega) f0 hf0⟩
    isplitl [HsemB Hr1]
    · unfold flightB
      iexists (k0_off35 L 64#32), (inb35_1 L), f1, _
      isplitr
      swap
      · isplitl [HsemB]; · iexact HsemB
        iexact Hr1
      · ipureintro
        exact ⟨by rw [off35_1]; unfold widL; congr 1; omega, pay_of_done (r1V).view _ _ 64 _ _ trips2' (by omega) f1 hf1⟩
    isplitr
    · rw [show oRows (25600 * widL L) (128 * 0) = ∅ from oRows_zero _, pointsTo_empty]; iempintro
    isplitl [Hpend]
    · iapply (Entails.of_eq (pts_rows_cast (F := F) d (25600 * widL L + 64 + 64) (25600 * widL L + 128 * 0 + 128) 25472 (25472 - 128 * 0) (by omega) (by omega) fo)); iexact Hpend
    iexists _; isplitr
    swap
    · iexact HO
    ipureintro; exact fun p hp => .inl hp
  iintro %_ HI
  unfold inv3
  rw [trips3', show min 200 199 = 199 from rfl]
  icases HI with ⟨Hmw, Hraw, HfA, HfB, Hdone, Hpend, %W', %hW', HO⟩
  unfold flightA flightB
  icases HfA with ⟨%offa, %ha, %f0', %paya, ⟨%ea, %hpa⟩, HFA, HrA⟩
  icases HfB with ⟨%offb, %hb, %f1', %payb, ⟨%eb, %hpb⟩, HFB, HrB⟩
  subst ea; subst eb
  sl_exec_parts
  sl_step
  ihave HdA := (Entails.of_eq ((chunk_eq (F := F) d L fw fi _ ha (25600 * widL L) (2 * 199) rfl (by unfold widL; omega) (by omega) (View.write (Elt F) (wvV).view fwv (tile_body.sl.dma0_1 d fw) Finset.univ) (View.write (Elt F) (rawV).view fraw (tile_body.sl.dma0 d L fi) Finset.univ) hwv hraw paya hpa _).trans
      (pts_rows_cast (F := F) d _ (25600 * widL L + 128 * 199) _ 64 (by omega) rfl _))) $$ HFA_dst
  ihave HdB := (Entails.of_eq ((chunk_eq (F := F) d L fw fi _ hb (25600 * widL L) (2 * 199 + 1) rfl (by unfold widL; omega) (by omega) (View.write (Elt F) (wvV).view fwv (tile_body.sl.dma0_1 d fw) Finset.univ) (View.write (Elt F) (rawV).view fraw (tile_body.sl.dma0 d L fi) Finset.univ) hwv hraw payb hpb _).trans
      (pts_rows_cast (F := F) d _ (25600 * widL L + (128 * 199 + 64)) _ 64 (by omega) rfl _))) $$ HFB_dst
  ihave Hd1 := (pts_rows_split (F := F) d (25600 * widL L) (128 * 199) 64 (outSpec d fw fi)).2 $$ [Hdone HdA]
  · isplitl [Hdone] <;> iassumption
  ihave Hd2 := (pts_rows_split (F := F) d (25600 * widL L) (128 * 199 + 64) 64 (outSpec d fw fi)).2 $$ [Hd1 HdB]
  · isplitl [Hd1] <;> iassumption
  isplitl [Hi' Hw' Hd2]
  · isplitl [Hi']; · iapply (Entails.of_eq (pts_iSl (F := F) d L _)); iexact Hi'
    isplitl [Hw']; · iapply (Entails.of_eq (pts_wV (F := F) d L _ _)); iexact Hw'
    iapply (Entails.of_eq (pts_rows_cast (F := F) d (25600 * widL L) (25600 * widL L) (128 * 199 + 64 + 64) 25600 rfl (by omega) (outSpec d fw fi))); iexact Hd2
  isplitl [Hraw Hwv' HrA HrB Hbufs]
  · isplitl [Hraw]; · iexists _; iexact Hraw
    isplitl [Hwv']; · iexists _; iexact Hwv'
    isplitl [HrA]; · iexists _; iexact HrA
    isplitl [HrB]; · iexists _; iexact HrB
    iexact Hbufs
  isplitl [HFA HFB HsemC HsemD Hsems]
  · isplitl [HFA]; · iexact HFA
    isplitl [HFB]; · iexact HFB
    isplitl [HsemC]; · iexact HsemC
    isplitl [HsemD]; · iexact HsemD
    iexact Hsems
  iexists _; isplitr
  swap
  · iexact HO
  ipureintro; intro p hp
  rcases Finset.mem_insert.mp hp with hp | hp; · exact .inr (hp ▸ rfl)
  rcases Finset.mem_insert.mp hp with hp | hp; · exact .inr (hp ▸ rfl)
  rcases hW' p hp with hp | hp
  · rcases Finset.mem_insert.mp hp with hp | hp; · exact .inr (hp ▸ rfl)
    rcases Finset.mem_insert.mp hp with hp | hp; · exact .inr (hp ▸ rfl)
    exact .inl hp
  · exact .inr hp

end Tile

end Cert.Proof.KI

end
-- ==== Proof.KIBody.lean ====
import proofs.«206715_g21620865368695_cont_8to1_1569_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Writes
import Idealize.ShloMosaic.Lib.ValueIdx
import proofs.«206715_g21620865368695_cont_8to1_1569_15_alg».proof.Proof.Gen.KernelIdeal
import proofs.«206715_g21620865368695_cont_8to1_1569_15_alg».proof.Proof.Gen.KernelIdeal.Skeleton
import proofs.«206715_g21620865368695_cont_8to1_1569_15_alg».proof.Proof.KITile
import proofs.«206715_g21620865368695_cont_8to1_1569_15_alg».proof.Proof.KIObl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-- The tile's task, for every tile and every contents of the three arrays: what the launch asks of each task. -/
theorem tileBody [FloatOps F] (fw : (d : Dev nD) → Buf (Elt F) (wLoc d)) (fi : (d : Dev nD) → Buf (Elt F) (iLoc d))
    (fo : (d : Dev nD) → Buf (Elt F) (oLoc d)) : TileBody (F := F) fw fi fo := by
  intro d L O W hO
  unfold goRes tdRes
  exact tile_body d L (fw d) (fi d) (fo d) facts O W hO (wTok (widL L))

end Cert.Proof.KI

end
-- ==== Proof.KBTile.lean ====
import proofs.«206715_g21620865368695_cont_8to1_1569_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Writes
import Idealize.ShloMosaic.Lib.ValueIdx
import proofs.«206715_g21620865368695_cont_8to1_1569_15_alg».proof.Proof.Gen.Kernel
import proofs.«206715_g21620865368695_cont_8to1_1569_15_alg».proof.Proof.Gen.Kernel.Skeleton
import proofs.«206715_g21620865368695_cont_8to1_1569_15_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "wV" => (Memref.whole Cert.Kernel.main_v3_scv : Memref Cert.Kernel.sig Kind.scVector Space.hbm Cert.Kernel.S512 EltTy.f32)
local notation "iV" => (Memref.whole Cert.Kernel.main_v4_scv : Memref Cert.Kernel.sig Kind.scVector Space.hbm Cert.Kernel.S819200 EltTy.i32)
local notation "oV" => (Memref.whole Cert.Kernel.main_v5_scv : Memref Cert.Kernel.sig Kind.scVector Space.hbm Cert.Kernel.S819200x512 EltTy.f32)
local notation "rawV" => (Memref.whole Cert.Kernel.cc0_scratch0 : Memref Cert.Kernel.sig Kind.scVector Space.vmem Cert.Kernel.S25600 EltTy.i32)
local notation "wvV" => (Memref.whole Cert.Kernel.cc0_scratch1 : Memref Cert.Kernel.sig Kind.scVector Space.vmem Cert.Kernel.S512 EltTy.f32)
local notation "r0V" => (Memref.whole Cert.Kernel.cc0_scratch2 : Memref Cert.Kernel.sig Kind.scVector Space.vmem Cert.Kernel.S64x512 EltTy.f32)
local notation "r1V" => (Memref.whole Cert.Kernel.cc0_scratch3 : Memref Cert.Kernel.sig Kind.scVector Space.vmem Cert.Kernel.S64x512 EltTy.f32)

section Tile

variable [FloatOps F] (d : Dev nD) (L : grid0.Coords)

/-! ## What a filled row buffer holds -/

/-- Word `n` of the index scratch (word 0 past its end, never read). -/
def rawN (rawc : S25600.Idx → Elt F .i32) (n : ℕ) : Elt F .i32 :=
  if h : n < 25600 then rawc (ix1 (⟨n, h⟩ : Fin 25600)) else rawc (ix1 (⟨0, by decide⟩ : Fin 25600))

/-- Entry (r, col) of the row buffer filled for the 64 index words from word `cb` on: lane `col` of the scaled row
    times the signed value of word `cb + r`. -/
def rowG (wvc : S512.Idx → Elt F .f32) (rawc : S25600.Idx → Elt F .i32) (cb : ℕ) : S64x512.Idx → Elt F .f32 :=
  fun y => FloatOps.mulf (wvc (ix1 (y 1))) (FloatOps.sitofp .f32 (rawN rawc (cb + (y 0).val)))

theorem rowG_hG (wvc : S512.Idx → Elt F .f32) (rawc : S25600.Idx → Elt F .i32) (cb k : ℕ) (roff : Fin 1 → ℕ)
    (h : ∀ a, roff a + S16.size a ≤ S25600.size a) (hroff : roff 0 = cb + 16 * k) :
    ∀ (l : Fin 16) (m : Fin 32) (j : Fin 16) (y : S64x512.Idx), (y 0).val = 16 * k + l.val → (y 1).val = 16 * m.val + j.val →
      rowG wvc rawc cb y = FloatOps.mulf (wA wvc m (ix1 j)) (xvOf rawc roff h (ix1 l)) := by
  intro l m j y h0 h1
  rw [wA_apply, xvOf_apply]
  unfold rowG rawN
  have hlt : cb + (y 0).val < 25600 := by have := h 0; simp at this; omega
  rw [dif_pos hlt]
  have e1 : (y 1) = (⟨16 * m.val + j.val, by omega⟩ : Fin 512) := Fin.ext h1
  have e2 : (⟨cb + (y 0).val, hlt⟩ : Fin 25600) = ⟨roff 0 + l.val, by omega⟩ := Fin.ext (by simp; omega)
  rw [e1, e2]

/-- The first `16 k` rows of a row buffer hold what the fill computes. -/
def RowsDone {sg : RefSig} {κ : Kind} {sp : Space} (v : View sg κ sp S64x512 .f32) (wvc : S512.Idx → Elt F .f32) (rawc : S25600.Idx → Elt F .i32) (cb k : ℕ)
    (f : v.ty.Contents (Elt F)) : Prop :=
  ∀ y : S64x512.Idx, (y 0).val < 16 * k → v.read (Elt F) f y = rowG wvc rawc cb y

theorem rowsDone_zero {sg : RefSig} {κ : Kind} {sp : Space} (v : View sg κ sp S64x512 .f32) (wvc : S512.Idx → Elt F .f32) (rawc : S25600.Idx → Elt F .i32) (cb : ℕ)
    (f : v.ty.Contents (Elt F)) : RowsDone v wvc rawc cb 0 f := fun y h => absurd h (by omega)

/-- One trip of a fill loop takes `RowsDone k` to `RowsDone (k + 1)`. -/
theorem rowsDone_step {sg : RefSig} {κ : Kind} {sp : Space} (v : View sg κ sp S64x512 .f32) (wvc : S512.Idx → Elt F .f32) (rawc : S25600.Idx → Elt F .i32) (cb k : ℕ)
    (off : Fin 16 → Fin 32 → (Fin 2 → Nat)) (hinb : ∀ l m a, off l m a + S1x16.size a ≤ S64x512.size a)
    (hoff : ∀ l m, off l m = ![16 * k + l.val, 16 * m.val])
    (roff : Fin 1 → ℕ) (h : ∀ a, roff a + S16.size a ≤ S25600.size a) (hroff : roff 0 = cb + 16 * k)
    (f : v.ty.Contents (Elt F)) (hf : RowsDone v wvc rawc cb k f) :
    RowsDone v wvc rawc cb (k + 1) (v.writes (Elt F) f (allPieces off hinb (wA wvc) (xvOf rawc roff h) 16 le_rfl)) :=
  fill_step off hinb (wA wvc) (xvOf rawc roff h) v k hoff (rowG wvc rawc cb) (rowG_hG wvc rawc cb k roff h hroff) f hf

/-! ## The fill loops' invariants -/

/-- Before trip `k` of a fill of row buffer 0: the index scratch as it stands, the buffer's first `16 k` rows filled. -/
def invFill0 (wvc : S512.Idx → Elt F .f32) (rawc : S25600.Idx → Elt F .i32) (cb : ℕ) (k : Nat) (_ : PUnit) : sProp 𝕄 :=
  iprop(((rawV).view.loc (V d (cV L) (jV L)) ↦{fullShare} rawc)
    ∗ ∃ f, ((r0V).view.loc (V d (cV L) (jV L)) ↦{fullShare} f) ∗ ⌜RowsDone (r0V).view wvc rawc cb k f⌝)
/-- The same for row buffer 1. -/
def invFill1 (wvc : S512.Idx → Elt F .f32) (rawc : S25600.Idx → Elt F .i32) (cb : ℕ) (k : Nat) (_ : PUnit) : sProp 𝕄 :=
  iprop(((rawV).view.loc (V d (cV L) (jV L)) ↦{fullShare} rawc)
    ∗ ∃ f, ((r1V).view.loc (V d (cV L) (jV L)) ↦{fullShare} f) ∗ ⌜RowsDone (r1V).view wvc rawc cb k f⌝)

omit [FloatOps F] in
theorem trips1 : k0_t1_loop.trips = 4 := by decide +kernel
omit [FloatOps F] in
theorem trips2 : k0_t2_loop.trips = 4 := by decide +kernel
omit [FloatOps F] in
theorem trips4 : k0_t4_loop.trips = 4 := by decide +kernel
omit [FloatOps F] in
theorem trips5 : k0_t5_loop.trips = 4 := by decide +kernel

omit [FloatOps F] in
theorem inb35_0 (L : grid0.Coords) : ∀ a, (k0_off35 L 0#32) a + S64x512.size a ≤ S819200x512.size a := k0_off35_inb L 0
omit [FloatOps F] in
theorem inb35_1 (L : grid0.Coords) : ∀ a, (k0_off35 L 64#32) a + S64x512.size a ≤ S819200x512.size a := k0_off35_inb L 1
omit [FloatOps F] in
theorem inb35_2 (L : grid0.Coords) : ∀ a, (k0_off35 L 25472#32) a + S64x512.size a ≤ S819200x512.size a := k0_off35_inb L 2
omit [FloatOps F] in
theorem inb35_3 (L : grid0.Coords) : ∀ a, (k0_off35 L 25536#32) a + S64x512.size a ≤ S819200x512.size a := k0_off35_inb L 3

omit [FloatOps F] in
/-- A 64-row block of the result addressed at a closed offset is those rows. -/
theorem set_oSl' (off : Fin 2 → ℕ) (h : ∀ a, off a + S64x512.size a ≤ S819200x512.size a) (b : ℕ) (e : off = ![b, 0]) :
    (oSl off h).view.set = oRows b 64 := by
  subst e
  exact set_oSl _ h rfl

variable (fw : Buf (Elt F) (wLoc d)) (fi : Buf (Elt F) (iLoc d)) (fo : Buf (Elt F) (oLoc d))

/-! ## A copied-out block is the product on its rows -/

theorem rawN_of_lt (rawc : S25600.Idx → Elt F .i32) (n : ℕ) (h : n < 25600) : rawN rawc n = rawc (ix1 (⟨n, h⟩ : Fin 25600)) := by
  unfold rawN; rw [dif_pos h]

/-- 64 rows of the result written whole with a filled row buffer's contents are the product there. -/
theorem chunk_eq (off : Fin 2 → ℕ) (h : ∀ a, off a + S64x512.size a ≤ S819200x512.size a) (b c : ℕ) (e : off = ![b + 64 * c, 0])
    (hb : b + 25600 ≤ 819200) (hc : 64 * c + 64 ≤ 25600)
    (wvc : S512.Idx → Elt F .f32) (rawc : S25600.Idx → Elt F .i32) (hw : ∀ j, wvc j = fw j)
    (hr : ∀ (n : ℕ) (hn : n < 25600), rawc (ix1 (⟨n, hn⟩ : Fin 25600)) = fi (ix1 (⟨b + n, by omega⟩ : Fin 819200)))
    (pay : S64x512.Idx → Elt F .f32) (hpay : ∀ y, pay y = rowG wvc rawc (64 * c) y) (g0 : Buf (Elt F) (oLoc d)) :
    ((oSl off h).view.loc (V d (cV L) (jV L)) ↦[(oSl off h).view.set]{fullShare} (oSl off h).view.writes (Elt F) g0 [⟨Rect.whole S64x512, pay⟩] : sProp 𝕄)
      = oLoc d ↦[oRows (b + 64 * c) 64]{fullShare} outSpec d fw fi := by
  subst e
  rw [set_oSl' _ h _ rfl]
  show (oLoc d ↦[oRows (b + 64 * c) 64]{fullShare} _ : sProp 𝕄) = _
  refine pointsTo_congr fun i hi => ?_
  rw [mem_oRows] at hi
  have h0 : (i 0).val - (b + 64 * c) < 64 := by omega
  have h1 : (i 1).val < 512 := (i 1).isLt
  obtain ⟨y, hy0, hy1⟩ : ∃ y : S64x512.Idx, (y 0).val = (i 0).val - (b + 64 * c) ∧ (y 1).val = (i 1).val :=
    ⟨ix2 (⟨(i 0).val - (b + 64 * c), h0⟩ : Fin 64) (⟨(i 1).val, h1⟩ : Fin 512), rfl, rfl⟩
  have hy : (oSl ![b + 64 * c, 0] h).view.emb y = i := by
    funext a; apply Fin.ext
    show ((Rect.unit (s := S819200x512) ![b + 64 * c, 0] S64x512.size h).emb y a : ℕ) = _
    rw [Rect.emb_apply, Rect.off_unit, Rect.stride_unit]
    match a with
    | ⟨0, _⟩ => show (b + 64 * c) + 1 * (y 0).val = (i 0).val; omega
    | ⟨1, _⟩ => show 0 + 1 * (y 1).val = (i 1).val; omega
  have hread : ((oSl ![b + 64 * c, 0] h).view.writes (Elt F) g0 [⟨Rect.whole S64x512, pay⟩]) ((oSl ![b + 64 * c, 0] h).view.emb y)
      = (oSl ![b + 64 * c, 0] h).view.read (Elt F) ((oSl ![b + 64 * c, 0] h).view.writes (Elt F) g0 [⟨Rect.whole S64x512, pay⟩]) y :=
    ((View.read_apply _ _).trans (cast_eq _ _)).symm
  have hpc : (oSl ![b + 64 * c, 0] h).view.read (Elt F) ((oSl ![b + 64 * c, 0] h).view.writes (Elt F) g0 [⟨Rect.whole S64x512, pay⟩]) y = pay y :=
    View.read_writes_apply_of_pieces (v := (oSl ![b + 64 * c, 0] h).view) (f := g0) pay [⟨Rect.whole S64x512, pay⟩]
      (by intro p hp x; rw [List.mem_singleton] at hp; subst hp; show pay x = pay ((Rect.whole S64x512).emb x); rw [Rect.emb_whole_apply])
      y ⟨_, List.mem_singleton_self _, by rw [Rect.set_whole]; exact Finset.mem_univ _⟩
  rw [← hy, hread, hpc, hpay, hy]
  unfold rowG outSpec
  have hlt : 64 * c + (y 0).val < 25600 := by omega
  rw [rawN_of_lt _ _ hlt, hr _ hlt, hw]
  have e1 : (ix1 (y 1) : S512.Idx) = ix1 (i 1) := by funext a; match a with | ⟨0, _⟩ => exact Fin.ext hy1
  have e0 : (ix1 (⟨b + (64 * c + (y 0).val), by omega⟩ : Fin 819200) : S819200.Idx) = ix1 (i 0) := by
    funext a; match a with | ⟨0, _⟩ => exact Fin.ext (by show b + (64 * c + (y 0).val) = (i 0).val; omega)
  rw [e1, e0]
  rfl

/-! ## The copy-out loop's invariant -/

/-- Block `c` of the tile's rows is on its way out of row buffer 0. -/
def flightA (wvc : S512.Idx → Elt F .f32) (rawc : S25600.Idx → Elt F .i32) (fo : Buf (Elt F) (oLoc d)) (c : ℕ) : sProp 𝕄 :=
  iprop(∃ (off : Fin 2 → ℕ) (h : ∀ a, off a + S64x512.size a ≤ S819200x512.size a)
      (f0 : Buf (Elt F) ((r0V).view.loc (V d (cV L) (jV L)))) (pay : S64x512.Idx → Elt F .f32),
    ⌜off = ![25600 * widL L + 64 * c, 0] ∧ ∀ y, pay y = rowG wvc rawc (64 * c) y⌝
    ∗ Transfers.Flight countersEmb (V d (cV L) (jV L)) (SemLoc.dma (SemArray.sem cc0_scratch4)) (default : HIx 1) 1048576
        iprop(((oSl off h).view.loc (V d (cV L) (jV L)) ↦[(oSl off h).view.set]{fullShare}
              (oSl off h).view.writes (Elt F) fo [⟨Rect.whole S64x512, pay⟩])
          ∗ ((r0V).view.loc (V d (cV L) (jV L)) ↦[(r0V).view.set]{fullShare} f0))
    ∗ ((r0V).view.loc (V d (cV L) (jV L)) ↦[Finset.univ \ (r0V).view.set]{fullShare} f0))

/-- Block `c` of the tile's rows is on its way out of row buffer 1. -/
def flightB (wvc : S512.Idx → Elt F .f32) (rawc : S25600.Idx → Elt F .i32) (fo : Buf (Elt F) (oLoc d)) (c : ℕ) : sProp 𝕄 :=
  iprop(∃ (off : Fin 2 → ℕ) (h : ∀ a, off a + S64x512.size a ≤ S819200x512.size a)
      (f0 : Buf (Elt F) ((r1V).view.loc (V d (cV L) (jV L)))) (pay : S64x512.Idx → Elt F .f32),
    ⌜off = ![25600 * widL L + 64 * c, 0] ∧ ∀ y, pay y = rowG wvc rawc (64 * c) y⌝
    ∗ Transfers.Flight countersEmb (V d (cV L) (jV L)) (SemLoc.dma (SemArray.sem cc0_scratch5)) (default : HIx 1) 1048576
        iprop(((oSl off h).view.loc (V d (cV L) (jV L)) ↦[(oSl off h).view.set]{fullShare}
              (oSl off h).view.writes (Elt F) fo [⟨Rect.whole S64x512, pay⟩])
          ∗ ((r1V).view.loc (V d (cV L) (jV L)) ↦[(r1V).view.set]{fullShare} f0))
    ∗ ((r1V).view.loc (V d (cV L) (jV L)) ↦[Finset.univ \ (r1V).view.set]{fullShare} f0))

/-- Before trip `j` of the copy-out loop (`J = min j 199`): blocks `2 J` and `2 J + 1` in flight, the rows of the blocks
    before them at the product, the rows after them as they were. -/
def inv3 (wvc : S512.Idx → Elt F .f32) (rawc : S25600.Idx → Elt F .i32) (fw : Buf (Elt F) (wLoc d)) (fi : Buf (Elt F) (iLoc d))
    (fo : Buf (Elt F) (oLoc d)) (O : CellTallies nD τ sig (HIx 1)) (W : Waits sig (HIx 1)) (j : Nat) (_ : PUnit) : sProp 𝕄 :=
  iprop(Transfers.MayWaits (V d (cV L) (jV L)) (default : HIx 1) O
    ∗ ((rawV).view.loc (V d (cV L) (jV L)) ↦{fullShare} rawc)
    ∗ flightA d L wvc rawc fo (2 * min j 199)
    ∗ flightB d L wvc rawc fo (2 * min j 199 + 1)
    ∗ (oLoc d ↦[oRows (25600 * widL L) (128 * min j 199)]{fullShare} outSpec d fw fi)
    ∗ (oLoc d ↦[oRows (25600 * widL L + 128 * min j 199 + 128) (25472 - 128 * min j 199)]{fullShare} fo)
    ∗ ∃ W', ⌜∀ p ∈ W', p ∈ W ∨ p.2 = none⌝ ∗ owes (V d (cV L) (jV L)) O W')

omit [FloatOps F] in
theorem pts_rows_cast (b b' n n' : ℕ) (hb : b = b') (hn : n = n') (f : Buf (Elt F) (oLoc d)) :
    (oLoc d ↦[oRows b n]{fullShare} f : sProp 𝕄) = oLoc d ↦[oRows b' n']{fullShare} f := by subst hb; subst hn; rfl
omit [FloatOps F] in
theorem oRows_zero (b : ℕ) : oRows b 0 = ∅ := by ext x; simp [mem_oRows]
omit [FloatOps F] in
theorem trips3' : Scf.trips k0_t3_loop.lb k0_t3_loop.ub k0_t3_loop.st = 200 := by decide +kernel
omit [FloatOps F] in
theorem trips1' : Scf.trips k0_t1_loop.lb k0_t1_loop.ub k0_t1_loop.st = 4 := by decide +kernel
omit [FloatOps F] in
theorem trips2' : Scf.trips k0_t2_loop.lb k0_t2_loop.ub k0_t2_loop.st = 4 := by decide +kernel
omit [FloatOps F] in
theorem trips4' : Scf.trips k0_t4_loop.lb k0_t4_loop.ub k0_t4_loop.st = 4 := by decide +kernel
omit [FloatOps F] in
theorem trips5' : Scf.trips k0_t5_loop.lb k0_t5_loop.ub k0_t5_loop.st = 4 := by decide +kernel

/-- A filled row buffer read whole is the fill's function. -/
theorem pay_of_done {sg : RefSig} {κ : Kind} {sp : Space} (v : View sg κ sp S64x512 .f32) (wvc : S512.Idx → Elt F .f32) (rawc : S25600.Idx → Elt F .i32)
    (cb cb' n : ℕ) (hn : n = 4) (hcb : cb' = cb) (f : v.ty.Contents (Elt F)) (hf : RowsDone v wvc rawc cb n f) :
    ∀ y, ReadAs.same.apply (v.read (Elt F) f) y = rowG wvc rawc cb' y := by
  subst hn; subst hcb
  intro y
  have hy : (y 0).val < 64 := (y 0).isLt
  exact hf y (by omega)

set_option maxHeartbeats 8000000 in
theorem tile_body (hF : (K (F := F)).Facts) (O : CellTallies nD τ sig (HIx 1)) (W : Waits sig (HIx 1)) (hO : ∀ g, O g none = 0)
    (q : PosShare TreeShare) :
    iprop(levAts (K (F := F)).L (K (F := F)).lev ∗ emp
        ∗ ((iLoc d ↦[iBlk (widL L)]{fullShare} fi : sProp 𝕄) ∗ (wLoc d ↦{q} fw) ∗ (oLoc d ↦[oRows (25600 * widL L) 25600]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L wV (Memref.isWhole_whole _) iV (Memref.isWhole_whole _) oV (Memref.isWhole_whole _)
            rawV (Memref.isWhole_whole _) wvV (Memref.isWhole_whole _) r0V (Memref.isWhole_whole _) r1V (Memref.isWhole_whole _)
            cc0_scratch4 cc0_scratch5 cc0_scoped0 cc0_scoped1)
          fun _ => iprop(((iLoc d ↦[iBlk (widL L)]{fullShare} fi : sProp 𝕄) ∗ (wLoc d ↦{q} fw) ∗ (oLoc d ↦[oRows (25600 * widL L) 25600]{fullShare} outSpec d fw fi))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hi, Hw, Ho⟩, ⟨⟨%fraw, Hraw⟩, ⟨%fwv, Hwv⟩, ⟨%fr0, Hr0⟩, ⟨%fr1, Hr1⟩, Hbufs⟩, ⟨HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iSl (F := F) d L _).symm) $$ Hi
  ihave Hw' := (Entails.of_eq (pts_wV (F := F) d L _ _).symm) $$ Hw
  ihave Hraw' := (Entails.of_eq (show ((V d (cV L) (jV L)).loc cc0_scratch0 ↦{fullShare} fraw : sProp 𝕄) = (rawV).view.loc (V d (cV L) (jV L)) ↦{fullShare} fraw from rfl)) $$ Hraw
  ihave Hwv' := (Entails.of_eq (show ((V d (cV L) (jV L)).loc cc0_scratch1 ↦{fullShare} fwv : sProp 𝕄) = (wvV).view.loc (V d (cV L) (jV L)) ↦{fullShare} fwv from rfl)) $$ Hwv
  ihave Hr0' := (Entails.of_eq (show ((V d (cV L) (jV L)).loc cc0_scratch2 ↦{fullShare} fr0 : sProp 𝕄) = (r0V).view.loc (V d (cV L) (jV L)) ↦{fullShare} fr0 from rfl)) $$ Hr0
  ihave Hr1' := (Entails.of_eq (show ((V d (cV L) (jV L)).loc cc0_scratch3 ↦{fullShare} fr1 : sProp 𝕄) = (r1V).view.loc (V d (cV L) (jV L)) ↦{fullShare} fr1 from rfl)) $$ Hr1
  -- the first two 64-row blocks of the tile's rows, as the task will address them
  ihave Ho2 := (pts_rows_split (F := F) d (25600 * widL L) 64 (64 + 25472) (fo)).1 $$ Ho
  icases Ho2 with ⟨Hc0, Ho2⟩
  ihave Ho3 := (pts_rows_split (F := F) d (25600 * widL L + 64) 64 25472 (fo)).1 $$ Ho2
  icases Ho3 with ⟨Hc1, Hpend⟩
  have hs0 : (oSl (k0_off35 L 0#32) (inb35_0 L)).view.set = oRows (25600 * widL L) 64 :=
    set_oSl' _ _ _ (by rw [off35_0]; unfold widL; congr 1; omega)
  have hs1 : (oSl (k0_off35 L 64#32) (inb35_1 L)).view.set = oRows (25600 * widL L + 64) 64 :=
    set_oSl' _ _ _ (by rw [off35_1]; unfold widL; congr 1; omega)
  ihave Hc0' := (Entails.of_eq (show (oLoc d ↦[oRows (25600 * widL L) 64]{fullShare} fo : sProp 𝕄)
      = (oSl (k0_off35 L 0#32) (inb35_0 L)).view.loc (V d (cV L) (jV L)) ↦[(oSl (k0_off35 L 0#32) (inb35_0 L)).view.set]{fullShare} fo by rw [hs0])) $$ Hc0
  ihave Hc1' := (Entails.of_eq (show (oLoc d ↦[oRows (25600 * widL L + 64) 64]{fullShare} fo : sProp 𝕄)
      = (oSl (k0_off35 L 64#32) (inb35_1 L)).view.loc (V d (cV L) (jV L)) ↦[(oSl (k0_off35 L 64#32) (inb35_1 L)).view.set]{fullShare} fo by rw [hs1])) $$ Hc1
  sl_exec_parts
  have hL1 : (L 1).val < 16 := (L 1).isLt
  have hL0 : (L 0).val < 2 := (L 0).isLt
  have hwv : ∀ j, (View.write (Elt F) (wvV).view fwv (tile_body.sl.dma0_1 d fw) Finset.univ) j = fw j := by
    intro j
    show ((View.whole (cc0_scratch1 : Ref sig .scVector)).write (Elt F) fwv (tile_body.sl.dma0_1 d fw) Finset.univ) j = _
    rw [View.write_whole_univ]; rfl
  have hraw : ∀ (n : ℕ) (hn : n < 25600), (View.write (Elt F) (rawV).view fraw (tile_body.sl.dma0 d L fi) Finset.univ) (ix1 (⟨n, hn⟩ : Fin 25600))
      = fi (ix1 (⟨25600 * widL L + n, by unfold widL; omega⟩ : Fin 819200)) := by
    intro n hn
    show ((View.whole (cc0_scratch0 : Ref sig .scVector)).write (Elt F) fraw (tile_body.sl.dma0 d L fi) Finset.univ) _ = _
    rw [View.write_whole_univ]
    show (iSl L).view.read (Elt F) fi (ix1 (⟨n, hn⟩ : Fin 25600)) = _
    refine ((View.read_apply _ _).trans (cast_eq _ _)).trans ?_
    refine congrArg fi (funext fun a => ?_)
    match a with
    | ⟨0, _⟩ =>
      apply Fin.ext
      show ((Rect.unit (s := S819200) (k0_off1 L) S25600.size (k0_off1_inb L)).emb (ix1 (⟨n, hn⟩ : Fin 25600)) ⟨0, by decide⟩ : ℕ) = _
      rw [Rect.emb_apply, Rect.off_unit, Rect.stride_unit]
      have e0 : k0_off1 L 0 = 51200 * (L 1).val + 25600 * (L 0).val := by rw [k0_off1_eq]; rfl
      show k0_off1 L 0 + 1 * n = 25600 * widL L + n
      rw [e0]; unfold widL; omega
  -- fill row buffer 0 for block 0
  sl_for (invFill0 (F := F) d L (View.write (Elt F) (wvV).view fwv (tile_body.sl.dma0_1 d (fw)) Finset.univ)
      (View.write (Elt F) (rawV).view fraw (tile_body.sl.dma0 d L (fi)) Finset.univ) 0) $$ [Hraw' Hr0']
  case region =>
    intro k _
    unfold invFill0
    iintro ⟨Hraw, %f, Hr0, %hP⟩
    sl_exec_parts
    sl_step
    isplitl [Hraw]; · iexact Hraw
    iexists _
    isplitl [Hr0]; · iexact Hr0
    ipureintro
    exact rowsDone_step (r0V).view (View.write (Elt F) (wvV).view fwv (tile_body.sl.dma0_1 d (fw)) Finset.univ)
      (View.write (Elt F) (rawV).view fraw (tile_body.sl.dma0 d L (fi)) Finset.univ) 0 k.val (offA k) (offA_inb k) (offA_eq k) (k0_off2 k) (k0_off2_inb k)
      (by rw [k0_off2_eq]; simp) f hP
  · unfold invFill0
    isplitl [Hraw']; · iexact Hraw'
    iexists _
    isplitl [Hr0']; · iexact Hr0'
    ipureintro; exact rowsDone_zero _ _ _ _ _
  iintro %_ HI
  unfold invFill0
  icases HI with ⟨Hraw, %f0, Hr0, %hf0⟩
  sl_exec_parts
  -- fill row buffer 1 for block 1
  sl_for (invFill1 (F := F) d L (View.write (Elt F) (wvV).view fwv (tile_body.sl.dma0_1 d fw) Finset.univ)
      (View.write (Elt F) (rawV).view fraw (tile_body.sl.dma0 d L fi) Finset.univ) 64) $$ [Hraw Hr1']
  case region =>
    intro k _
    unfold invFill1
    iintro ⟨Hraw, %f, Hr1, %hP⟩
    sl_exec_parts
    sl_step
    isplitl [Hraw]; · iexact Hraw
    iexists _
    isplitl [Hr1]; · iexact Hr1
    ipureintro
    exact rowsDone_step (r1V).view (View.write (Elt F) (wvV).view fwv (tile_body.sl.dma0_1 d fw) Finset.univ)
      (View.write (Elt F) (rawV).view fraw (tile_body.sl.dma0 d L fi) Finset.univ) 64 k.val (offB k) (offB_inb k) (offB_eq k) (k0_off36 k) (k0_off36_inb k)
      (by rw [k0_off36_eq]; simp; omega) f hP
  · unfold invFill1
    isplitl [Hraw]; · iexact Hraw
    iexists _
    isplitl [Hr1']; · iexact Hr1'
    ipureintro; exact rowsDone_zero _ _ _ _ _
  iintro %_ HI
  unfold invFill1
  icases HI with ⟨Hraw, %f1, Hr1, %hf1⟩
  sl_exec_parts
  -- the copy-out loop
  sl_for (inv3 (F := F) d L (View.write (Elt F) (wvV).view fwv (tile_body.sl.dma0_1 d fw) Finset.univ)
      (View.write (Elt F) (rawV).view fraw (tile_body.sl.dma0 d L fi) Finset.univ) fw fi fo O
      (insert (SemLoc.dma (SemArray.sem cc0_scoped1), (default : HIx 1)) (insert (SemLoc.dma (SemArray.sem cc0_scoped0), (default : HIx 1)) W))) $$ [Hmw Hraw HsemA Hr0 HsemB Hr1 Hpend HO]
  case region =>
    intro k _
    unfold inv3
    iintro ⟨Hmw, Hraw, HfA, HfB, Hdone, Hpend, %W', %hW', HO⟩
    have hk200 : k.val < 200 := lt_of_lt_of_eq k.isLt trips3'
    by_cases hlt : k.val < 199
    · have k0_h1 : k0_cond1 k = 1#1 := (cond1_iff k).mpr hlt
      have k0_h2 : k0_cond2 k = 1#1 := (cond2_iff k).mpr hlt
      have hmin : min k.val 199 = k.val := by omega
      have hmin' : min (k.val + 1) 199 = k.val + 1 := by omega
      rw [hmin, hmin']
      unfold flightA flightB
      icases HfA with ⟨%offa, %ha, %f0, %paya, ⟨%ea, %hpa⟩, HFA, HrA⟩
      icases HfB with ⟨%offb, %hb, %f1, %payb, ⟨%eb, %hpb⟩, HFB, HrB⟩
      subst ea; subst eb
      -- the two blocks this trip sends out, cut from the rows still to do
      have epend : 25472 - 128 * k.val = 64 + (64 + (25344 - 128 * k.val)) := by omega
      rw [epend]
      ihave Hp2 := (pts_rows_split (F := F) d (25600 * widL L + 128 * k.val + 128) 64 (64 + (25344 - 128 * k.val)) fo).1 $$ Hpend
      icases Hp2 with ⟨Hca, Hp3⟩
      ihave Hp4 := (pts_rows_split (F := F) d (25600 * widL L + 128 * k.val + 128 + 64) 64 (25344 - 128 * k.val) fo).1 $$ Hp3
      icases Hp4 with ⟨Hcb, Hpend⟩
      have hsa : (oSl (k0_off103 L k) (k0_off103_inb L k k0_h1)).view.set = oRows (25600 * widL L + 128 * k.val + 128) 64 :=
        set_oSl' _ _ _ (by rw [k0_off103_eq]; unfold widL; congr 1; omega)
      have hsb : (oSl (k0_off138 L k) (k0_off138_inb L k k0_h2)).view.set = oRows (25600 * widL L + 128 * k.val + 128 + 64) 64 :=
        set_oSl' _ _ _ (by rw [k0_off138_eq]; unfold widL; congr 1; omega)
      ihave Hca' := (Entails.of_eq (show (oLoc d ↦[oRows (25600 * widL L + 128 * k.val + 128) 64]{fullShare} fo : sProp 𝕄)
          = (oSl (k0_off103 L k) (k0_off103_inb L k k0_h1)).view.loc (V d (cV L) (jV L)) ↦[(oSl (k0_off103 L k) (k0_off103_inb L k k0_h1)).view.set]{fullShare} fo by rw [hsa])) $$ Hca
      ihave Hcb' := (Entails.of_eq (show (oLoc d ↦[oRows (25600 * widL L + 128 * k.val + 128 + 64) 64]{fullShare} fo : sProp 𝕄)
          = (oSl (k0_off138 L k) (k0_off138_inb L k k0_h2)).view.loc (V d (cV L) (jV L)) ↦[(oSl (k0_off138 L k) (k0_off138_inb L k k0_h2)).view.set]{fullShare} fo by rw [hsb])) $$ Hcb
      sl_exec_parts
      -- refill row buffer 0
      sl_for (invFill0 (F := F) d L (View.write (Elt F) (wvV).view fwv (tile_body.sl.dma0_1 d fw) Finset.univ) (View.write (Elt F) (rawV).view fraw (tile_body.sl.dma0 d L fi) Finset.univ) (128 * k.val + 128)) $$ [Hraw HrA]
      case region =>
        intro k4 _
        unfold invFill0
        iintro ⟨Hraw, %f, Hr0, %hP⟩
        sl_exec_parts
        sl_step
        isplitl [Hraw]; · iexact Hraw
        iexists _
        isplitl [Hr0]; · iexact Hr0
        ipureintro
        exact rowsDone_step (r0V).view (View.write (Elt F) (wvV).view fwv (tile_body.sl.dma0_1 d fw) Finset.univ) (View.write (Elt F) (rawV).view fraw (tile_body.sl.dma0 d L fi) Finset.univ) (128 * k.val + 128) k4.val (offC k4) (offC_inb k4) (offC_eq k4) (k0_off70 k k4) (k0_off70_inb k k4 k0_h1)
          (by rw [k0_off70_eq]; simp; omega) f hP
      · unfold invFill0
        isplitl [Hraw]; · iexact Hraw
        iexists _
        isplitl [HrA]; · iexact HrA
        ipureintro; exact rowsDone_zero _ _ _ _ _
      iintro %_ HI
      unfold invFill0
      icases HI with ⟨Hraw, %g0, Hr0, %hg0⟩
      sl_exec_parts
      -- refill row buffer 1
      sl_for (invFill1 (F := F) d L (View.write (Elt F) (wvV).view fwv (tile_body.sl.dma0_1 d fw) Finset.univ) (View.write (Elt F) (rawV).view fraw (tile_body.sl.dma0 d L fi) Finset.univ) (128 * k.val + 192)) $$ [Hraw HrB]
      case region =>
        intro k5 _
        unfold invFill1
        iintro ⟨Hraw, %f, Hr1, %hP⟩
        sl_exec_parts
        sl_step
        isplitl [Hraw]; · iexact Hraw
        iexists _
        isplitl [Hr1]; · iexact Hr1
        ipureintro
        exact rowsDone_step (r1V).view (View.write (Elt F) (wvV).view fwv (tile_body.sl.dma0_1 d fw) Finset.univ) (View.write (Elt F) (rawV).view fraw (tile_body.sl.dma0 d L fi) Finset.univ) (128 * k.val + 192) k5.val (offD k5) (offD_inb k5) (offD_eq k5) (k0_off105 k k5) (k0_off105_inb k k5 k0_h2)
          (by rw [k0_off105_eq]; simp; omega) f hP
      · unfold invFill1
        isplitl [Hraw]; · iexact Hraw
        iexists _
        isplitl [HrB]; · iexact HrB
        ipureintro; exact rowsDone_zero _ _ _ _ _
      iintro %_ HI
      unfold invFill1
      icases HI with ⟨Hraw, %g1, Hr1, %hg1⟩
      sl_exec_parts
      sl_step
      -- the invariant before the next trip: the two blocks that landed join the rows done
      ihave HdA := (Entails.of_eq ((chunk_eq (F := F) d L fw fi _ ha (25600 * widL L) (2 * k.val) rfl (by unfold widL; omega) (by omega) (View.write (Elt F) (wvV).view fwv (tile_body.sl.dma0_1 d fw) Finset.univ) (View.write (Elt F) (rawV).view fraw (tile_body.sl.dma0 d L fi) Finset.univ) hwv hraw paya hpa _).trans
          (pts_rows_cast (F := F) d _ (25600 * widL L + 128 * k.val) _ 64 (by omega) rfl _))) $$ HFA_dst
      ihave HdB := (Entails.of_eq ((chunk_eq (F := F) d L fw fi _ hb (25600 * widL L) (2 * k.val + 1) rfl (by unfold widL; omega) (by omega) (View.write (Elt F) (wvV).view fwv (tile_body.sl.dma0_1 d fw) Finset.univ) (View.write (Elt F) (rawV).view fraw (tile_body.sl.dma0 d L fi) Finset.univ) hwv hraw payb hpb _).trans
          (pts_rows_cast (F := F) d _ (25600 * widL L + (128 * k.val + 64)) _ 64 (by omega) rfl _))) $$ HFB_dst
      ihave Hd1 := (pts_rows_split (F := F) d (25600 * widL L) (128 * k.val) 64 (outSpec d fw fi)).2 $$ [Hdone HdA]
      · isplitl [Hdone] <;> iassumption
      ihave Hd2 := (pts_rows_split (F := F) d (25600 * widL L) (128 * k.val + 64) 64 (outSpec d fw fi)).2 $$ [Hd1 HdB]
      · isplitl [Hd1] <;> iassumption
      isplitl [Hmw]; · iexact Hmw
      isplitl [Hraw]; · iexact Hraw
      isplitl [HFA Hr0]
      · iexists (k0_off103 L k), (k0_off103_inb L k k0_h1), g0, _
        isplitr
        swap
        · isplitl [HFA]; · iexact HFA
          iexact Hr0
        · ipureintro
          exact ⟨by rw [k0_off103_eq]; unfold widL; congr 1; omega,
            pay_of_done (r0V).view _ _ (128 * k.val + 128) _ _ trips4' (by omega) g0 hg0⟩
      isplitl [HFB Hr1]
      · iexists (k0_off138 L k), (k0_off138_inb L k k0_h2), g1, _
        isplitr
        swap
        · isplitl [HFB]; · iexact HFB
          iexact Hr1
        · ipureintro
          exact ⟨by rw [k0_off138_eq]; unfold widL; congr 1; omega,
            pay_of_done (r1V).view _ _ (128 * k.val + 192) _ _ trips5' (by omega) g1 hg1⟩
      isplitl [Hd2]
      · iapply (Entails.of_eq (pts_rows_cast (F := F) d (25600 * widL L) (25600 * widL L) (128 * k.val + 64 + 64) (128 * (k.val + 1)) rfl (by omega) (outSpec d fw fi))); iexact Hd2
      isplitl [Hpend]
      · iapply (Entails.of_eq (pts_rows_cast (F := F) d (25600 * widL L + 128 * k.val + 128 + 64 + 64) (25600 * widL L + 128 * (k.val + 1) + 128)
          (25344 - 128 * k.val) (25472 - 128 * (k.val + 1)) (by omega) (by omega) fo)); iexact Hpend
      iexists _; isplitr
      swap
      · iexact HO
      ipureintro; intro p hp
      rcases Finset.mem_insert.mp hp with hp | hp; · exact .inr (hp ▸ rfl)
      rcases Finset.mem_insert.mp hp with hp | hp; · exact .inr (hp ▸ rfl)
      exact hW' p hp
    · have k0_h1 : ¬ k0_cond1 k = 1#1 := fun h => hlt ((cond1_iff k).mp h)
      have k0_h2 : ¬ k0_cond2 k = 1#1 := fun h => hlt ((cond2_iff k).mp h)
      have hmin : min (k.val + 1) 199 = min k.val 199 := by omega
      rw [hmin]
      sl_exec_parts
      sl_step
      isplitl [Hmw]; · iexact Hmw
      isplitl [Hraw]; · iexact Hraw
      isplitl [HfA]; · iexact HfA
      isplitl [HfB]; · iexact HfB
      isplitl [Hdone]; · iexact Hdone
      isplitl [Hpend]; · iexact Hpend
      iexists W'; isplitr
      · ipureintro; exact hW'
      · iexact HO
  · unfold inv3
    rw [show min 0 199 = 0 from rfl]
    isplitl [Hmw]; · iexact Hmw
    isplitl [Hraw]; · iexact Hraw
    isplitl [HsemA Hr0]
    · unfold flightA
      iexists (k0_off35 L 0#32), (inb35_0 L), f0, _
      isplitr
      swap
      · isplitl [HsemA]; · iexact HsemA
        iexact Hr0
      · ipureintro
        exact ⟨by rw [off35_0]; unfold widL; congr 1; omega, pay_of_done (r0V).view _ _ 0 _ _ trips1' (by omega) f0 hf0⟩
    isplitl [HsemB Hr1]
    · unfold flightB
      iexists (k0_off35 L 64#32), (inb35_1 L), f1, _
      isplitr
      swap
      · isplitl [HsemB]; · iexact HsemB
        iexact Hr1
      · ipureintro
        exact ⟨by rw [off35_1]; unfold widL; congr 1; omega, pay_of_done (r1V).view _ _ 64 _ _ trips2' (by omega) f1 hf1⟩
    isplitr
    · rw [show oRows (25600 * widL L) (128 * 0) = ∅ from oRows_zero _, pointsTo_empty]; iempintro
    isplitl [Hpend]
    · iapply (Entails.of_eq (pts_rows_cast (F := F) d (25600 * widL L + 64 + 64) (25600 * widL L + 128 * 0 + 128) 25472 (25472 - 128 * 0) (by omega) (by omega) fo)); iexact Hpend
    iexists _; isplitr
    swap
    · iexact HO
    ipureintro; exact fun p hp => .inl hp
  iintro %_ HI
  unfold inv3
  rw [trips3', show min 200 199 = 199 from rfl]
  icases HI with ⟨Hmw, Hraw, HfA, HfB, Hdone, Hpend, %W', %hW', HO⟩
  unfold flightA flightB
  icases HfA with ⟨%offa, %ha, %f0', %paya, ⟨%ea, %hpa⟩, HFA, HrA⟩
  icases HfB with ⟨%offb, %hb, %f1', %payb, ⟨%eb, %hpb⟩, HFB, HrB⟩
  subst ea; subst eb
  sl_exec_parts
  sl_step
  ihave HdA := (Entails.of_eq ((chunk_eq (F := F) d L fw fi _ ha (25600 * widL L) (2 * 199) rfl (by unfold widL; omega) (by omega) (View.write (Elt F) (wvV).view fwv (tile_body.sl.dma0_1 d fw) Finset.univ) (View.write (Elt F) (rawV).view fraw (tile_body.sl.dma0 d L fi) Finset.univ) hwv hraw paya hpa _).trans
      (pts_rows_cast (F := F) d _ (25600 * widL L + 128 * 199) _ 64 (by omega) rfl _))) $$ HFA_dst
  ihave HdB := (Entails.of_eq ((chunk_eq (F := F) d L fw fi _ hb (25600 * widL L) (2 * 199 + 1) rfl (by unfold widL; omega) (by omega) (View.write (Elt F) (wvV).view fwv (tile_body.sl.dma0_1 d fw) Finset.univ) (View.write (Elt F) (rawV).view fraw (tile_body.sl.dma0 d L fi) Finset.univ) hwv hraw payb hpb _).trans
      (pts_rows_cast (F := F) d _ (25600 * widL L + (128 * 199 + 64)) _ 64 (by omega) rfl _))) $$ HFB_dst
  ihave Hd1 := (pts_rows_split (F := F) d (25600 * widL L) (128 * 199) 64 (outSpec d fw fi)).2 $$ [Hdone HdA]
  · isplitl [Hdone] <;> iassumption
  ihave Hd2 := (pts_rows_split (F := F) d (25600 * widL L) (128 * 199 + 64) 64 (outSpec d fw fi)).2 $$ [Hd1 HdB]
  · isplitl [Hd1] <;> iassumption
  isplitl [Hi' Hw' Hd2]
  · isplitl [Hi']; · iapply (Entails.of_eq (pts_iSl (F := F) d L _)); iexact Hi'
    isplitl [Hw']; · iapply (Entails.of_eq (pts_wV (F := F) d L _ _)); iexact Hw'
    iapply (Entails.of_eq (pts_rows_cast (F := F) d (25600 * widL L) (25600 * widL L) (128 * 199 + 64 + 64) 25600 rfl (by omega) (outSpec d fw fi))); iexact Hd2
  isplitl [Hraw Hwv' HrA HrB Hbufs]
  · isplitl [Hraw]; · iexists _; iexact Hraw
    isplitl [Hwv']; · iexists _; iexact Hwv'
    isplitl [HrA]; · iexists _; iexact HrA
    isplitl [HrB]; · iexists _; iexact HrB
    iexact Hbufs
  isplitl [HFA HFB HsemC HsemD Hsems]
  · isplitl [HFA]; · iexact HFA
    isplitl [HFB]; · iexact HFB
    isplitl [HsemC]; · iexact HsemC
    isplitl [HsemD]; · iexact HsemD
    iexact Hsems
  iexists _; isplitr
  swap
  · iexact HO
  ipureintro; intro p hp
  rcases Finset.mem_insert.mp hp with hp | hp; · exact .inr (hp ▸ rfl)
  rcases Finset.mem_insert.mp hp with hp | hp; · exact .inr (hp ▸ rfl)
  rcases hW' p hp with hp | hp
  · rcases Finset.mem_insert.mp hp with hp | hp; · exact .inr (hp ▸ rfl)
    rcases Finset.mem_insert.mp hp with hp | hp; · exact .inr (hp ▸ rfl)
    exact .inl hp
  · exact .inr hp

end Tile

end Cert.Proof.KB

end
-- ==== Proof.KBBody.lean ====
import proofs.«206715_g21620865368695_cont_8to1_1569_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Writes
import Idealize.ShloMosaic.Lib.ValueIdx
import proofs.«206715_g21620865368695_cont_8to1_1569_15_alg».proof.Proof.Gen.Kernel
import proofs.«206715_g21620865368695_cont_8to1_1569_15_alg».proof.Proof.Gen.Kernel.Skeleton
import proofs.«206715_g21620865368695_cont_8to1_1569_15_alg».proof.Proof.KBTile
import proofs.«206715_g21620865368695_cont_8to1_1569_15_alg».proof.Proof.KBObl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-- The tile's task, for every tile and every contents of the three arrays: what the launch asks of each task. -/
theorem tileBody [FloatOps F] (fw : (d : Dev nD) → Buf (Elt F) (wLoc d)) (fi : (d : Dev nD) → Buf (Elt F) (iLoc d))
    (fo : (d : Dev nD) → Buf (Elt F) (oLoc d)) : TileBody (F := F) fw fi fo := by
  intro d L O W hO
  unfold goRes tdRes
  exact tile_body d L (fw d) (fi d) (fo d) facts O W hO (wTok (widL L))

end Cert.Proof.KB

end
-- ==== Proof.lean ====
/-
  Both programs compute, for every index word w (0 or 1 under the precondition) and every column, the scaled table
  row times the word's value: entry (b, s, col) = (table[1, col] * c) * value(idx[b, s]) with c the binary32 literal
  nearest 512^(1/2), which both carry as the same word (Proof/Spec.lean).

  The kernel: the TensorCore slices row 1 of the table, scales it and flattens the index array, then starts the two
  SparseCores; tile number 2 i + c (subcore i of SparseCore c) owns 25600 consecutive index words and the 25600
  matching rows of the flat result. A tile copies its words and the scaled row into its scratch, and then, 64 rows at
  a time, fills one of two row buffers — row r of a block is the scaled row times the value of word r — and copies the
  buffer out to its rows of the result, the two buffers alternating, each on a DMA semaphore of its own, each copy
  waited for before its buffer is refilled. Proof/KIFill.lean is one fill trip as a statement about 512 disjoint
  sixteen-lane stores; Proof/KITile.lean runs the task at a symbolic tile, carrying "the rows of the blocks before
  the two in flight are the product" through the 200 trips of the copy-out loop; Proof/KIHost.lean splits the three
  arrays among the 32 tiles (the scaled row as read shares), runs the TensorCore's operations and reads the final
  reshape at an index; Proof/KIObl.lean and Proof/KIClaims.lean wrap the task for the launch and state the claims.
  The same text over the word-level program is Proof/KB*.lean (the frame needs no value).

  The reference: jnp.take in fill mode (wrap negative words, gather the row, NaN outside the range), times the mask
  (word != 0) as a float, times c. Under 0 <= word <= 1 the wrap and the range test are the identity, the gather reads
  row 0 or row 1, and row 0 is multiplied by the mask 0: x * 0 = 0 and x * 1 = x for every extended real, so both
  sides are the product above (Proof/RefRun.lean: the reference's run; Proof/RefBridge.lean: its value is the
  specification).
-/
import proofs.«206715_g21620865368695_cont_8to1_1569_15_alg».proof.Defs
import proofs.«206715_g21620865368695_cont_8to1_1569_15_alg».proof.Proof.KIClaims
import proofs.«206715_g21620865368695_cont_8to1_1569_15_alg».proof.Proof.KBClaims
import proofs.«206715_g21620865368695_cont_8to1_1569_15_alg».proof.Proof.KIBody
import proofs.«206715_g21620865368695_cont_8to1_1569_15_alg».proof.Proof.KBBody

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.KB.frame_Kernel_of_body (fun m => Cert.Proof.KB.tileBody _ _ _),
    Cert.Proof.KI.frame_KernelIdeal_of_body (fun m => Cert.Proof.KI.tileBody _ _ _),
    fun m g _ => Cert.RefSide.frame (F := Ideal) m g,
    trivial,
    Cert.Proof.KI.algebraic_of_body (fun m => Cert.Proof.KI.tileBody _ _ _)⟩

end Cert.Proof

end
